-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S_ : Shape := ⟨0, ![]⟩
abbrev S200 : Shape := ⟨1, ![200]⟩
abbrev S8192x1 : Shape := ⟨2, ![8192, 1]⟩

abbrev nBuf : Space → Nat
  | .hbm => 42
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .i32⟩
  | .hbm, ⟨4, _⟩ => ⟨S8192x1024, .bf16⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S200, .f32⟩
  | .hbm, ⟨9, _⟩ => ⟨S8192x1, .i32⟩
  | .hbm, ⟨10, _⟩ => ⟨S200, .f32⟩
  | .hbm, ⟨11, _⟩ => ⟨S_, .f32⟩
  | .hbm, ⟨12, _⟩ => ⟨S200, .f32⟩
  | .hbm, ⟨13, _⟩ => ⟨S8192x1, .i32⟩
  | .hbm, ⟨14, _⟩ => ⟨S200, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S200, .f32⟩
  | .hbm, ⟨19, _⟩ => ⟨S8192x1, .i32⟩
  | .hbm, ⟨20, _⟩ => ⟨S200, .f32⟩
  | .hbm, ⟨21, _⟩ => ⟨S_, .f32⟩
  | .hbm, ⟨22, _⟩ => ⟨S200, .f32⟩
  | .hbm, ⟨23, _⟩ => ⟨S200, .i1⟩
  | .hbm, ⟨24, _⟩ => ⟨S_, .f32⟩
  | .hbm, ⟨25, _⟩ => ⟨S_, .f32⟩
  | .hbm, ⟨26, _⟩ => ⟨S200, .f32⟩
  | .hbm, ⟨27, _⟩ => ⟨S200, .f32⟩
  | .hbm, ⟨28, _⟩ => ⟨S_, .f32⟩
  | .hbm, ⟨29, _⟩ => ⟨S_, .f32⟩
  | .hbm, ⟨30, _⟩ => ⟨S200, .f32⟩
  | .hbm, ⟨31, _⟩ => ⟨S200, .f32⟩
  | .hbm, ⟨32, _⟩ => ⟨S200, .f32⟩
  | .hbm, ⟨33, _⟩ => ⟨S200, .f32⟩
  | .hbm, ⟨34, _⟩ => ⟨S_, .f32⟩
  | .hbm, ⟨35, _⟩ => ⟨S_, .f32⟩
  | .hbm, ⟨36, _⟩ => ⟨S200, .f32⟩
  | .hbm, ⟨37, _⟩ => ⟨S200, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024, .i32⟩
  | .local _ .vmem, ⟨9, _⟩ => ⟨S1024, .i32⟩
  | .local _ .vmem, ⟨10, _⟩ => ⟨S1024, .i32⟩
  | .local _ .vmem, ⟨11, _⟩ => ⟨S1024, .i32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_call2_v0 : Ref sig .tc := ⟨.hbm, 35, rfl⟩
abbrev main_call2_v1 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_cst_8 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let arg1 : BitVec 32 := BitVec.ofNat 32 (i 1).val
  let v16 : BitVec 1 := Scalar.cmpi .eq arg0 arg1
  let v17 : BitVec 32 := Scalar.extui v16
  let c0_i32_6 : BitVec 32 := 0#32
  let v18 : BitVec 1 := Scalar.cmpi .ne v17 c0_i32_6
  v18

def k1_cond3 (i : grid1.Coords) : BitVec 1 :=
  let arg0 : BitVec 32 := BitVec.ofNat 32 (i 0).val
  let arg1 : BitVec 32 := BitVec.ofNat 32 (i 1).val
  let v19 : BitVec 1 := Scalar.cmpi .ne arg0 arg1
  let v20 : BitVec 32 := Scalar.extui v19
  let c0_i32_7 : BitVec 32 := 0#32
  let v21 : BitVec 1 := Scalar.cmpi .ne v20 c0_i32_7
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024_S1024_0 : ∀ a, (![0] : Fin 1 → Nat) a + S1024.size a ≤ S1024.size a
  h_S1024 : 0 < S1024.numel
  shapeCasts_S1024x1024_S1024x1024 : S1024x1024.ShapeCasts S1024x1024
  shapeCasts_S1024_S1x1024 : S1024.ShapeCasts S1x1024
  broadcasts_S1x1024_S1024x1024 : S1x1024.Broadcasts S1024x1024
  iota_S1024x1024_d0_w32 : S1024x1024.Iotas .tc 32 [0]
  iota_S1024x1024_d1_w32 : S1024x1024.Iotas .tc 32 [1]
  shapeCasts_S1024_S1024 : S1024.ShapeCasts S1024
  bcast_S_S200 : S_.BroadcastsInDim S200 (![] : Fin 0 → Fin S200.rank)
  bcast_S8192_S8192x1_0 : S8192.BroadcastsInDim S8192x1 (![0] : Fin 1 → Fin S8192x1.rank)
  bcast_S_S8192 : S_.BroadcastsInDim S8192 (![] : Fin 0 → Fin S8192.rank)
  reducesTo_S200_S_d0 : S200.ReducesTo [0] S_
  h_S_ : 0 < S_.numel
  dot_S1024x1024_S1024x1024_S1024x1024_1_1_0_0_n_n_wf : DotDims.WF S1024x1024 S1024x1024 S1024x1024 [1] [1] [0] [0] [] []
  scatter_S200_S8192x1_S8192_n_0_0_1_wf : ScatterDims.WF S200 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S8192.size a
  hwx1_2 : ∀ i : grid1.Coords, EltTy.bits .i32 = 32 ∨ (Rect.block (s := S8192) S1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S8192.size a
  hwx1_3 : ∀ i : grid1.Coords, EltTy.bits .i32 = 32 ∨ (Rect.block (s := S8192) S1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S8192.size a
  hwx1_4 : ∀ i : grid1.Coords, EltTy.bits .f32 = 32 ∨ (Rect.block (s := S8192) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S8192.size a
  hwx1_5 : ∀ i : grid1.Coords, EltTy.bits .f32 = 32 ∨ (Rect.block (s := S8192) S1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def scatter_S200_S8192x1_S8192_n_0_0_1 : ScatterDims S200 S8192x1 S8192 where
  updateWindowDims := []
  insertedWindowDims := [0]
  scatterDimsToOperandDims := [0]
  indexVectorDim := 1
  wf := scatter_S200_S8192x1_S8192_n_0_0_1_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond1 i == 1#1) && !(k1_cond2 i == 1#1) && !(k1_cond3 i == 1#1) | 5 => fun i => !(k1_cond1 i == 1#1) && !(k1_cond2 i == 1#1) && !(k1_cond3 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩
abbrev S200 : Shape := ⟨1, ![200]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S1024x8192, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i1⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S200, .f32⟩
  | .hbm, ⟨45, _⟩ => ⟨S8192x1, .i32⟩
  | .hbm, ⟨46, _⟩ => ⟨S200, .f32⟩
  | .hbm, ⟨47, _⟩ => ⟨S_, .f32⟩
  | .hbm, ⟨48, _⟩ => ⟨S200, .f32⟩
  | .hbm, ⟨49, _⟩ => ⟨S8192x1, .i32⟩
  | .hbm, ⟨50, _⟩ => ⟨S200, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S200, .f32⟩
  | .hbm, ⟨55, _⟩ => ⟨S8192x1, .i32⟩
  | .hbm, ⟨56, _⟩ => ⟨S200, .f32⟩
  | .hbm, ⟨57, _⟩ => ⟨S_, .f32⟩
  | .hbm, ⟨58, _⟩ => ⟨S200, .f32⟩
  | .hbm, ⟨59, _⟩ => ⟨S200, .i1⟩
  | .hbm, ⟨60, _⟩ => ⟨S_, .f32⟩
  | .hbm, ⟨61, _⟩ => ⟨S_, .f32⟩
  | .hbm, ⟨62, _⟩ => ⟨S200, .f32⟩
  | .hbm, ⟨63, _⟩ => ⟨S200, .f32⟩
  | .hbm, ⟨64, _⟩ => ⟨S_, .f32⟩
  | .hbm, ⟨65, _⟩ => ⟨S_, .f32⟩
  | .hbm, ⟨66, _⟩ => ⟨S200, .f32⟩
  | .hbm, ⟨67, _⟩ => ⟨S200, .f32⟩
  | .hbm, ⟨68, _⟩ => ⟨S200, .f32⟩
  | .hbm, ⟨69, _⟩ => ⟨S200, .f32⟩
  | .hbm, ⟨70, _⟩ => ⟨S_, .f32⟩
  | .hbm, ⟨71, _⟩ => ⟨S_, .f32⟩
  | .hbm, ⟨72, _⟩ => ⟨S200, .f32⟩
  | .hbm, ⟨73, _⟩ => ⟨S200, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_call2_v0 : Ref sig .tc := ⟨.hbm, 38, rfl⟩
abbrev main_call2_v1 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_call3_v0 : Ref sig .tc := ⟨.hbm, 61, rfl⟩
abbrev main_call3_v1 : Ref sig .tc := ⟨.hbm, 62, rfl⟩
abbrev main_v37 : Ref sig .tc := ⟨.hbm, 63, rfl⟩
abbrev main_cst_10 : Ref sig .tc := ⟨.hbm, 64, rfl⟩
abbrev main_call4_v0 : Ref sig .tc := ⟨.hbm, 65, rfl⟩
abbrev main_call4_v1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_call5_v0 : Ref sig .tc := ⟨.hbm, 71, rfl⟩
abbrev main_call5_v1 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_cst_13 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S200 : S_.BroadcastsInDim S200 (![] : Fin 0 → Fin S200.rank)
  bcast_S_S8192 : S_.BroadcastsInDim S8192 (![] : Fin 0 → Fin S8192.rank)
  reducesTo_S200_S_d0 : S200.ReducesTo [0] S_
  dot_S8192x1024_S1024x8192_S8192x8192_1_0_0_1_n_n_wf : DotDims.WF S8192x1024 S1024x8192 S8192x8192 [1] [0] [0] [1] [] []
  scatter_S200_S8192x1_S8192_n_0_0_1_wf : ScatterDims.WF S200 S8192x1 S8192 [] [0] [0] 1

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def scatter_S200_S8192x1_S8192_n_0_0_1 : ScatterDims S200 S8192x1 S8192 where
  updateWindowDims := []
  insertedWindowDims := [0]
  scatterDimsToOperandDims := [0]
  indexVectorDim := 1
  wf := scatter_S200_S8192x1_S8192_n_0_0_1_wf

class Facts : Prop extends Facts₀ where

variable [Facts]
-- ==== Proof.K.R0.lean ====
/- The first launch: every block of 1024 rows is divided, row by row, by the row's floored norm.

   The launch's body loads its one input block whole, computes, and stores its one output block whole;
   this module states what the output block holds after the body as a function of the input block,
   proves the body's triple by symbolic execution, and packages the two as the launch's proof data and
   body obligation, at any contents `V` of the unscoped buffers on entry and at any float instance. -/
import proofs.«127318_j28595892256874_2_alg».proof.Proof.Gen.Kernel.Launch
import proofs.«127318_j28595892256874_2_alg».proof.Proof.Gen.Kernel.Skeleton
import proofs.«127318_j28595892256874_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the unscoped buffers' contents when the launch is entered
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 1024×1024 block. -/
abbrev r0_0 : Rect S1024x1024 := Rect.unit (s := S1024x1024) ![0, 0] S1024x1024.size inb_S1024x1024_S1024x1024_0_0

/-- The output block after the body: the one store's value, computed from the input block. -/
def out0_1 (x0 : Vec F S1024x1024 .f32) : Vec F S1024x1024 .bf16 :=
  View.canon [⟨r0_0, k0_pay1 (View.ld x0 r0_0)⟩]

/-- The one store covers the whole block. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers: the input's contents are kept, the output's become `out0_1` of them. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data on core `c`: the arrays as found; after the body the input's buffer still at its
    block and the output's at `out0_1` of it; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Runs.lean ====
/- The second launch's body, what its runs share: which of its three branches is taken at which grid point.

   The grid is 8×8, point `t` standing at row block `t / 8` and column block `t % 8`. The accumulators are reset when
   the column block is 0; the diagonal branch is taken when row block = column block, the off-diagonal branch otherwise. -/
import proofs.«127318_j28595892256874_2_alg».proof.Proof.Gen.Kernel.Launch
import proofs.«127318_j28595892256874_2_alg».proof.Proof.Gen.Kernel.Skeleton
import proofs.«127318_j28595892256874_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The accumulators are reset exactly at the first column block. -/
theorem hc1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- The diagonal branch is taken exactly on the diagonal tiles. -/
theorem hc2 : ∀ t : Fin cfg1.N, k1_cond2 (grid1.coords t) = 1#1 ↔ t.val / 8 = t.val % 8 :=
  (by decide +kernel : ∀ t : Fin grid1.N, k1_cond2 (grid1.coords t) = 1#1 ↔ t.val / 8 = t.val % 8)
/-- The off-diagonal branch is taken exactly off the diagonal tiles. -/
theorem hc3 : ∀ t : Fin cfg1.N, k1_cond3 (grid1.coords t) = 1#1 ↔ ¬ t.val / 8 = t.val % 8 :=
  (by decide +kernel : ∀ t : Fin grid1.N, k1_cond3 (grid1.coords t) = 1#1 ↔ ¬ t.val / 8 = t.val % 8)
/-- The point's coordinates. -/
theorem coords1_0 : ∀ t : Fin cfg1.N, (grid1.coords t 0).val = t.val / 8 :=
  (by decide +kernel : ∀ t : Fin grid1.N, (grid1.coords t 0).val = t.val / 8)
theorem coords1_1 : ∀ t : Fin cfg1.N, (grid1.coords t 1).val = t.val % 8 :=
  (by decide +kernel : ∀ t : Fin grid1.N, (grid1.coords t 1).val = t.val % 8)
/-- Neither accumulator window is ever idle: one of the two accumulating branches is always taken. -/
theorem idle1_4 : ∀ t : Fin cfg1.N, idle1 4 (grid1.coords t) = false :=
  (by decide +kernel : ∀ t : Fin grid1.N, idle1 4 (grid1.coords t) = false)
theorem idle1_5 : ∀ t : Fin cfg1.N, idle1 5 (grid1.coords t) = false :=
  (by decide +kernel : ∀ t : Fin grid1.N, idle1 5 (grid1.coords t) = false)

/-- One staging buffer of each accumulator window, through which its contents are stated. -/
abbrev VO1_4 : View sig .tc .vmem S1024 .f32 := (Memref.whole cc1_stg4_0 : Memref sig .tc .vmem S1024 .f32).view
abbrev VO1_5 : View sig .tc .vmem S1024 .f32 := (Memref.whole cc1_stg5_0 : Memref sig .tc .vmem S1024 .f32).view
/-- Each window's current staging buffer at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)

end Cert.Kernel.Fr

end
-- ==== Proof.K.R1RunA.lean ====
/- The second launch's body, run in the case of the first tile of all (reset, then the diagonal branch). -/
import proofs.«127318_j28595892256874_2_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- The body in the case A: on whole staging buffers, the four inputs at their contents, the two accumulators at anything,
    it runs to the end keeping the inputs and leaving in each accumulator's buffer the pieces this run finds. -/
noncomputable def kernelRun1_A (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Fr

end
-- ==== Proof.K.R1RunB.lean ====
/- The second launch's body, run in the case of a row block's first tile off the diagonal (reset, then the off-diagonal branch). -/
import proofs.«127318_j28595892256874_2_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- The body in the case B: on whole staging buffers, the four inputs at their contents, the two accumulators at anything,
    it runs to the end keeping the inputs and leaving in each accumulator's buffer the pieces this run finds. -/
noncomputable def kernelRun1_B (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Fr

end
-- ==== Proof.K.R1RunC.lean ====
/- The second launch's body, run in the case of a later diagonal tile (no reset; the diagonal branch adds to the running sums). -/
import proofs.«127318_j28595892256874_2_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- The body in the case C: on whole staging buffers, the four inputs at their contents, the two accumulators at their running contents,
    it runs to the end keeping the inputs and leaving in each accumulator's buffer the pieces this run finds. -/
noncomputable def kernelRun1_C (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Fr

end
-- ==== Proof.K.R1RunD.lean ====
/- The second launch's body, run in the case of a later off-diagonal tile (no reset; the off-diagonal branch adds to the running sums). -/
import proofs.«127318_j28595892256874_2_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- The body in the case D: on whole staging buffers, the four inputs at their contents, the two accumulators at their running contents,
    it runs to the end keeping the inputs and leaving in each accumulator's buffer the pieces this run finds. -/
noncomputable def kernelRun1_D (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Fr

end
-- ==== Proof.K.R1.lean ====
/- The second launch's body, at every grid point: what the two accumulators hold after each point, the launch's proof data and its body obligation.

   The accumulators' window has the row block's index, so its buffer is written back only when the row block changes: within
   a row block the body finds in it what it left at the point before. -/
import proofs.«127318_j28595892256874_2_alg».proof.Proof.K.R1RunA
import proofs.«127318_j28595892256874_2_alg».proof.Proof.K.R1RunB
import proofs.«127318_j28595892256874_2_alg».proof.Proof.K.R1RunC
import proofs.«127318_j28595892256874_2_alg».proof.Proof.K.R1RunD

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the unscoped buffers' contents when the launch is entered
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- In case A the stores into accumulator 4 cover its whole buffer. -/
theorem cover1_A_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (y : S1024.Idx) :
    ∃ pc ∈ (kernelRun1_A c i arg2 harg2 arg3 harg3 arg4 harg4 arg5 harg5 arg6 harg6 arg7 harg7 hc1 hc2 hc3 x0 x1 x2 x3).1.1, y ∈ pc.1.set :=
  View.cover_of_tiledL (kernelRun1_A c i arg2 harg2 arg3 harg3 arg4 harg4 arg5 harg5 arg6 harg6 arg7 harg7 hc1 hc2 hc3 x0 x1 x2 x3).1.1 S1024.size (by sl_kernel_rfl) y

/-- What case A leaves in accumulator 4's buffer: its pieces read back. -/
def out1_A_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) : Vec F S1024 .f32 :=
  VO1_4.read (Elt F) (VO1_4.writes (Elt F) VO1_4.junk (kernelRun1_A c i arg2 harg2 arg3 harg3 arg4 harg4 arg5 harg5 arg6 harg6 arg7 harg7 hc1 hc2 hc3 x0 x1 x2 x3).1.1)

/-- In case A the stores into accumulator 5 cover its whole buffer. -/
theorem cover1_A_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (y : S1024.Idx) :
    ∃ pc ∈ (kernelRun1_A c i arg2 harg2 arg3 harg3 arg4 harg4 arg5 harg5 arg6 harg6 arg7 harg7 hc1 hc2 hc3 x0 x1 x2 x3).1.2, y ∈ pc.1.set :=
  View.cover_of_tiledL (kernelRun1_A c i arg2 harg2 arg3 harg3 arg4 harg4 arg5 harg5 arg6 harg6 arg7 harg7 hc1 hc2 hc3 x0 x1 x2 x3).1.2 S1024.size (by sl_kernel_rfl) y

/-- What case A leaves in accumulator 5's buffer: its pieces read back. -/
def out1_A_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) : Vec F S1024 .f32 :=
  VO1_5.read (Elt F) (VO1_5.writes (Elt F) VO1_5.junk (kernelRun1_A c i arg2 harg2 arg3 harg3 arg4 harg4 arg5 harg5 arg6 harg6 arg7 harg7 hc1 hc2 hc3 x0 x1 x2 x3).1.2)

/-- In case B the stores into accumulator 4 cover its whole buffer. -/
theorem cover1_B_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (y : S1024.Idx) :
    ∃ pc ∈ (kernelRun1_B c i arg2 harg2 arg3 harg3 arg4 harg4 arg5 harg5 arg6 harg6 arg7 harg7 hc1 hc2 hc3 x0 x1 x2 x3).1.1, y ∈ pc.1.set :=
  View.cover_of_tiledL (kernelRun1_B c i arg2 harg2 arg3 harg3 arg4 harg4 arg5 harg5 arg6 harg6 arg7 harg7 hc1 hc2 hc3 x0 x1 x2 x3).1.1 S1024.size (by sl_kernel_rfl) y

/-- What case B leaves in accumulator 4's buffer: its pieces read back. -/
def out1_B_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) : Vec F S1024 .f32 :=
  VO1_4.read (Elt F) (VO1_4.writes (Elt F) VO1_4.junk (kernelRun1_B c i arg2 harg2 arg3 harg3 arg4 harg4 arg5 harg5 arg6 harg6 arg7 harg7 hc1 hc2 hc3 x0 x1 x2 x3).1.1)

/-- In case B the stores into accumulator 5 cover its whole buffer. -/
theorem cover1_B_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (y : S1024.Idx) :
    ∃ pc ∈ (kernelRun1_B c i arg2 harg2 arg3 harg3 arg4 harg4 arg5 harg5 arg6 harg6 arg7 harg7 hc1 hc2 hc3 x0 x1 x2 x3).1.2, y ∈ pc.1.set :=
  View.cover_of_tiledL (kernelRun1_B c i arg2 harg2 arg3 harg3 arg4 harg4 arg5 harg5 arg6 harg6 arg7 harg7 hc1 hc2 hc3 x0 x1 x2 x3).1.2 S1024.size (by sl_kernel_rfl) y

/-- What case B leaves in accumulator 5's buffer: its pieces read back. -/
def out1_B_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) : Vec F S1024 .f32 :=
  VO1_5.read (Elt F) (VO1_5.writes (Elt F) VO1_5.junk (kernelRun1_B c i arg2 harg2 arg3 harg3 arg4 harg4 arg5 harg5 arg6 harg6 arg7 harg7 hc1 hc2 hc3 x0 x1 x2 x3).1.2)

/-- In case C the stores into accumulator 4 cover its whole buffer. -/
theorem cover1_C_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_C c i arg2 harg2 arg3 harg3 arg4 harg4 arg5 harg5 arg6 harg6 arg7 harg7 hc1 hc2 hc3 x0 x1 x2 x3 xo4 xo5).1.1, y ∈ pc.1.set :=
  View.cover_of_tiledL (kernelRun1_C c i arg2 harg2 arg3 harg3 arg4 harg4 arg5 harg5 arg6 harg6 arg7 harg7 hc1 hc2 hc3 x0 x1 x2 x3 xo4 xo5).1.1 S1024.size (by sl_kernel_rfl) y

/-- What case C leaves in accumulator 4's buffer: its pieces read back. -/
def out1_C_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_4.read (Elt F) (VO1_4.writes (Elt F) VO1_4.junk (kernelRun1_C c i arg2 harg2 arg3 harg3 arg4 harg4 arg5 harg5 arg6 harg6 arg7 harg7 hc1 hc2 hc3 x0 x1 x2 x3 xo4 xo5).1.1)

/-- In case C the stores into accumulator 5 cover its whole buffer. -/
theorem cover1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_C c i arg2 harg2 arg3 harg3 arg4 harg4 arg5 harg5 arg6 harg6 arg7 harg7 hc1 hc2 hc3 x0 x1 x2 x3 xo4 xo5).1.2, y ∈ pc.1.set :=
  View.cover_of_tiledL (kernelRun1_C c i arg2 harg2 arg3 harg3 arg4 harg4 arg5 harg5 arg6 harg6 arg7 harg7 hc1 hc2 hc3 x0 x1 x2 x3 xo4 xo5).1.2 S1024.size (by sl_kernel_rfl) y

/-- What case C leaves in accumulator 5's buffer: its pieces read back. -/
def out1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_5.read (Elt F) (VO1_5.writes (Elt F) VO1_5.junk (kernelRun1_C c i arg2 harg2 arg3 harg3 arg4 harg4 arg5 harg5 arg6 harg6 arg7 harg7 hc1 hc2 hc3 x0 x1 x2 x3 xo4 xo5).1.2)

/-- In case D the stores into accumulator 4 cover its whole buffer. -/
theorem cover1_D_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_D c i arg2 harg2 arg3 harg3 arg4 harg4 arg5 harg5 arg6 harg6 arg7 harg7 hc1 hc2 hc3 x0 x1 x2 x3 xo4 xo5).1.1, y ∈ pc.1.set :=
  View.cover_of_tiledL (kernelRun1_D c i arg2 harg2 arg3 harg3 arg4 harg4 arg5 harg5 arg6 harg6 arg7 harg7 hc1 hc2 hc3 x0 x1 x2 x3 xo4 xo5).1.1 S1024.size (by sl_kernel_rfl) y

/-- What case D leaves in accumulator 4's buffer: its pieces read back. -/
def out1_D_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_4.read (Elt F) (VO1_4.writes (Elt F) VO1_4.junk (kernelRun1_D c i arg2 harg2 arg3 harg3 arg4 harg4 arg5 harg5 arg6 harg6 arg7 harg7 hc1 hc2 hc3 x0 x1 x2 x3 xo4 xo5).1.1)

/-- In case D the stores into accumulator 5 cover its whole buffer. -/
theorem cover1_D_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_D c i arg2 harg2 arg3 harg3 arg4 harg4 arg5 harg5 arg6 harg6 arg7 harg7 hc1 hc2 hc3 x0 x1 x2 x3 xo4 xo5).1.2, y ∈ pc.1.set :=
  View.cover_of_tiledL (kernelRun1_D c i arg2 harg2 arg3 harg3 arg4 harg4 arg5 harg5 arg6 harg6 arg7 harg7 hc1 hc2 hc3 x0 x1 x2 x3 xo4 xo5).1.2 S1024.size (by sl_kernel_rfl) y

/-- What case D leaves in accumulator 5's buffer: its pieces read back. -/
def out1_D_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_5.read (Elt F) (VO1_5.writes (Elt F) VO1_5.junk (kernelRun1_D c i arg2 harg2 arg3 harg3 arg4 harg4 arg5 harg5 arg6 harg6 arg7 harg7 hc1 hc2 hc3 x0 x1 x2 x3 xo4 xo5).1.2)

/-- THE ACCUMULATION: what the two accumulators' buffers hold after the body at position `n` — the case the point is in, run on the
    point's input blocks, a case that adds to the running sums taking them from position `n - 1`. -/
def outsAt1 (c : Dev nD) : (n : ℕ) → n < cfg1.N → Vec F S1024 .f32 × Vec F S1024 .f32
  | 0, hn =>
    have h1 : (⟨0, hn⟩ : Fin cfg1.N).val % 8 = 0 := Nat.zero_mod _
    have h2 : (⟨0, hn⟩ : Fin cfg1.N).val / 8 = (⟨0, hn⟩ : Fin cfg1.N).val % 8 := (show (0 : ℕ) / 8 = 0 % 8 from rfl)
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hc1 ⟨0, hn⟩).mpr h1) ((hc2 ⟨0, hn⟩).mpr h2) (fun h => (hc3 ⟨0, hn⟩).mp h h2) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hc1 ⟨0, hn⟩).mpr h1) ((hc2 ⟨0, hn⟩).mpr h2) (fun h => (hc3 ⟨0, hn⟩).mp h h2) (iblk1 V c 0 ⟨0, hn⟩) (iblk1 V c 1 ⟨0, hn⟩) (iblk1 V c 2 ⟨0, hn⟩) (iblk1 V c 3 ⟨0, hn⟩))
  | n + 1, hn =>
    if h1 : (⟨n + 1, hn⟩ : Fin cfg1.N).val % 8 = 0 then
      if h2 : (⟨n + 1, hn⟩ : Fin cfg1.N).val / 8 = (⟨n + 1, hn⟩ : Fin cfg1.N).val % 8 then
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩))
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩))
    else
      if h2 : (⟨n + 1, hn⟩ : Fin cfg1.N).val / 8 = (⟨n + 1, hn⟩ : Fin cfg1.N).val % 8 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)
      else
        (out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- `outsAt1` at a point of case A. -/
theorem outsAt1_A (c : Dev nD) (t : Fin cfg1.N) (h1 : t.val % 8 = 0) (h2 : t.val / 8 = t.val % 8) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) ((hc2 t).mpr h2) (fun h => (hc3 t).mp h h2) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) ((hc2 t).mpr h2) (fun h => (hc3 t).mp h h2) (iblk1 V c 0 t) (iblk1 V c 1 t) (iblk1 V c 2 t) (iblk1 V c 3 t)) := by
  obtain ⟨n, hn⟩ := t
  cases n with
  | zero => exact rfl
  | succ n => rw [outsAt1]; rw [dif_pos h1, dif_pos h2]

/-- `outsAt1` at a point of case B. -/
theorem outsAt1_B (c : Dev nD) (t : Fin cfg1.N) (h1 : t.val % 8 = 0) (h2 : ¬t.val / 8 = t.val % 8) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) (fun h => h2 ((hc2 t).mp h)) ((hc3 t).mpr h2) (iblk1 V c 0 t) (iblk1 V c 1 t) (iblk1 V c 2 t) (iblk1 V c 3 t), out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) (fun h => h2 ((hc2 t).mp h)) ((hc3 t).mpr h2) (iblk1 V c 0 t) (iblk1 V c 1 t) (iblk1 V c 2 t) (iblk1 V c 3 t)) := by
  obtain ⟨n, hn⟩ := t
  cases n with
  | zero => exact absurd (show (0 : ℕ) / 8 = 0 % 8 from rfl) h2
  | succ n => rw [outsAt1]; rw [dif_pos h1, dif_neg h2]

/-- `outsAt1` at a point of case C. -/
theorem outsAt1_C (c : Dev nD) (t : Fin cfg1.N) (h1 : ¬t.val % 8 = 0) (h2 : t.val / 8 = t.val % 8) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) ((hc2 t).mpr h2) (fun h => (hc3 t).mp h h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) ((hc2 t).mpr h2) (fun h => (hc3 t).mp h h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd (Nat.zero_mod _) h1
  | succ n => rw [outsAt1]; rw [dif_neg h1, dif_pos h2]; rfl

/-- `outsAt1` at a point of case D. -/
theorem outsAt1_D (c : Dev nD) (t : Fin cfg1.N) (h1 : ¬t.val % 8 = 0) (h2 : ¬t.val / 8 = t.val % 8) :
    outsAt1 V c t.val t.isLt = (out1_D_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) (fun h => h2 ((hc2 t).mp h)) ((hc3 t).mpr h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) (fun h => h2 ((hc2 t).mp h)) ((hc3 t).mpr h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd (Nat.zero_mod _) h1
  | succ n => rw [outsAt1]; rw [dif_neg h1, dif_neg h2]; rfl

/-- The second launch's proof data on core `c`: the arrays as found; after the body each input's buffer at its block and the
    accumulators' at `outsAt1`; the scoped rest and the generator register untouched; nothing owed. The normalized matrix and
    the labels are each read through two windows, which hold one half of the array each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q w := match w with
    | ⟨0, _⟩ => fullShare.left
    | ⟨1, _⟩ => fullShare.right
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Every accumulator window is live at every coordinate: one of the two accumulating branches is always taken. -/
theorem live1_4 : ∀ i : grid1.Coords, cfg1.idle 4 i = false := by decide +kernel
theorem live1_5 : ∀ i : grid1.Coords, cfg1.idle 5 i = false := by decide +kernel

/-- Away from a row block's first tile, accumulator 4's buffer holds what the body left at the point before: the
    buffer is written back only after a row block's last tile. -/
theorem before1_4_acc (c : Dev nD) (t : Fin cfg1.N) (h1 : ¬t.val % 8 = 0) (d) :
    (dat1 V c).before 4 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    live1_4 (fun _ _ => rfl)]
  dsimp only [dat1]

/-- Away from a row block's first tile, accumulator 5's buffer holds what the body left at the point before: the
    buffer is written back only after a row block's last tile. -/
theorem before1_5_acc (c : Dev nD) (t : Fin cfg1.N) (h1 : ¬t.val % 8 = 0) (d) :
    (dat1 V c).before 5 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 5 rfl t (by omega) (Bool.eq_false_iff.mpr fun h => by have := (flush1_5 _).mp h; dsimp only at this; omega)
    live1_5 (fun _ _ => rfl)]
  dsimp only [dat1]

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; the closed forms say which case the point is in; a case that
    adds to the running sums finds them as the point before left them; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h1 : t.val % 8 = 0
  · by_cases h2 : t.val / 8 = t.val % 8
    ·
      rw [outsAt1_A V c t h1 h2]
      dsimp only
      unfold out1_A_4 out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hc1 t).mpr h1) ((hc2 t).mpr h2) (fun h => (hc3 t).mp h h2) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _ _)
    ·
      rw [outsAt1_B V c t h1 h2]
      dsimp only
      unfold out1_B_4 out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ ((hc1 t).mpr h1) (fun h => h2 ((hc2 t).mp h)) ((hc3 t).mpr h2) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _)
  · by_cases h2 : t.val / 8 = t.val % 8
    ·
      rw [outsAt1_C V c t h1 h2]
      dsimp only
      simp only [before1_4_acc V c t h1, before1_5_acc V c t h1]
      unfold out1_C_4 out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h1 ((hc1 t).mp h)) ((hc2 t).mpr h2) (fun h => (hc3 t).mp h h2) (iblk1 V c 0 t) (iblk1 V c 1 t) (iblk1 V c 2 t) (iblk1 V c 3 t) _ _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    ·
      rw [outsAt1_D V c t h1 h2]
      dsimp only
      simp only [before1_4_acc V c t h1, before1_5_acc V c t h1]
      unfold out1_D_4 out1_D_5
      iintro ⟨HΦ, Ho, ⟨%d0, H0⟩, ⟨%d1, H1⟩, ⟨%d2, H2⟩, ⟨%d3, H3⟩, ⟨%d4, H4⟩, ⟨%d5, H5⟩⟩
      iapply ((kernelRun1_D c (grid1.coords t) _ _ _ _ _ _ _ _ _ _ _ _ (fun h => h1 ((hc1 t).mp h)) (fun h => h2 ((hc2 t).mp h)) ((hc3 t).mpr h2) (iblk1 V c 0 t) (iblk1 V c 1 t) (iblk1 V c 2 t) (iblk1 V c 3 t) _ _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_D_4 c _ _ _ _ _ _ _ _ _ _ _ _ _ _ _ _ _ _ _ _ _ _)
      unfold owns; iexists _; isplitr
      swap; · iexact H5
      ipureintro; exact View.read_writes_of_cover _ _ _ _ _ (cover1_D_5 c _ _ _ _ _ _ _ _ _ _ _ _ _ _ _ _ _ _ _ _ _ _)

/-- The body obligation of the second launch, at every point. -/
theorem body_obligation1 (c : Dev nD) : BodyObligation (dat1 (F := F) V c) (defs₀ (F := F)) Variants.none () Set.univ := fun t => by
  rw [bigSep_W1, bigSep_W1]
  have e4 : cfg1.idle 4 (cfg1.grid.coords t) = false := idle1_4 t
  rw [e4]
  exact sound_body1 V c t

end Cert.Kernel.Fr

end
-- ==== Proof.K.Share1.lean ====
/- The second launch's body, how its arrays are held.

   The launch reads the normalized matrix through two windows (the row block's rows and the column block's rows) and the
   labels through two more; each of those two arrays is held as two half shares, one per window, split off the whole
   array when the launch is entered and joined again when it is left. The two accumulator arrays are held whole. -/
import proofs.«127318_j28595892256874_2_alg».proof.Proof.K.R1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind the launch's six windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_arg3) ↦{fullShare} W main_arg3)
          ∗ (((c : Thread nD τ).loc main_v1_0) ↦{fullShare} W main_v1_0) ∗ (((c : Thread nD τ).loc main_v1_1) ↦{fullShare} W main_v1_1)) := by
  unfold Pipeline.arrBufs
  rw [bigSep_eq_bigSepL_of_eq [main_v0, main_arg3, main_v1_0, main_v1_1] (by decide) (by decide)]
  rfl

/-- The launch's arrays, window by window: the two shared arrays at half shares, the accumulators' whole. -/
theorem arrays1_eq (c : Dev nD) (G : (w : Fin cfg1.W) → Buf (Elt F) (((cfg1.win w).arr.view.loc (c : Thread nD τ)))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg3) ↦{fullShare.left} G 2) ∗ (((c : Thread nD τ).loc main_arg3) ↦{fullShare.right} G 3)
          ∗ (((c : Thread nD τ).loc main_v1_0) ↦{fullShare} G 4) ∗ (((c : Thread nD τ).loc main_v1_1) ↦{fullShare} G 5)) := by
  unfold Dat.arrays
  rw [bigSep_W1]
  rw [(arr_whole1 0).set_eq_univ, (arr_whole1 2).set_eq_univ, (arr_whole1 4).set_eq_univ, (arr_whole1 5).set_eq_univ]
  rfl

/-- ENTRY: the core's unscoped buffers at contents `V c` are the launch's arrays at their entry contents — each of the two
    shared arrays split into its two half shares — and the buffers no window names. -/
theorem entry1 (c : Dev nD) :
    (unscopedBufs c (V c) : sProp 𝕄) ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  dsimp only
  have e0 : (dat1 V c).arrAt 0 0 = V c main_v0 := rfl
  have e1 : (dat1 V c).arrAt 1 0 = V c main_v0 := rfl
  have e2 : (dat1 V c).arrAt 2 0 = V c main_arg3 := rfl
  have e3 : (dat1 V c).arrAt 3 0 = V c main_arg3 := rfl
  have e4 : (dat1 V c).arrAt 4 0 = V c main_v1_0 := rfl
  have e5 : (dat1 V c).arrAt 5 0 = V c main_v1_1 := rfl
  rw [e0, e1, e2, e3, e4, e5]
  have hsp0 : ((((c : Thread nD τ).loc main_v0) ↦{fullShare} V c main_v0) : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  have hsp3 : ((((c : Thread nD τ).loc main_arg3) ↦{fullShare} V c main_arg3) : sProp 𝕄)
      ⊢ iprop((((c : Thread nD τ).loc main_arg3) ↦{fullShare.left} V c main_arg3) ∗ (((c : Thread nD τ).loc main_arg3) ↦{fullShare.right} V c main_arg3)) :=
    (pointsTo_share (PosShare.mem_left_op_right fullShare)).1
  iintro ⟨⟨H0, H3, H4, H5⟩, Hrest⟩
  ihave H0' := hsp0 $$ H0
  icases H0' with ⟨H0l, H0r⟩
  ihave H3' := hsp3 $$ H3
  icases H3' with ⟨H3l, H3r⟩
  isplitr [Hrest]
  swap; · iexact Hrest
  isplitl [H0l]; · iexact H0l
  isplitl [H0r]; · iexact H0r
  isplitl [H3l]; · iexact H3l
  isplitl [H3r]; · iexact H3r
  isplitl [H4]; · iexact H4
  iexact H5

/-- EXIT: the launch's arrays at their final contents — the inputs as entered, their halves joined again — and the buffers no
    window names are the core's unscoped buffers at any contents `W'` that has the two accumulator arrays at what the launch
    leaves and agrees with `V c` elsewhere. -/
theorem exit1 (c : Dev nD) (W' : (b : Ref sig .tc) → Buf (Elt F) ((c : Thread nD τ).loc b))
    (h4 : W' main_v1_0 = (dat1 V c).arrAt 4 cfg1.N) (h5 : W' main_v1_1 = (dat1 V c).arrAt 5 cfg1.N)
    (hrest : ∀ b, b ≠ main_v1_0 → b ≠ main_v1_1 → W' b = V c b) :
    iprop((dat1 V c).arrays ((dat1 V c).arrAt · cfg1.N) ∗ Pipeline.unscopedRest spec1 c (V c)) ⊢ (unscopedBufs c W' : sProp 𝕄) := by
  have hs : (unscopedBufs c W' : sProp 𝕄) = iprop(Pipeline.arrBufs spec1 c W' ∗ Pipeline.unscopedRest spec1 c W') :=
    Pipeline.unscopedBufs_split₀ cfgs 1 winFacts₀1.arr_unscoped c W'
  rw [hs, arrBufs1_eq, arrays1_eq]
  dsimp only
  have e0 : (dat1 V c).arrAt 0 cfg1.N = V c main_v0 := ((dat1 V c).arrAt_in 0 rfl _).trans rfl
  have e1 : (dat1 V c).arrAt 1 cfg1.N = V c main_v0 := ((dat1 V c).arrAt_in 1 rfl _).trans rfl
  have e2 : (dat1 V c).arrAt 2 cfg1.N = V c main_arg3 := ((dat1 V c).arrAt_in 2 rfl _).trans rfl
  have e3 : (dat1 V c).arrAt 3 cfg1.N = V c main_arg3 := ((dat1 V c).arrAt_in 3 rfl _).trans rfl
  rw [e0, e1, e2, e3]
  have hj0 : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) :=
    (pointsTo_share (PosShare.mem_left_op_right fullShare)).2
  have hj3 : iprop((((c : Thread nD τ).loc main_arg3) ↦{fullShare.left} V c main_arg3) ∗ (((c : Thread nD τ).loc main_arg3) ↦{fullShare.right} V c main_arg3))
      ⊢ ((((c : Thread nD τ).loc main_arg3) ↦{fullShare} V c main_arg3) : sProp 𝕄) :=
    (pointsTo_share (PosShare.mem_left_op_right fullShare)).2
  have e : (Pipeline.unscopedRest (Ix := Unit) (Name := ℕ) (U := UR sig nD τ) (Lvl := ℕ) spec1 c (V c) : sProp 𝕄) = Pipeline.unscopedRest spec1 c W' := by
    unfold Pipeline.unscopedRest
    refine bigSep_congr fun b hb => ?_
    have hb' := (Finset.mem_sdiff.mp hb).2
    rw [hrest b (fun h => hb' (h ▸ Finset.mem_image.mpr ⟨4, Finset.mem_univ _, rfl⟩)) (fun h => hb' (h ▸ Finset.mem_image.mpr ⟨5, Finset.mem_univ _, rfl⟩))]
  rw [e, hrest main_v0 (by decide) (by decide), hrest main_arg3 (by decide) (by decide), h4, h5]
  iintro ⟨⟨H0l, H0r, H3l, H3r, H4, H5⟩, Hrest⟩
  isplitr [Hrest]
  swap; · iexact Hrest
  isplitl [H0l H0r]
  · iapply hj0; isplitl [H0l] <;> iassumption
  isplitl [H3l H3r]
  · iapply hj3; isplitl [H3l] <;> iassumption
  isplitl [H4]; · iexact H4
  iexact H5

end Cert.Kernel.Fr

end
-- ==== Proof.K.Main.lean ====
/- The second launch's body, and the first's, as the two regions of the whole program, and the program's run.

   The program is: the first launch, the second launch, then seven stretches of host operations. The contents of the unscoped
   buffers are followed from the launch memory through every item; the run ends with every unscoped buffer at the last of
   these contents, from which both the unchanged arguments and the result are read. -/
import proofs.«127318_j28595892256874_2_alg».proof.Proof.K.R0
import proofs.«127318_j28595892256874_2_alg».proof.Proof.K.Share1
import proofs.«127318_j28595892256874_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch (the first launch's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second launch: the two accumulator arrays at what its write-backs leave, every other buffer as entered. -/
def W2 (c : Dev nD) : Valuation τ sig (Elt F) :=
  Function.update (Function.update (W1 m ρ c) (Proc.devRef .tc main_v1_0) ((dat1 (V1 m ρ) c).arrAt 4 cfg1.N))
    (Proc.devRef .tc main_v1_1) ((dat1 (V1 m ρ) c).arrAt 5 cfg1.N)
abbrev V2 : (c : Dev nD) → (b : Ref sig .tc) → Buf (Elt F) ((c : Thread nD τ).loc b) := fun c b => W2 m ρ c b
theorem W2_v1_0 (c : Dev nD) : V2 m ρ c main_v1_0 = (dat1 (V1 m ρ) c).arrAt 4 cfg1.N := by
  show W2 m ρ c (Proc.devRef .tc main_v1_0) = _
  unfold W2
  rw [Function.update_of_ne (StableHlo.devRef_ne_of_ne (by decide) : (Proc.devRef .tc main_v1_0 : DevRef τ sig) ≠ Proc.devRef .tc main_v1_1), Function.update_self]
theorem W2_v1_1 (c : Dev nD) : V2 m ρ c main_v1_1 = (dat1 (V1 m ρ) c).arrAt 5 cfg1.N := by
  show W2 m ρ c (Proc.devRef .tc main_v1_1) = _
  unfold W2; rw [Function.update_self]
theorem W2_of_ne (c : Dev nD) (b : Ref sig .tc) (h0 : b ≠ main_v1_0) (h1 : b ≠ main_v1_1) : V2 m ρ c b = V1 m ρ c b := by
  show W2 m ρ c (Proc.devRef .tc b) = W1 m ρ c (Proc.devRef .tc b)
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
/-- After the host stretch `hostOps2`. -/
abbrev W3 : Dev nD → Valuation τ sig (Elt F) := fun c => StableHlo.after hostOps2 (W2 m ρ c)
/-- After the host stretch `hostOps2_1`. -/
abbrev W4 : Dev nD → Valuation τ sig (Elt F) := fun c => StableHlo.after hostOps2_1 (W3 m ρ c)
/-- After the host stretch `hostOps2_2`. -/
abbrev W5 : Dev nD → Valuation τ sig (Elt F) := fun c => StableHlo.after hostOps2_2 (W4 m ρ c)
/-- After the host stretch `hostOps2_3`. -/
abbrev W6 : Dev nD → Valuation τ sig (Elt F) := fun c => StableHlo.after hostOps2_3 (W5 m ρ c)
/-- After the host stretch `hostOps2_4`. -/
abbrev W7 : Dev nD → Valuation τ sig (Elt F) := fun c => StableHlo.after hostOps2_4 (W6 m ρ c)
/-- After the host stretch `hostOps2_5`. -/
abbrev W8 : Dev nD → Valuation τ sig (Elt F) := fun c => StableHlo.after hostOps2_5 (W7 m ρ c)
/-- After the host stretch `hostOps2_6`. -/
abbrev W9 : Dev nD → Valuation τ sig (Elt F) := fun c => StableHlo.after hostOps2_6 (W8 m ρ c)

/-! ## The proof data family and the thread state -/

/-- Every launch's proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The launches as segments -/

set_option backward.isDefEq.respectTransparency.types false in
/-- THE FIRST LAUNCH over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `W1`, left at `W2`; the two arrays it reads
    twice split into halves at the entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := entry1 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m ρ) c (V2 m ρ c) (W2_v1_0 m ρ c) (W2_v1_1 m ρ c) (W2_of_ne m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the run -/

/-- The program's nine segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)),
    .host (hseg hostOps2_3 hostOps2_3_sub hostOps2_3_fresh (W5 m ρ)),
    .host (hseg hostOps2_4 hostOps2_4_sub hostOps2_4_fresh (W6 m ρ)),
    .host (hseg hostOps2_5 hostOps2_5_sub hostOps2_5_fresh (W7 m ρ)),
    .host (hseg hostOps2_6 hostOps2_6_sub hostOps2_6_fresh (W8 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds every unscoped buffer at the last contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Fr

end
-- ==== Proof.K.Frame.lean ====
/- The second launch's body, : what the run says of the argument arrays and of the result.

   No host stretch writes an argument and no launch may change one, so each argument's buffer ends as launched; the result's buffer
   ends at the last contents' value there. -/
import proofs.«127318_j28595892256874_2_alg».proof.Proof.K.Main

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host stretch writes ends as the second launch left it. -/
theorem W9_keep (c : Dev nD) (b : Ref sig .tc) (h0 : b ∉ hostOps2_W) (h1 : b ∉ hostOps2_1_W) (h2 : b ∉ hostOps2_2_W) (h3 : b ∉ hostOps2_3_W) (h4 : b ∉ hostOps2_4_W) (h5 : b ∉ hostOps2_5_W) (h6 : b ∉ hostOps2_6_W) :
    W9 m ρ c b = W2 m ρ c b :=
  (StableHlo.after_of_writes_sub hostOps2_6 _ hostOps2_6_writes h6).trans <|
  (StableHlo.after_of_writes_sub hostOps2_5 _ hostOps2_5_writes h5).trans <|
  (StableHlo.after_of_writes_sub hostOps2_4 _ hostOps2_4_writes h4).trans <|
  (StableHlo.after_of_writes_sub hostOps2_3 _ hostOps2_3_writes h3).trans <|
  (StableHlo.after_of_writes_sub hostOps2_2 _ hostOps2_2_writes h2).trans <|
  (StableHlo.after_of_writes_sub hostOps2_1 _ hostOps2_1_writes h1).trans <|
  (StableHlo.after_of_writes_sub hostOps2 _ hostOps2_writes h0)

theorem W9_main_arg0 (c : Dev nD) : W9 m ρ c main_arg0 = m ((c : Thread nD τ).loc main_arg0) :=
  (W9_keep m ρ c main_arg0 (by decide) (by decide) (by decide) (by decide) (by decide) (by decide) (by decide)).trans <|
    (W2_of_ne m ρ c main_arg0 (by decide) (by decide)).trans <| (W1_of_ne m ρ c main_arg0 (by decide)).trans rfl
theorem W9_main_arg1 (c : Dev nD) : W9 m ρ c main_arg1 = m ((c : Thread nD τ).loc main_arg1) :=
  (W9_keep m ρ c main_arg1 (by decide) (by decide) (by decide) (by decide) (by decide) (by decide) (by decide)).trans <|
    (W2_of_ne m ρ c main_arg1 (by decide) (by decide)).trans <| (W1_arr m ρ c 0).trans (((dat0 (V0 m ρ) c).arrAt_in 0 rfl _).trans rfl)
theorem W9_main_arg2 (c : Dev nD) : W9 m ρ c main_arg2 = m ((c : Thread nD τ).loc main_arg2) :=
  (W9_keep m ρ c main_arg2 (by decide) (by decide) (by decide) (by decide) (by decide) (by decide) (by decide)).trans <|
    (W2_of_ne m ρ c main_arg2 (by decide) (by decide)).trans <| (W1_of_ne m ρ c main_arg2 (by decide)).trans rfl
theorem W9_main_arg3 (c : Dev nD) : W9 m ρ c main_arg3 = m ((c : Thread nD τ).loc main_arg3) :=
  (W9_keep m ρ c main_arg3 (by decide) (by decide) (by decide) (by decide) (by decide) (by decide) (by decide)).trans <|
    (W2_of_ne m ρ c main_arg3 (by decide) (by decide)).trans <| (W1_of_ne m ρ c main_arg3 (by decide)).trans rfl

/-- THE FRAME, with the result named: every weakly fair execution terminates, nothing faulting; the result's buffer ends at the last
    contents' value and every argument's buffer as launched. -/
theorem run_result : θ_run defs (onTc (τ := τ) (main (F := F))) ⟨m, fun _ => 0, ρ⟩ (fun r => ∀ c : Dev nD,
      r.2.mem ((c.tc : Thread nD τ).loc main_v20) = W9 m ρ c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v20 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c)⟩) (run_all m ρ)

/-- THE FRAME: every weakly fair execution terminates, nothing faulting, and every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Fr

end
-- ==== Proof.KI.R0.lean ====
/- The first launch: every block of 1024 rows is divided, row by row, by the row's floored norm.

   The launch's body loads its one input block whole, computes, and stores its one output block whole;
   this module states what the output block holds after the body as a function of the input block,
   proves the body's triple by symbolic execution, and packages the two as the launch's proof data and
   body obligation, at any contents `V` of the unscoped buffers on entry and at any float instance. -/
import proofs.«127318_j28595892256874_2_alg».proof.Proof.Gen.KernelIdeal.Launch
import proofs.«127318_j28595892256874_2_alg».proof.Proof.Gen.KernelIdeal.Skeleton
import proofs.«127318_j28595892256874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the unscoped buffers' contents when the launch is entered
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 1024×1024 block. -/
abbrev r0_0 : Rect S1024x1024 := Rect.unit (s := S1024x1024) ![0, 0] S1024x1024.size inb_S1024x1024_S1024x1024_0_0

/-- The output block after the body: the one store's value, computed from the input block. -/
def out0_1 (x0 : Vec F S1024x1024 .f32) : Vec F S1024x1024 .bf16 :=
  View.canon [⟨r0_0, k0_pay1 (View.ld x0 r0_0)⟩]

/-- The one store covers the whole block. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers: the input's contents are kept, the output's become `out0_1` of them. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data on core `c`: the arrays as found; after the body the input's buffer still at its
    block and the output's at `out0_1` of it; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Runs.lean ====
/- The second launch's body, what its runs share: which of its three branches is taken at which grid point.

   The grid is 8×8, point `t` standing at row block `t / 8` and column block `t % 8`. The accumulators are reset when
   the column block is 0; the diagonal branch is taken when row block = column block, the off-diagonal branch otherwise. -/
import proofs.«127318_j28595892256874_2_alg».proof.Proof.Gen.KernelIdeal.Launch
import proofs.«127318_j28595892256874_2_alg».proof.Proof.Gen.KernelIdeal.Skeleton
import proofs.«127318_j28595892256874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The accumulators are reset exactly at the first column block. -/
theorem hc1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- The diagonal branch is taken exactly on the diagonal tiles. -/
theorem hc2 : ∀ t : Fin cfg1.N, k1_cond2 (grid1.coords t) = 1#1 ↔ t.val / 8 = t.val % 8 :=
  (by decide +kernel : ∀ t : Fin grid1.N, k1_cond2 (grid1.coords t) = 1#1 ↔ t.val / 8 = t.val % 8)
/-- The off-diagonal branch is taken exactly off the diagonal tiles. -/
theorem hc3 : ∀ t : Fin cfg1.N, k1_cond3 (grid1.coords t) = 1#1 ↔ ¬ t.val / 8 = t.val % 8 :=
  (by decide +kernel : ∀ t : Fin grid1.N, k1_cond3 (grid1.coords t) = 1#1 ↔ ¬ t.val / 8 = t.val % 8)
/-- The point's coordinates. -/
theorem coords1_0 : ∀ t : Fin cfg1.N, (grid1.coords t 0).val = t.val / 8 :=
  (by decide +kernel : ∀ t : Fin grid1.N, (grid1.coords t 0).val = t.val / 8)
theorem coords1_1 : ∀ t : Fin cfg1.N, (grid1.coords t 1).val = t.val % 8 :=
  (by decide +kernel : ∀ t : Fin grid1.N, (grid1.coords t 1).val = t.val % 8)
/-- Neither accumulator window is ever idle: one of the two accumulating branches is always taken. -/
theorem idle1_4 : ∀ t : Fin cfg1.N, idle1 4 (grid1.coords t) = false :=
  (by decide +kernel : ∀ t : Fin grid1.N, idle1 4 (grid1.coords t) = false)
theorem idle1_5 : ∀ t : Fin cfg1.N, idle1 5 (grid1.coords t) = false :=
  (by decide +kernel : ∀ t : Fin grid1.N, idle1 5 (grid1.coords t) = false)

/-- One staging buffer of each accumulator window, through which its contents are stated. -/
abbrev VO1_4 : View sig .tc .vmem S1024 .f32 := (Memref.whole cc1_stg4_0 : Memref sig .tc .vmem S1024 .f32).view
abbrev VO1_5 : View sig .tc .vmem S1024 .f32 := (Memref.whole cc1_stg5_0 : Memref sig .tc .vmem S1024 .f32).view
/-- Each window's current staging buffer at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)

end Cert.KernelIdeal.Fr

end
-- ==== Proof.KI.R1RunA.lean ====
/- The second launch's body, run in the case of the first tile of all (reset, then the diagonal branch). -/
import proofs.«127318_j28595892256874_2_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- The body in the case A: on whole staging buffers, the four inputs at their contents, the two accumulators at anything,
    it runs to the end keeping the inputs and leaving in each accumulator's buffer the pieces this run finds. -/
noncomputable def kernelRun1_A (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Fr

end
-- ==== Proof.KI.R1RunB.lean ====
/- The second launch's body, run in the case of a row block's first tile off the diagonal (reset, then the off-diagonal branch). -/
import proofs.«127318_j28595892256874_2_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- The body in the case B: on whole staging buffers, the four inputs at their contents, the two accumulators at anything,
    it runs to the end keeping the inputs and leaving in each accumulator's buffer the pieces this run finds. -/
noncomputable def kernelRun1_B (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Fr

end
-- ==== Proof.KI.R1RunC.lean ====
/- The second launch's body, run in the case of a later diagonal tile (no reset; the diagonal branch adds to the running sums). -/
import proofs.«127318_j28595892256874_2_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- The body in the case C: on whole staging buffers, the four inputs at their contents, the two accumulators at their running contents,
    it runs to the end keeping the inputs and leaving in each accumulator's buffer the pieces this run finds. -/
noncomputable def kernelRun1_C (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Fr

end
-- ==== Proof.KI.R1RunD.lean ====
/- The second launch's body, run in the case of a later off-diagonal tile (no reset; the off-diagonal branch adds to the running sums). -/
import proofs.«127318_j28595892256874_2_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- The body in the case D: on whole staging buffers, the four inputs at their contents, the two accumulators at their running contents,
    it runs to the end keeping the inputs and leaving in each accumulator's buffer the pieces this run finds. -/
noncomputable def kernelRun1_D (c : Dev nD) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole) (arg7 : Memref sig .tc .vmem S1024 .f32) (harg7 : arg7.IsWhole)
    (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) :
    { L : List (View.Piece (Elt F) S1024 .f32) × List (View.Piece (Elt F) S1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7) K } := by
  refine ⟨(?_, ?_), fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Fr

end
-- ==== Proof.KI.R1.lean ====
/- The second launch's body, at every grid point: what the two accumulators hold after each point, the launch's proof data and its body obligation.

   The accumulators' window has the row block's index, so its buffer is written back only when the row block changes: within
   a row block the body finds in it what it left at the point before. -/
import proofs.«127318_j28595892256874_2_alg».proof.Proof.KI.R1RunA
import proofs.«127318_j28595892256874_2_alg».proof.Proof.KI.R1RunB
import proofs.«127318_j28595892256874_2_alg».proof.Proof.KI.R1RunC
import proofs.«127318_j28595892256874_2_alg».proof.Proof.KI.R1RunD

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the unscoped buffers' contents when the launch is entered
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- In case A the stores into accumulator 4 cover its whole buffer. -/
theorem cover1_A_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (y : S1024.Idx) :
    ∃ pc ∈ (kernelRun1_A c i arg2 harg2 arg3 harg3 arg4 harg4 arg5 harg5 arg6 harg6 arg7 harg7 hc1 hc2 hc3 x0 x1 x2 x3).1.1, y ∈ pc.1.set :=
  View.cover_of_tiledL (kernelRun1_A c i arg2 harg2 arg3 harg3 arg4 harg4 arg5 harg5 arg6 harg6 arg7 harg7 hc1 hc2 hc3 x0 x1 x2 x3).1.1 S1024.size (by sl_kernel_rfl) y

/-- What case A leaves in accumulator 4's buffer: its pieces read back. -/
def out1_A_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) : Vec F S1024 .f32 :=
  VO1_4.read (Elt F) (VO1_4.writes (Elt F) VO1_4.junk (kernelRun1_A c i arg2 harg2 arg3 harg3 arg4 harg4 arg5 harg5 arg6 harg6 arg7 harg7 hc1 hc2 hc3 x0 x1 x2 x3).1.1)

/-- In case A the stores into accumulator 5 cover its whole buffer. -/
theorem cover1_A_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (y : S1024.Idx) :
    ∃ pc ∈ (kernelRun1_A c i arg2 harg2 arg3 harg3 arg4 harg4 arg5 harg5 arg6 harg6 arg7 harg7 hc1 hc2 hc3 x0 x1 x2 x3).1.2, y ∈ pc.1.set :=
  View.cover_of_tiledL (kernelRun1_A c i arg2 harg2 arg3 harg3 arg4 harg4 arg5 harg5 arg6 harg6 arg7 harg7 hc1 hc2 hc3 x0 x1 x2 x3).1.2 S1024.size (by sl_kernel_rfl) y

/-- What case A leaves in accumulator 5's buffer: its pieces read back. -/
def out1_A_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) : Vec F S1024 .f32 :=
  VO1_5.read (Elt F) (VO1_5.writes (Elt F) VO1_5.junk (kernelRun1_A c i arg2 harg2 arg3 harg3 arg4 harg4 arg5 harg5 arg6 harg6 arg7 harg7 hc1 hc2 hc3 x0 x1 x2 x3).1.2)

/-- In case B the stores into accumulator 4 cover its whole buffer. -/
theorem cover1_B_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (y : S1024.Idx) :
    ∃ pc ∈ (kernelRun1_B c i arg2 harg2 arg3 harg3 arg4 harg4 arg5 harg5 arg6 harg6 arg7 harg7 hc1 hc2 hc3 x0 x1 x2 x3).1.1, y ∈ pc.1.set :=
  View.cover_of_tiledL (kernelRun1_B c i arg2 harg2 arg3 harg3 arg4 harg4 arg5 harg5 arg6 harg6 arg7 harg7 hc1 hc2 hc3 x0 x1 x2 x3).1.1 S1024.size (by sl_kernel_rfl) y

/-- What case B leaves in accumulator 4's buffer: its pieces read back. -/
def out1_B_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) : Vec F S1024 .f32 :=
  VO1_4.read (Elt F) (VO1_4.writes (Elt F) VO1_4.junk (kernelRun1_B c i arg2 harg2 arg3 harg3 arg4 harg4 arg5 harg5 arg6 harg6 arg7 harg7 hc1 hc2 hc3 x0 x1 x2 x3).1.1)

/-- In case B the stores into accumulator 5 cover its whole buffer. -/
theorem cover1_B_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (y : S1024.Idx) :
    ∃ pc ∈ (kernelRun1_B c i arg2 harg2 arg3 harg3 arg4 harg4 arg5 harg5 arg6 harg6 arg7 harg7 hc1 hc2 hc3 x0 x1 x2 x3).1.2, y ∈ pc.1.set :=
  View.cover_of_tiledL (kernelRun1_B c i arg2 harg2 arg3 harg3 arg4 harg4 arg5 harg5 arg6 harg6 arg7 harg7 hc1 hc2 hc3 x0 x1 x2 x3).1.2 S1024.size (by sl_kernel_rfl) y

/-- What case B leaves in accumulator 5's buffer: its pieces read back. -/
def out1_B_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) : Vec F S1024 .f32 :=
  VO1_5.read (Elt F) (VO1_5.writes (Elt F) VO1_5.junk (kernelRun1_B c i arg2 harg2 arg3 harg3 arg4 harg4 arg5 harg5 arg6 harg6 arg7 harg7 hc1 hc2 hc3 x0 x1 x2 x3).1.2)

/-- In case C the stores into accumulator 4 cover its whole buffer. -/
theorem cover1_C_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_C c i arg2 harg2 arg3 harg3 arg4 harg4 arg5 harg5 arg6 harg6 arg7 harg7 hc1 hc2 hc3 x0 x1 x2 x3 xo4 xo5).1.1, y ∈ pc.1.set :=
  View.cover_of_tiledL (kernelRun1_C c i arg2 harg2 arg3 harg3 arg4 harg4 arg5 harg5 arg6 harg6 arg7 harg7 hc1 hc2 hc3 x0 x1 x2 x3 xo4 xo5).1.1 S1024.size (by sl_kernel_rfl) y

/-- What case C leaves in accumulator 4's buffer: its pieces read back. -/
def out1_C_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_4.read (Elt F) (VO1_4.writes (Elt F) VO1_4.junk (kernelRun1_C c i arg2 harg2 arg3 harg3 arg4 harg4 arg5 harg5 arg6 harg6 arg7 harg7 hc1 hc2 hc3 x0 x1 x2 x3 xo4 xo5).1.1)

/-- In case C the stores into accumulator 5 cover its whole buffer. -/
theorem cover1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_C c i arg2 harg2 arg3 harg3 arg4 harg4 arg5 harg5 arg6 harg6 arg7 harg7 hc1 hc2 hc3 x0 x1 x2 x3 xo4 xo5).1.2, y ∈ pc.1.set :=
  View.cover_of_tiledL (kernelRun1_C c i arg2 harg2 arg3 harg3 arg4 harg4 arg5 harg5 arg6 harg6 arg7 harg7 hc1 hc2 hc3 x0 x1 x2 x3 xo4 xo5).1.2 S1024.size (by sl_kernel_rfl) y

/-- What case C leaves in accumulator 5's buffer: its pieces read back. -/
def out1_C_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_5.read (Elt F) (VO1_5.writes (Elt F) VO1_5.junk (kernelRun1_C c i arg2 harg2 arg3 harg3 arg4 harg4 arg5 harg5 arg6 harg6 arg7 harg7 hc1 hc2 hc3 x0 x1 x2 x3 xo4 xo5).1.2)

/-- In case D the stores into accumulator 4 cover its whole buffer. -/
theorem cover1_D_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_D c i arg2 harg2 arg3 harg3 arg4 harg4 arg5 harg5 arg6 harg6 arg7 harg7 hc1 hc2 hc3 x0 x1 x2 x3 xo4 xo5).1.1, y ∈ pc.1.set :=
  View.cover_of_tiledL (kernelRun1_D c i arg2 harg2 arg3 harg3 arg4 harg4 arg5 harg5 arg6 harg6 arg7 harg7 hc1 hc2 hc3 x0 x1 x2 x3 xo4 xo5).1.1 S1024.size (by sl_kernel_rfl) y

/-- What case D leaves in accumulator 4's buffer: its pieces read back. -/
def out1_D_4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_4.read (Elt F) (VO1_4.writes (Elt F) VO1_4.junk (kernelRun1_D c i arg2 harg2 arg3 harg3 arg4 harg4 arg5 harg5 arg6 harg6 arg7 harg7 hc1 hc2 hc3 x0 x1 x2 x3 xo4 xo5).1.1)

/-- In case D the stores into accumulator 5 cover its whole buffer. -/
theorem cover1_D_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) (y : S1024.Idx) :
    ∃ pc ∈ (kernelRun1_D c i arg2 harg2 arg3 harg3 arg4 harg4 arg5 harg5 arg6 harg6 arg7 harg7 hc1 hc2 hc3 x0 x1 x2 x3 xo4 xo5).1.2, y ∈ pc.1.set :=
  View.cover_of_tiledL (kernelRun1_D c i arg2 harg2 arg3 harg3 arg4 harg4 arg5 harg5 arg6 harg6 arg7 harg7 hc1 hc2 hc3 x0 x1 x2 x3 xo4 xo5).1.2 S1024.size (by sl_kernel_rfl) y

/-- What case D leaves in accumulator 5's buffer: its pieces read back. -/
def out1_D_5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 : Vec F S1024x1024 .bf16) (x1 : Vec F S1024x1024 .bf16) (x2 : Vec F S1024 .i32) (x3 : Vec F S1024 .i32) (xo4 : Vec F S1024 .f32) (xo5 : Vec F S1024 .f32) : Vec F S1024 .f32 :=
  VO1_5.read (Elt F) (VO1_5.writes (Elt F) VO1_5.junk (kernelRun1_D c i arg2 harg2 arg3 harg3 arg4 harg4 arg5 harg5 arg6 harg6 arg7 harg7 hc1 hc2 hc3 x0 x1 x2 x3 xo4 xo5).1.2)

/-- THE ACCUMULATION: what the two accumulators' buffers hold after the body at position `n` — the case the point is in, run on the
    point's input blocks, a case that adds to the running sums taking them from position `n - 1`. -/
def outsAt1 (c : Dev nD) : (n : ℕ) → n < cfg1.N → Vec F S1024 .f32 × Vec F S1024 .f32
  | 0, hn =>
    have h1 : (⟨0, hn⟩ : Fin cfg1.N).val % 8 = 0 := Nat.zero_mod _
    have h2 : (⟨0, hn⟩ : Fin cfg1.N).val / 8 = (⟨0, hn⟩ : Fin cfg1.N).val % 8 := (show (0 : ℕ) / 8 = 0 % 8 from rfl)
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hc1 ⟨0, hn⟩).mpr h1) ((hc2 ⟨0, hn⟩).mpr h2) (fun h => (hc3 ⟨0, hn⟩).mp h h2) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hc1 ⟨0, hn⟩).mpr h1) ((hc2 ⟨0, hn⟩).mpr h2) (fun h => (hc3 ⟨0, hn⟩).mp h h2) (iblk1 V c 0 ⟨0, hn⟩) (iblk1 V c 1 ⟨0, hn⟩) (iblk1 V c 2 ⟨0, hn⟩) (iblk1 V c 3 ⟨0, hn⟩))
  | n + 1, hn =>
    if h1 : (⟨n + 1, hn⟩ : Fin cfg1.N).val % 8 = 0 then
      if h2 : (⟨n + 1, hn⟩ : Fin cfg1.N).val / 8 = (⟨n + 1, hn⟩ : Fin cfg1.N).val % 8 then
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩))
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩), out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hc1 ⟨n + 1, hn⟩).mpr h1) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩))
    else
      if h2 : (⟨n + 1, hn⟩ : Fin cfg1.N).val / 8 = (⟨n + 1, hn⟩ : Fin cfg1.N).val % 8 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) ((hc2 ⟨n + 1, hn⟩).mpr h2) (fun h => (hc3 ⟨n + 1, hn⟩).mp h h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)
      else
        (out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h1 ((hc1 ⟨n + 1, hn⟩).mp h)) (fun h => h2 ((hc2 ⟨n + 1, hn⟩).mp h)) ((hc3 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- `outsAt1` at a point of case A. -/
theorem outsAt1_A (c : Dev nD) (t : Fin cfg1.N) (h1 : t.val % 8 = 0) (h2 : t.val / 8 = t.val % 8) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) ((hc2 t).mpr h2) (fun h => (hc3 t).mp h h2) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) ((hc2 t).mpr h2) (fun h => (hc3 t).mp h h2) (iblk1 V c 0 t) (iblk1 V c 1 t) (iblk1 V c 2 t) (iblk1 V c 3 t)) := by
  obtain ⟨n, hn⟩ := t
  cases n with
  | zero => exact rfl
  | succ n => rw [outsAt1]; rw [dif_pos h1, dif_pos h2]

/-- `outsAt1` at a point of case B. -/
theorem outsAt1_B (c : Dev nD) (t : Fin cfg1.N) (h1 : t.val % 8 = 0) (h2 : ¬t.val / 8 = t.val % 8) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) (fun h => h2 ((hc2 t).mp h)) ((hc3 t).mpr h2) (iblk1 V c 0 t) (iblk1 V c 1 t) (iblk1 V c 2 t) (iblk1 V c 3 t), out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) ((hc1 t).mpr h1) (fun h => h2 ((hc2 t).mp h)) ((hc3 t).mpr h2) (iblk1 V c 0 t) (iblk1 V c 1 t) (iblk1 V c 2 t) (iblk1 V c 3 t)) := by
  obtain ⟨n, hn⟩ := t
  cases n with
  | zero => exact absurd (show (0 : ℕ) / 8 = 0 % 8 from rfl) h2
  | succ n => rw [outsAt1]; rw [dif_pos h1, dif_neg h2]

/-- `outsAt1` at a point of case C. -/
theorem outsAt1_C (c : Dev nD) (t : Fin cfg1.N) (h1 : ¬t.val % 8 = 0) (h2 : t.val / 8 = t.val % 8) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) ((hc2 t).mpr h2) (fun h => (hc3 t).mp h h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) ((hc2 t).mpr h2) (fun h => (hc3 t).mp h h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd (Nat.zero_mod _) h1
  | succ n => rw [outsAt1]; rw [dif_neg h1, dif_pos h2]; rfl

/-- `outsAt1` at a point of case D. -/
theorem outsAt1_D (c : Dev nD) (t : Fin cfg1.N) (h1 : ¬t.val % 8 = 0) (h2 : ¬t.val / 8 = t.val % 8) :
    outsAt1 V c t.val t.isLt = (out1_D_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) (fun h => h2 ((hc2 t).mp h)) ((hc3 t).mpr h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h1 ((hc1 t).mp h)) (fun h => h2 ((hc2 t).mp h)) ((hc3 t).mpr h2) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact absurd (Nat.zero_mod _) h1
  | succ n => rw [outsAt1]; rw [dif_neg h1, dif_neg h2]; rfl

/-- The second launch's proof data on core `c`: the arrays as found; after the body each input's buffer at its block and the
    accumulators' at `outsAt1`; the scoped rest and the generator register untouched; nothing owed. The normalized matrix and
    the labels are each read through two windows, which hold one half of the array each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q w := match w with
    | ⟨0, _⟩ => fullShare.left
    | ⟨1, _⟩ => fullShare.right
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Every accumulator window is live at every coordinate: one of the two accumulating branches is always taken. -/
theorem live1_4 : ∀ i : grid1.Coords, cfg1.idle 4 i = false := by decide +kernel
theorem live1_5 : ∀ i : grid1.Coords, cfg1.idle 5 i = false := by decide +kernel

/-- Away from a row block's first tile, accumulator 4's buffer holds what the body left at the point before: the
    buffer is written back only after a row block's last tile. -/
theorem before1_4_acc (c : Dev nD) (t : Fin cfg1.N) (h1 : ¬t.val % 8 = 0) (d) :
    (dat1 V c).before 4 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    live1_4 (fun _ _ => rfl)]
  dsimp only [dat1]

/-- Away from a row block's first tile, accumulator 5's buffer holds what the body left at the point before: the
    buffer is written back only after a row block's last tile. -/
theorem before1_5_acc (c : Dev nD) (t : Fin cfg1.N) (h1 : ¬t.val % 8 = 0) (d) :
    (dat1 V c).before 5 t d = (outsAt1 V c (t.val - 1) (Nat.lt_of_le_of_lt (Nat.sub_le _ _) t.isLt)).2 := by
  have hN : t.val < 64 := lt_of_lt_of_eq t.isLt (show cfg1.N = 64 from N_1)
  rw [Dat.before_out_kept _ 5 rfl t (by omega) (Bool.eq_false_iff.mpr fun h => by have := (flush1_5 _).mp h; dsimp only at this; omega)
    live1_5 (fun _ _ => rfl)]
  dsimp only [dat1]

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; the closed forms say which case the point is in; a case that
    adds to the running sums finds them as the point before left them; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h1 : t.val % 8 = 0
  · by_cases h2 : t.val / 8 = t.val % 8
    ·
      rw [outsAt1_A V c t h1 h2]
      dsimp only
      unfold out1_A_4 out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hc1 t).mpr h1) ((hc2 t).mpr h2) (fun h => (hc3 t).mp h h2) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _ _)
    ·
      rw [outsAt1_B V c t h1 h2]
      dsimp only
      unfold out1_B_4 out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ ((hc1 t).mpr h1) (fun h => h2 ((hc2 t).mp h)) ((hc3 t).mpr h2) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _)
  · by_cases h2 : t.val / 8 = t.val % 8
    ·
      rw [outsAt1_C V c t h1 h2]
      dsimp only
      simp only [before1_4_acc V c t h1, before1_5_acc V c t h1]
      unfold out1_C_4 out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h1 ((hc1 t).mp h)) ((hc2 t).mpr h2) (fun h => (hc3 t).mp h h2) (iblk1 V c 0 t) (iblk1 V c 1 t) (iblk1 V c 2 t) (iblk1 V c 3 t) _ _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    ·
      rw [outsAt1_D V c t h1 h2]
      dsimp only
      simp only [before1_4_acc V c t h1, before1_5_acc V c t h1]
      unfold out1_D_4 out1_D_5
      iintro ⟨HΦ, Ho, ⟨%d0, H0⟩, ⟨%d1, H1⟩, ⟨%d2, H2⟩, ⟨%d3, H3⟩, ⟨%d4, H4⟩, ⟨%d5, H5⟩⟩
      iapply ((kernelRun1_D c (grid1.coords t) _ _ _ _ _ _ _ _ _ _ _ _ (fun h => h1 ((hc1 t).mp h)) (fun h => h2 ((hc2 t).mp h)) ((hc3 t).mpr h2) (iblk1 V c 0 t) (iblk1 V c 1 t) (iblk1 V c 2 t) (iblk1 V c 3 t) _ _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_D_4 c _ _ _ _ _ _ _ _ _ _ _ _ _ _ _ _ _ _ _ _ _ _)
      unfold owns; iexists _; isplitr
      swap; · iexact H5
      ipureintro; exact View.read_writes_of_cover _ _ _ _ _ (cover1_D_5 c _ _ _ _ _ _ _ _ _ _ _ _ _ _ _ _ _ _ _ _ _ _)

/-- The body obligation of the second launch, at every point. -/
theorem body_obligation1 (c : Dev nD) : BodyObligation (dat1 (F := F) V c) (defs₀ (F := F)) Variants.none () Set.univ := fun t => by
  rw [bigSep_W1, bigSep_W1]
  have e4 : cfg1.idle 4 (cfg1.grid.coords t) = false := idle1_4 t
  rw [e4]
  exact sound_body1 V c t

end Cert.KernelIdeal.Fr

end
-- ==== Proof.KI.Share1.lean ====
/- The second launch's body, how its arrays are held.

   The launch reads the normalized matrix through two windows (the row block's rows and the column block's rows) and the
   labels through two more; each of those two arrays is held as two half shares, one per window, split off the whole
   array when the launch is entered and joined again when it is left. The two accumulator arrays are held whole. -/
import proofs.«127318_j28595892256874_2_alg».proof.Proof.KI.R1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind the launch's six windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_arg3) ↦{fullShare} W main_arg3)
          ∗ (((c : Thread nD τ).loc main_v1_0) ↦{fullShare} W main_v1_0) ∗ (((c : Thread nD τ).loc main_v1_1) ↦{fullShare} W main_v1_1)) := by
  unfold Pipeline.arrBufs
  rw [bigSep_eq_bigSepL_of_eq [main_v0, main_arg3, main_v1_0, main_v1_1] (by decide) (by decide)]
  rfl

/-- The launch's arrays, window by window: the two shared arrays at half shares, the accumulators' whole. -/
theorem arrays1_eq (c : Dev nD) (G : (w : Fin cfg1.W) → Buf (Elt F) (((cfg1.win w).arr.view.loc (c : Thread nD τ)))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg3) ↦{fullShare.left} G 2) ∗ (((c : Thread nD τ).loc main_arg3) ↦{fullShare.right} G 3)
          ∗ (((c : Thread nD τ).loc main_v1_0) ↦{fullShare} G 4) ∗ (((c : Thread nD τ).loc main_v1_1) ↦{fullShare} G 5)) := by
  unfold Dat.arrays
  rw [bigSep_W1]
  rw [(arr_whole1 0).set_eq_univ, (arr_whole1 2).set_eq_univ, (arr_whole1 4).set_eq_univ, (arr_whole1 5).set_eq_univ]
  rfl

/-- ENTRY: the core's unscoped buffers at contents `V c` are the launch's arrays at their entry contents — each of the two
    shared arrays split into its two half shares — and the buffers no window names. -/
theorem entry1 (c : Dev nD) :
    (unscopedBufs c (V c) : sProp 𝕄) ⊢ iprop((dat1 V c).arrays ((dat1 V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs1_eq, arrays1_eq]
  dsimp only
  have e0 : (dat1 V c).arrAt 0 0 = V c main_v0 := rfl
  have e1 : (dat1 V c).arrAt 1 0 = V c main_v0 := rfl
  have e2 : (dat1 V c).arrAt 2 0 = V c main_arg3 := rfl
  have e3 : (dat1 V c).arrAt 3 0 = V c main_arg3 := rfl
  have e4 : (dat1 V c).arrAt 4 0 = V c main_v1_0 := rfl
  have e5 : (dat1 V c).arrAt 5 0 = V c main_v1_1 := rfl
  rw [e0, e1, e2, e3, e4, e5]
  have hsp0 : ((((c : Thread nD τ).loc main_v0) ↦{fullShare} V c main_v0) : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  have hsp3 : ((((c : Thread nD τ).loc main_arg3) ↦{fullShare} V c main_arg3) : sProp 𝕄)
      ⊢ iprop((((c : Thread nD τ).loc main_arg3) ↦{fullShare.left} V c main_arg3) ∗ (((c : Thread nD τ).loc main_arg3) ↦{fullShare.right} V c main_arg3)) :=
    (pointsTo_share (PosShare.mem_left_op_right fullShare)).1
  iintro ⟨⟨H0, H3, H4, H5⟩, Hrest⟩
  ihave H0' := hsp0 $$ H0
  icases H0' with ⟨H0l, H0r⟩
  ihave H3' := hsp3 $$ H3
  icases H3' with ⟨H3l, H3r⟩
  isplitr [Hrest]
  swap; · iexact Hrest
  isplitl [H0l]; · iexact H0l
  isplitl [H0r]; · iexact H0r
  isplitl [H3l]; · iexact H3l
  isplitl [H3r]; · iexact H3r
  isplitl [H4]; · iexact H4
  iexact H5

/-- EXIT: the launch's arrays at their final contents — the inputs as entered, their halves joined again — and the buffers no
    window names are the core's unscoped buffers at any contents `W'` that has the two accumulator arrays at what the launch
    leaves and agrees with `V c` elsewhere. -/
theorem exit1 (c : Dev nD) (W' : (b : Ref sig .tc) → Buf (Elt F) ((c : Thread nD τ).loc b))
    (h4 : W' main_v1_0 = (dat1 V c).arrAt 4 cfg1.N) (h5 : W' main_v1_1 = (dat1 V c).arrAt 5 cfg1.N)
    (hrest : ∀ b, b ≠ main_v1_0 → b ≠ main_v1_1 → W' b = V c b) :
    iprop((dat1 V c).arrays ((dat1 V c).arrAt · cfg1.N) ∗ Pipeline.unscopedRest spec1 c (V c)) ⊢ (unscopedBufs c W' : sProp 𝕄) := by
  have hs : (unscopedBufs c W' : sProp 𝕄) = iprop(Pipeline.arrBufs spec1 c W' ∗ Pipeline.unscopedRest spec1 c W') :=
    Pipeline.unscopedBufs_split₀ cfgs 1 winFacts₀1.arr_unscoped c W'
  rw [hs, arrBufs1_eq, arrays1_eq]
  dsimp only
  have e0 : (dat1 V c).arrAt 0 cfg1.N = V c main_v0 := ((dat1 V c).arrAt_in 0 rfl _).trans rfl
  have e1 : (dat1 V c).arrAt 1 cfg1.N = V c main_v0 := ((dat1 V c).arrAt_in 1 rfl _).trans rfl
  have e2 : (dat1 V c).arrAt 2 cfg1.N = V c main_arg3 := ((dat1 V c).arrAt_in 2 rfl _).trans rfl
  have e3 : (dat1 V c).arrAt 3 cfg1.N = V c main_arg3 := ((dat1 V c).arrAt_in 3 rfl _).trans rfl
  rw [e0, e1, e2, e3]
  have hj0 : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) :=
    (pointsTo_share (PosShare.mem_left_op_right fullShare)).2
  have hj3 : iprop((((c : Thread nD τ).loc main_arg3) ↦{fullShare.left} V c main_arg3) ∗ (((c : Thread nD τ).loc main_arg3) ↦{fullShare.right} V c main_arg3))
      ⊢ ((((c : Thread nD τ).loc main_arg3) ↦{fullShare} V c main_arg3) : sProp 𝕄) :=
    (pointsTo_share (PosShare.mem_left_op_right fullShare)).2
  have e : (Pipeline.unscopedRest (Ix := Unit) (Name := ℕ) (U := UR sig nD τ) (Lvl := ℕ) spec1 c (V c) : sProp 𝕄) = Pipeline.unscopedRest spec1 c W' := by
    unfold Pipeline.unscopedRest
    refine bigSep_congr fun b hb => ?_
    have hb' := (Finset.mem_sdiff.mp hb).2
    rw [hrest b (fun h => hb' (h ▸ Finset.mem_image.mpr ⟨4, Finset.mem_univ _, rfl⟩)) (fun h => hb' (h ▸ Finset.mem_image.mpr ⟨5, Finset.mem_univ _, rfl⟩))]
  rw [e, hrest main_v0 (by decide) (by decide), hrest main_arg3 (by decide) (by decide), h4, h5]
  iintro ⟨⟨H0l, H0r, H3l, H3r, H4, H5⟩, Hrest⟩
  isplitr [Hrest]
  swap; · iexact Hrest
  isplitl [H0l H0r]
  · iapply hj0; isplitl [H0l] <;> iassumption
  isplitl [H3l H3r]
  · iapply hj3; isplitl [H3l] <;> iassumption
  isplitl [H4]; · iexact H4
  iexact H5

end Cert.KernelIdeal.Fr

end
-- ==== Proof.KI.Main.lean ====
/- The second launch's body, and the first's, as the two regions of the whole program, and the program's run.

   The program is: the first launch, the second launch, then seven stretches of host operations. The contents of the unscoped
   buffers are followed from the launch memory through every item; the run ends with every unscoped buffer at the last of
   these contents, from which both the unchanged arguments and the result are read. -/
import proofs.«127318_j28595892256874_2_alg».proof.Proof.KI.R0
import proofs.«127318_j28595892256874_2_alg».proof.Proof.KI.Share1
import proofs.«127318_j28595892256874_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch (the first launch's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second launch: the two accumulator arrays at what its write-backs leave, every other buffer as entered. -/
def W2 (c : Dev nD) : Valuation τ sig (Elt F) :=
  Function.update (Function.update (W1 m ρ c) (Proc.devRef .tc main_v1_0) ((dat1 (V1 m ρ) c).arrAt 4 cfg1.N))
    (Proc.devRef .tc main_v1_1) ((dat1 (V1 m ρ) c).arrAt 5 cfg1.N)
abbrev V2 : (c : Dev nD) → (b : Ref sig .tc) → Buf (Elt F) ((c : Thread nD τ).loc b) := fun c b => W2 m ρ c b
theorem W2_v1_0 (c : Dev nD) : V2 m ρ c main_v1_0 = (dat1 (V1 m ρ) c).arrAt 4 cfg1.N := by
  show W2 m ρ c (Proc.devRef .tc main_v1_0) = _
  unfold W2
  rw [Function.update_of_ne (StableHlo.devRef_ne_of_ne (by decide) : (Proc.devRef .tc main_v1_0 : DevRef τ sig) ≠ Proc.devRef .tc main_v1_1), Function.update_self]
theorem W2_v1_1 (c : Dev nD) : V2 m ρ c main_v1_1 = (dat1 (V1 m ρ) c).arrAt 5 cfg1.N := by
  show W2 m ρ c (Proc.devRef .tc main_v1_1) = _
  unfold W2; rw [Function.update_self]
theorem W2_of_ne (c : Dev nD) (b : Ref sig .tc) (h0 : b ≠ main_v1_0) (h1 : b ≠ main_v1_1) : V2 m ρ c b = V1 m ρ c b := by
  show W2 m ρ c (Proc.devRef .tc b) = W1 m ρ c (Proc.devRef .tc b)
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
/-- After the host stretch `hostOps2`. -/
abbrev W3 : Dev nD → Valuation τ sig (Elt F) := fun c => StableHlo.after hostOps2 (W2 m ρ c)
/-- After the host stretch `hostOps2_1`. -/
abbrev W4 : Dev nD → Valuation τ sig (Elt F) := fun c => StableHlo.after hostOps2_1 (W3 m ρ c)
/-- After the host stretch `hostOps2_2`. -/
abbrev W5 : Dev nD → Valuation τ sig (Elt F) := fun c => StableHlo.after hostOps2_2 (W4 m ρ c)
/-- After the host stretch `hostOps2_3`. -/
abbrev W6 : Dev nD → Valuation τ sig (Elt F) := fun c => StableHlo.after hostOps2_3 (W5 m ρ c)
/-- After the host stretch `hostOps2_4`. -/
abbrev W7 : Dev nD → Valuation τ sig (Elt F) := fun c => StableHlo.after hostOps2_4 (W6 m ρ c)
/-- After the host stretch `hostOps2_5`. -/
abbrev W8 : Dev nD → Valuation τ sig (Elt F) := fun c => StableHlo.after hostOps2_5 (W7 m ρ c)
/-- After the host stretch `hostOps2_6`. -/
abbrev W9 : Dev nD → Valuation τ sig (Elt F) := fun c => StableHlo.after hostOps2_6 (W8 m ρ c)

/-! ## The proof data family and the thread state -/

/-- Every launch's proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The launches as segments -/

set_option backward.isDefEq.respectTransparency.types false in
/-- THE FIRST LAUNCH over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered from every unscoped buffer at `W1`, left at `W2`; the two arrays it reads
    twice split into halves at the entry and joined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := entry1 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m ρ) c (V2 m ρ c) (W2_v1_0 m ρ c) (W2_v1_1 m ρ c) (W2_of_ne m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the run -/

/-- The program's nine segments in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)),
    .host (hseg hostOps2_3 hostOps2_3_sub hostOps2_3_fresh (W5 m ρ)),
    .host (hseg hostOps2_4 hostOps2_4_sub hostOps2_4_fresh (W6 m ρ)),
    .host (hseg hostOps2_5 hostOps2_5_sub hostOps2_5_fresh (W7 m ρ)),
    .host (hseg hostOps2_6 hostOps2_6_sub hostOps2_6_fresh (W8 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds every unscoped buffer at the last contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Fr

end
-- ==== Proof.KI.Frame.lean ====
/- The second launch's body, : what the run says of the argument arrays and of the result.

   No host stretch writes an argument and no launch may change one, so each argument's buffer ends as launched; the result's buffer
   ends at the last contents' value there. -/
import proofs.«127318_j28595892256874_2_alg».proof.Proof.KI.Main

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no host stretch writes ends as the second launch left it. -/
theorem W9_keep (c : Dev nD) (b : Ref sig .tc) (h0 : b ∉ hostOps2_W) (h1 : b ∉ hostOps2_1_W) (h2 : b ∉ hostOps2_2_W) (h3 : b ∉ hostOps2_3_W) (h4 : b ∉ hostOps2_4_W) (h5 : b ∉ hostOps2_5_W) (h6 : b ∉ hostOps2_6_W) :
    W9 m ρ c b = W2 m ρ c b :=
  (StableHlo.after_of_writes_sub hostOps2_6 _ hostOps2_6_writes h6).trans <|
  (StableHlo.after_of_writes_sub hostOps2_5 _ hostOps2_5_writes h5).trans <|
  (StableHlo.after_of_writes_sub hostOps2_4 _ hostOps2_4_writes h4).trans <|
  (StableHlo.after_of_writes_sub hostOps2_3 _ hostOps2_3_writes h3).trans <|
  (StableHlo.after_of_writes_sub hostOps2_2 _ hostOps2_2_writes h2).trans <|
  (StableHlo.after_of_writes_sub hostOps2_1 _ hostOps2_1_writes h1).trans <|
  (StableHlo.after_of_writes_sub hostOps2 _ hostOps2_writes h0)

theorem W9_main_arg0 (c : Dev nD) : W9 m ρ c main_arg0 = m ((c : Thread nD τ).loc main_arg0) :=
  (W9_keep m ρ c main_arg0 (by decide) (by decide) (by decide) (by decide) (by decide) (by decide) (by decide)).trans <|
    (W2_of_ne m ρ c main_arg0 (by decide) (by decide)).trans <| (W1_of_ne m ρ c main_arg0 (by decide)).trans rfl
theorem W9_main_arg1 (c : Dev nD) : W9 m ρ c main_arg1 = m ((c : Thread nD τ).loc main_arg1) :=
  (W9_keep m ρ c main_arg1 (by decide) (by decide) (by decide) (by decide) (by decide) (by decide) (by decide)).trans <|
    (W2_of_ne m ρ c main_arg1 (by decide) (by decide)).trans <| (W1_arr m ρ c 0).trans (((dat0 (V0 m ρ) c).arrAt_in 0 rfl _).trans rfl)
theorem W9_main_arg2 (c : Dev nD) : W9 m ρ c main_arg2 = m ((c : Thread nD τ).loc main_arg2) :=
  (W9_keep m ρ c main_arg2 (by decide) (by decide) (by decide) (by decide) (by decide) (by decide) (by decide)).trans <|
    (W2_of_ne m ρ c main_arg2 (by decide) (by decide)).trans <| (W1_of_ne m ρ c main_arg2 (by decide)).trans rfl
theorem W9_main_arg3 (c : Dev nD) : W9 m ρ c main_arg3 = m ((c : Thread nD τ).loc main_arg3) :=
  (W9_keep m ρ c main_arg3 (by decide) (by decide) (by decide) (by decide) (by decide) (by decide) (by decide)).trans <|
    (W2_of_ne m ρ c main_arg3 (by decide) (by decide)).trans <| (W1_of_ne m ρ c main_arg3 (by decide)).trans rfl

/-- THE FRAME, with the result named: every weakly fair execution terminates, nothing faulting; the result's buffer ends at the last
    contents' value and every argument's buffer as launched. -/
theorem run_result : θ_run defs (onTc (τ := τ) (main (F := F))) ⟨m, fun _ => 0, ρ⟩ (fun r => ∀ c : Dev nD,
      r.2.mem ((c.tc : Thread nD τ).loc main_v20) = W9 m ρ c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v20 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c)⟩) (run_all m ρ)

/-- THE FRAME: every weakly fair execution terminates, nothing faulting, and every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Fr

end
-- ==== Proof.KI.Tail.lean ====
/- The idealized kernel program's last stretches as one function of the labels and the two vectors of per-row sums the second launch
   leaves: the same epilogue the reference ends with. -/
import proofs.«127318_j28595892256874_2_alg».proof.Proof.KI.Frame
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo Cert.KernelIdeal Cert.KernelIdeal.Gen

/-- The shared epilogue: the per-row sums are summed per label (rows of a label outside the 200 kept are dropped by the
    scatter-add itself), a label counts as present when at least one row carries it, an absent label contributes 0 and a present one
    the logarithm of the ratio of its two sums; the contributions are summed and divided by 128. -/
def tailK {F : FTy → Type} [FloatOps F] (lab : (⟨S8192, .i32⟩ : BufTy).Contents (Elt F)) (rs rd : (⟨S8192, .f32⟩ : BufTy).Contents (Elt F)) :
    (⟨S_, .f32⟩ : BufTy).Contents (Elt F) :=
  let zero200 : (⟨S200, .f32⟩ : BufTy).Contents (Elt F) := broadcastInDim S200 ![] bcast_S_S200 (constant (F := F) S_ .f32 0x00000000#32)
  let one200 : (⟨S200, .f32⟩ : BufTy).Contents (Elt F) := broadcastInDim S200 ![] bcast_S_S200 (constant (F := F) S_ .f32 0x3F800000#32)
  let idx : (⟨S8192x1, .i32⟩ : BufTy).Contents (Elt F) := broadcastInDim S8192x1 ![0] bcast_S8192_S8192x1_0 lab
  let segS : (⟨S200, .f32⟩ : BufTy).Contents (Elt F) := Host.scatterAdd (F := F) scatter_S200_S8192x1_S8192_n_0_0_1 zero200 idx rs
  let segD : (⟨S200, .f32⟩ : BufTy).Contents (Elt F) := Host.scatterAdd (F := F) scatter_S200_S8192x1_S8192_n_0_0_1 zero200 idx rd
  let cnt : (⟨S200, .f32⟩ : BufTy).Contents (Elt F) := Host.scatterAdd (F := F) scatter_S200_S8192x1_S8192_n_0_0_1 zero200 idx
    (broadcastInDim S8192 ![] bcast_S_S8192 (constant (F := F) S_ .f32 0x3F800000#32))
  let present : (⟨S200, .i1⟩ : BufTy).Contents (Elt F) := cmpf (F := F) .ogt cnt zero200
  let ratio : (⟨S200, .f32⟩ : BufTy).Contents (Elt F) := Host.divf (F := F) (select present segS one200) (select present segD one200)
  let per : (⟨S200, .f32⟩ : BufTy).Contents (Elt F) := select present (Host.log (F := F) ratio) zero200
  Host.divf (F := F) (Host.reduceAdd (F := F) per (constant (F := F) S_ .f32 0x00000000#32) reducesTo_S200_S_d0 h_S_)
    (constant (F := F) S_ .f32 0x43000000#32)

variable {F : FTy → Type} [FloatOps F]
variable (m : (ℓ : Loc nD τ sig) → Buf (Elt F) ℓ) (ρ : Dev nD → PrngReg)

set_option maxHeartbeats 16000000 in
/-- The result's buffer after the host stretches: the epilogue of what the second launch left. -/
theorem result_eq (c : Dev nD) :
    Fr.W9 m ρ c main_v20 = tailK (Fr.W2 m ρ c main_arg3) (Fr.W2 m ρ c main_v1_0) (Fr.W2 m ρ c main_v1_1) := by
  show StableHlo.after hostOps2_6 (StableHlo.after hostOps2_5 (StableHlo.after hostOps2_4 (StableHlo.after hostOps2_3
    (StableHlo.after hostOps2_2 (StableHlo.after hostOps2_1 (StableHlo.after hostOps2 (Fr.W2 m ρ c))))))) (Proc.devRef .tc main_v20) = _
  generalize Fr.W2 m ρ c = W
  after_results_simp
  rfl

end Cert.KernelIdeal.Val

end
-- ==== Proof.Spec.lean ====
/- The quantity both programs compute, written once over plain extended reals.

   Rows of the embedding matrix are divided by their Euclidean norm, floored at a small positive
   constant; the similarity of two rows is the exponential of the inner product of the normalized
   rows; every row then collects two sums over all rows: the similarities to the OTHER rows carrying
   the same label, and the similarities to the rows carrying a different label. -/
import Idealize.ShloMosaic.PureOps.Ideal
import Idealize.ShloMosaic.PureOps.Ideal.Laws
import Idealize.ShloMosaic.Lib.ValueIdx

noncomputable section

namespace Cert.Bridge

open Idealize.ShloMosaic

/-- The floor under a row's norm: the one f32 word both programs carry (about 1e-8). -/
def eps : EReal := Ideal.ofBits .f32 0x322BCC77#32

variable (z : Fin 8192 → Fin 1024 → EReal) (lab : Fin 8192 → BitVec 32)

/-- Row `p`'s divisor: its norm, floored. -/
def den (p : Fin 8192) : EReal := max (Ideal.sqrt (∑ k : Fin 1024, z p k * z p k)) eps

/-- The normalized matrix. -/
def zn (p : Fin 8192) (k : Fin 1024) : EReal := Ideal.div (z p k) (den z p)

/-- The similarity of rows `p` and `q`: the exponential of the normalized rows' inner product. -/
def sim (p q : Fin 8192) : EReal := Ideal.exp (∑ k : Fin 1024, zn z p k * zn z q k)

/-- Row `p`'s sum of similarities to the other rows of its own label. -/
def rowSame (p : Fin 8192) : EReal := ∑ q : Fin 8192, if lab p = lab q ∧ p ≠ q then sim z p q else 0

/-- Row `p`'s sum of similarities to the rows of another label. -/
def rowDiff (p : Fin 8192) : EReal := ∑ q : Fin 8192, if lab p = lab q then 0 else sim z p q

end Cert.Bridge

end
-- ==== Proof.KI.Val0.lean ====
/- The first launch's output array: the input matrix with every row divided by its floored norm.

   The launch walks the 8192×1024 input in eight blocks of 1024 rows; at each point its body divides
   every entry of the block by its row's norm (the square root of the row's sum of squares, floored at
   a small constant) and the block is written back to the same rows of the output array. A row lies
   whole inside one block, so the block's entry (r, k) at point t is the specification's normalized
   matrix at (1024·t + r, k); the eight blocks tile the output array, which therefore ends holding the
   normalized matrix of the input array as the launch found it. Changes of float format are the
   identity on extended reals, so the bf16 output holds exactly these quotients. -/
import proofs.«127318_j28595892256874_2_alg».proof.Proof.KI.R0
import proofs.«127318_j28595892256874_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Bridge

/-- A lane sum of a 1024×1024 block, read at row r: the sum of the row's 1024 entries. -/
theorem rowsum_apply (v : FVec Ideal S1024x1024 .f32) (hφ : FKind.Formats .f32)
    (hacc : (0x00000000#32 : BitVec 32) = FKind.add.neutral .f32 hφ) (r : Fin 1024) :
    multiReduction (F := Ideal) .add [1] S1024 v 0x00000000#32 reduces_S1024x1024_S1024 hφ hacc (ix1 r)
      = ∑ k : Fin 1024, v (ix2 r k) := by
  refine (Ideal.multiReduction_add_single v _ reduces_S1024x1024_S1024 hφ hacc (ix1 r)).trans ?_
  show ∑ k : Fin 1024, v (reduces_S1024x1024_S1024.lift (ix1 r) k) = _
  refine Finset.sum_congr rfl fun k _ => congrArg v (funext fun a => Fin.ext ?_)
  match a with
  | ⟨0, _⟩ => rfl
  | ⟨1, _⟩ => rfl

/-- A vector of 1024 entries viewed as a 1024×1 column reads, at (r, 0), entry r. -/
theorem column_apply {α : Type} (v : S1024.Idx → α) (r : Fin 1024) :
    shapeCast S1024x1 v shapeCasts_S1024_S1024x1 (ix2 r (0 : Fin 1)) = v (ix1 r) := by
  refine shapeCast_apply v _ (ix2 r (0 : Fin 1)) (ix1 r) ?_
  rw [Shape.rowMajor_val_two, Shape.rowMajor_val_one]
  show r.val = r.val * 1 + 0
  omega

/-- A 1024×1 column broadcast along the rows' 1024 lanes reads, at (r, k), the column's entry (r, 0). -/
theorem lanes_apply {α : Type} (v : S1024x1.Idx → α) (r k : Fin 1024) :
    broadcastTo S1024x1024 v broadcasts_S1024x1_S1024x1024 (ix2 r k) = v (ix2 r (0 : Fin 1)) := by
  refine broadcastTo_apply v _ (ix2 r k) (ix2 r (0 : Fin 1)) fun a => ?_
  match a with
  | ⟨0, _⟩ => show r.val = if (1024 : Nat) = 1 then 0 else r.val; rw [if_neg (by decide)]
  | ⟨1, _⟩ => show 0 = if (1 : Nat) = 1 then 0 else k.val; rw [if_pos rfl]

/-- THE BODY'S ARITHMETIC AT AN ENTRY: entry (r, k) of the block divided by row r's floored norm. -/
theorem pay_apply (x0 : Vec Ideal S1024x1024 .f32) (r k : Fin 1024) :
    k0_pay1 (F := Ideal) x0 (ix2 r k)
      = Ideal.div (x0 (ix2 r k)) (max (Ideal.sqrt (∑ k' : Fin 1024, x0 (ix2 r k') * x0 (ix2 r k'))) eps) := by
  unfold k0_pay1
  dsimp only
  show Ideal.div (x0 (ix2 r k)) (broadcastTo S1024x1024 _ broadcasts_S1024x1_S1024x1024 (ix2 r k)) = _
  refine congrArg (Ideal.div (x0 (ix2 r k))) ?_
  refine (lanes_apply _ r k).trans ?_
  show max (Ideal.sqrt (shapeCast S1024x1 _ shapeCasts_S1024_S1024x1 (ix2 r (0 : Fin 1)))) (Ideal.ofBits .f32 0x322BCC77#32) = _
  refine congrArg (fun s => max (Ideal.sqrt s) eps) ?_
  refine (column_apply _ r).trans ?_
  exact rowsum_apply _ _ _ r

/-! ## From blocks to the array -/

section Blocks
variable (V : (c : Dev nD) → (b : Ref sig .tc) → Buf (Elt Ideal) ((c : Thread nD τ).loc b))

theorem origin_zero : (![0, 0] : Fin 2 → Nat) = fun _ => 0 := funext fun a => by fin_cases a <;> rfl

/-- Both windows' block at point t is block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The normalized matrix as one array. -/
def normed (z : Fin 8192 → Fin 1024 → EReal) : S8192x1024.Idx → EReal :=
  fun i => zn z ⟨(i 0).val, idx2_lt0 i⟩ ⟨(i 1).val, idx2_lt1 i⟩

/-- Row r of block t is row 1024·t + r of the array. -/
theorem row_lt (t : Fin cfg0.N) (r : Fin 1024) : t.val * 1024 + r.val < 8192 := by
  have ht : t.val < 8 := Nat.lt_of_lt_of_eq t.isLt (show cfg0.N = 8 from N_0)
  have hr := r.isLt
  omega

abbrev rowOf (t : Fin cfg0.N) (r : Fin 1024) : Fin 8192 := ⟨t.val * 1024 + r.val, row_lt t r⟩

/-- The input window's block at point t, read at (r, k), is the input array at (1024·t + r, k). -/
theorem iblk_apply (c : Dev nD) (t : Fin cfg0.N) (r k : Fin 1024) :
    (Fr.iblk0 (F := Ideal) V c 0 t : Vec Ideal S1024x1024 .f32) (ix2 r k) = V c main_arg1 (ix2 (rowOf t r) k) := by
  obtain ⟨e0, e1, -, -⟩ := block_index t
  unfold Fr.iblk0
  rw [View.read_apply]
  show V c main_arg1 (((cfg0.win 0).blk t).view.emb (ix2 r k)) = _
  refine congrArg (V c main_arg1) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 1024 + 1 * k.val = k.val; rw [e1]; omega

/-- Entry (r, k) of the output window's block at point t is entry (1024·t + r, k) of the output array. -/
theorem oblk_emb (t : Fin cfg0.N) (r k : Fin 1024) :
    ((cfg0.win 1).blk t).view.emb (ix2 r k) = ix2 (rowOf t r) k := by
  obtain ⟨-, -, e2, e3⟩ := block_index t
  refine funext fun a => Fin.ext ?_
  match a with
  | ⟨0, _⟩ => show win0_1.index t (0 : Fin 2) * 1024 + 1 * r.val = t.val * 1024 + r.val; rw [e2]; omega
  | ⟨1, _⟩ => show win0_1.index t (1 : Fin 2) * 1024 + 1 * k.val = k.val; rw [e3]; omega

theorem flushed_eq (c : Dev nD) (t : Fin cfg0.N) :
    (Fr.dat0 (F := Ideal) V c).flushed 1 t
      = ((cfg0.win 1).blk t).view.read (Elt Ideal) (normed (fun p k => V c main_arg1 (ix2 p k))) := by
  show (cfg0.win 1).cut (grid0.coords t) ((Fr.dat0 (F := Ideal) V c).after 1 t) = _
  rw [Fr.after0_1]
  unfold Fr.out0_1
  rw [View.canon_unit_zero origin_zero]
  simp only [View.ld_unit_zero (S := S1024x1024) origin_zero]
  funext j
  obtain ⟨r, k, rfl⟩ : ∃ (r : Fin 1024) (k : Fin 1024), j = ix2 r k := ⟨j 0, j 1, eq_ix2 j⟩
  show k0_pay1 (F := Ideal) (Fr.iblk0 (F := Ideal) V c 0 t) (ix2 r k)
    = normed (fun p k => V c main_arg1 (ix2 p k)) (((cfg0.win 1).blk t).view.emb (ix2 r k))
  refine (pay_apply (Fr.iblk0 (F := Ideal) V c 0 t) r k).trans ?_
  rw [oblk_emb, iblk_apply]
  show _ = zn (fun p k => V c main_arg1 (ix2 p k)) (rowOf t r) k
  unfold zn den
  refine congrArg (fun s => Ideal.div _ (max (Ideal.sqrt s) eps)) (Finset.sum_congr rfl fun k' _ => ?_)
  rw [iblk_apply]

/-- An index of the output array is in point t's block iff each coordinate is in the block's range. -/
theorem mem_blk (t : Fin cfg0.N) (i : S8192x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- Every index of the output array is in the block of the point that holds its row: row p is in block p / 1024. -/
theorem cover (i : S8192x1024.Idx) :
    ∃ t : Fin cfg0.N, (cfg0.win 1).flush t = true ∧ i ∈ ((cfg0.win 1).blk t).view.set := by
  have hi0 : (i 0).val < 8192 := idx2_lt0 i
  have hi1 : (i 1).val < 1024 := idx2_lt1 i
  let t : Fin cfg0.N := ⟨(i 0).val / 1024, by rw [show cfg0.N = 8 from N_0]; omega⟩
  obtain ⟨-, -, e2, e3⟩ := block_index t
  have ht : t.val = (i 0).val / 1024 := rfl
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; rw [e2, ht]; omega
  | ⟨1, _⟩ => show win0_1.index t (1 : Fin 2) * 1024 ≤ (i 1).val ∧ (i 1).val < win0_1.index t (1 : Fin 2) * 1024 + 1024; rw [e3]; omega

/-- THE OUTPUT ARRAY after the launch: the normalized matrix of the input array as the launch found it. -/
theorem final0_arr (c : Dev nD) :
    (Fr.dat0 (F := Ideal) V c).arrAt 1 cfg0.N = normed (fun p k => V c main_arg1 (ix2 p k)) :=
  (Fr.dat0 (F := Ideal) V c).arrAt_eq_of_cover 1 (normed (fun p k => V c main_arg1 (ix2 p k)))
    (fun t _ => flushed_eq V c t) cover

/-- Entry (p, k) of the output array after the launch. -/
theorem final0 (c : Dev nD) (p : Fin 8192) (k : Fin 1024) :
    (Fr.dat0 (F := Ideal) V c).arrAt 1 cfg0.N (ix2 p k) = Cert.Bridge.zn (fun p k => V c main_arg1 (ix2 p k)) p k := by
  rw [final0_arr]
  rfl

end Blocks

end Cert.KernelIdeal.Val

end
-- ==== Proof.KI.Pay1.lean ====
/- The second launch's arithmetic, read at an entry.

   At a grid point the body holds two blocks of 1024 rows of the normalized matrix (the "row" block and
   the "column" block), the two blocks' labels, and two running row sums. It forms the 1024×1024 tile of
   exponentials of inner products of a row of the first block with a row of the second, masks the tile
   by label equality (and, on a diagonal tile, by "not the same row") or by label inequality, sums the
   masked tile along its rows and adds the sums to the running sums. This module reads each of those
   values at an index: the tile entry (r, k) is the exponential of ∑_d a(r,d)·b(k,d); the mask words are 1
   exactly on the stated conditions; the updated running sum at row r is the old one plus the sum over k
   of the masked tile entries. -/
import proofs.«127318_j28595892256874_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Val1

open Idealize.ShloMosaic Idealize.ShloMosaic.ValueIdx Idealize.SL.Sem
open Cert.KernelIdeal Cert.KernelIdeal.Gen

/-! ## One-bit condition words -/

/-- An equality comparison's word is 1 exactly when the operands are equal. -/
theorem cmpi_eq_one_iff {w : Nat} (a b : BitVec w) : IntOp.cmpi .eq a b = 1#1 ↔ a = b := by
  show BitVec.ofBool (a == b) = 1#1 ↔ a = b
  by_cases h : a = b
  · have hb : (a == b) = true := by simpa using h
    rw [hb]; exact ⟨fun _ => h, fun _ => rfl⟩
  · have hb : (a == b) = false := by simpa using h
    rw [hb]; exact ⟨fun h1 => absurd h1 (by decide), fun h2 => absurd h2 h⟩

/-- A disequality comparison's word is 1 exactly when the operands differ. -/
theorem cmpi_ne_one_iff {w : Nat} (a b : BitVec w) : IntOp.cmpi .ne a b = 1#1 ↔ a ≠ b := by
  show BitVec.ofBool (a != b) = 1#1 ↔ a ≠ b
  by_cases h : a = b
  · have hb : (a != b) = false := by simpa using h
    rw [hb]; exact ⟨fun h1 => absurd h1 (by decide), fun h2 => absurd h h2⟩
  · have hb : (a != b) = true := by simpa using h
    rw [hb]; exact ⟨fun _ => h, fun _ => rfl⟩

/-- On one bit, "c and d" is 1 exactly when both are. -/
theorem and_eq_one_iff (c d : BitVec 1) : IntOp.andi c d = 1#1 ↔ c = 1#1 ∧ d = 1#1 := by
  revert c d; decide

/-- On one bit, "c xor 1" is 1 exactly when c is not. -/
theorem xor_one_eq_one_iff (c : BitVec 1) : IntOp.xori c 1#1 = 1#1 ↔ ¬ c = 1#1 := by
  revert c; decide

/-- Two coordinates below 1024 are equal exactly when their 32-bit words are. -/
theorem ofNat_lane_eq_iff (r k : Fin 1024) : BitVec.ofNat 32 r.val = BitVec.ofNat 32 k.val ↔ r = k := by
  constructor
  · intro h
    have h' := congrArg BitVec.toNat h
    simp only [BitVec.toNat_ofNat] at h'
    have hr := r.isLt; have hk := k.isLt
    exact Fin.ext (by omega)
  · rintro rfl; rfl

/-! ## Layout operations at the launch's literal shapes -/

/-- A lane sum of a 1024×1024 tile, read at row r: the sum of the row's 1024 entries. -/
theorem rowsum_apply (v : FVec Ideal S1024x1024 .f32) (hφ : FKind.Formats .f32)
    (hacc : (0x00000000#32 : BitVec 32) = FKind.add.neutral .f32 hφ) (r : Fin 1024) :
    multiReduction (F := Ideal) .add [1] S1024 v 0x00000000#32 reduces_S1024x1024_S1024 hφ hacc (ix1 r)
      = ∑ k : Fin 1024, v (ix2 r k) := by
  refine (Ideal.multiReduction_add_single v _ reduces_S1024x1024_S1024 hφ hacc (ix1 r)).trans ?_
  show ∑ k : Fin 1024, v (reduces_S1024x1024_S1024.lift (ix1 r) k) = _
  refine Finset.sum_congr rfl fun k _ => congrArg v (funext fun a => Fin.ext ?_)
  match a with
  | ⟨0, _⟩ => rfl
  | ⟨1, _⟩ => rfl

/-- A vector of 1024 entries viewed as a 1024×1 column reads, at (r, 0), entry r. -/
theorem column_apply {α : Type} (v : S1024.Idx → α) (r : Fin 1024) :
    shapeCast S1024x1 v shapeCasts_S1024_S1024x1 (ix2 r (0 : Fin 1)) = v (ix1 r) := by
  refine shapeCast_apply v _ (ix2 r (0 : Fin 1)) (ix1 r) ?_
  rw [Shape.rowMajor_val_two, Shape.rowMajor_val_one]
  show r.val = r.val * 1 + 0
  omega

/-- A vector of 1024 entries viewed as a 1×1024 row reads, at (0, k), entry k. -/
theorem row_apply {α : Type} (v : S1024.Idx → α) (k : Fin 1024) :
    shapeCast S1x1024 v shapeCasts_S1024_S1x1024 (ix2 (0 : Fin 1) k) = v (ix1 k) := by
  refine shapeCast_apply v _ (ix2 (0 : Fin 1) k) (ix1 k) ?_
  rw [Shape.rowMajor_val_two, Shape.rowMajor_val_one]
  show k.val = 0 * 1024 + k.val
  omega

/-- A 1024×1 column broadcast along 1024 lanes reads, at (r, k), the column's entry (r, 0). -/
theorem lanes_apply {α : Type} (v : S1024x1.Idx → α) (r k : Fin 1024) :
    broadcastTo S1024x1024 v broadcasts_S1024x1_S1024x1024 (ix2 r k) = v (ix2 r (0 : Fin 1)) := by
  refine broadcastTo_apply v _ (ix2 r k) (ix2 r (0 : Fin 1)) fun a => ?_
  match a with
  | ⟨0, _⟩ => show r.val = if (1024 : Nat) = 1 then 0 else r.val; rw [if_neg (by decide)]
  | ⟨1, _⟩ => show 0 = if (1 : Nat) = 1 then 0 else k.val; rw [if_pos rfl]

/-- A 1×1024 row broadcast down 1024 rows reads, at (r, k), the row's entry (0, k). -/
theorem rows_apply {α : Type} (v : S1x1024.Idx → α) (r k : Fin 1024) :
    broadcastTo S1024x1024 v broadcasts_S1x1024_S1024x1024 (ix2 r k) = v (ix2 (0 : Fin 1) k) := by
  refine broadcastTo_apply v _ (ix2 r k) (ix2 (0 : Fin 1) k) fun a => ?_
  match a with
  | ⟨0, _⟩ => show 0 = if (1 : Nat) = 1 then 0 else r.val; rw [if_pos rfl]
  | ⟨1, _⟩ => show k.val = if (1024 : Nat) = 1 then 0 else k.val; rw [if_neg (by decide)]

/-- The row counter of a tile reads, at (r, k), the word of r. -/
theorem iota_row_apply (r k : Fin 1024) :
    iota .tc S1024x1024 32 [0] iota_S1024x1024_d0_w32 (ix2 r k) = BitVec.ofNat 32 r.val :=
  iota_single_apply .tc S1024x1024 32 0 iota_S1024x1024_d0_w32 (ix2 r k)

/-- The lane counter of a tile reads, at (r, k), the word of k. -/
theorem iota_lane_apply (r k : Fin 1024) :
    iota .tc S1024x1024 32 [1] iota_S1024x1024_d1_w32 (ix2 r k) = BitVec.ofNat 32 k.val :=
  iota_single_apply .tc S1024x1024 32 1 iota_S1024x1024_d1_w32 (ix2 r k)

/-! ## The tile of inner products -/

local notation "DD" => dot_S1024x1024_S1024x1024_S1024x1024_1_1_0_0_n_n

theorem gram_lhs_row (i : S1024x1024.Idx) (q : (dot_S1024x1024_S1024x1024_S1024x1024_1_1_0_0_n_n).contr.Idx) :
    ((dot_S1024x1024_S1024x1024_S1024x1024_1_1_0_0_n_n).lhsIdx i q 0).val = (i 0).val := by
  unfold DotDims.lhsIdx
  rw [dif_neg (show ¬(0 : Fin S1024x1024.rank) ∈ (dot_S1024x1024_S1024x1024_S1024x1024_1_1_0_0_n_n).lhsBatch by decide),
    dif_pos (show (0 : Fin S1024x1024.rank) ∈ (dot_S1024x1024_S1024x1024_S1024x1024_1_1_0_0_n_n).lhsNonContracting by decide)]
  rfl

theorem gram_rhs_row (i : S1024x1024.Idx) (q : (dot_S1024x1024_S1024x1024_S1024x1024_1_1_0_0_n_n).contr.Idx) :
    ((dot_S1024x1024_S1024x1024_S1024x1024_1_1_0_0_n_n).rhsIdx i q 0).val = (i 1).val := by
  unfold DotDims.rhsIdx
  rw [dif_neg (show ¬(0 : Fin S1024x1024.rank) ∈ (dot_S1024x1024_S1024x1024_S1024x1024_1_1_0_0_n_n).rhsBatch by decide),
    dif_pos (show (0 : Fin S1024x1024.rank) ∈ (dot_S1024x1024_S1024x1024_S1024x1024_1_1_0_0_n_n).rhsNonContracting by decide)]
  rfl

/-- The matrix product contracting both blocks' second axis, into zero, at (r, k): the inner product of row r of
    the first block and row k of the second. -/
theorem gram_apply (x0 x1 : FVec Ideal S1024x1024 .bf16) (r k : Fin 1024) :
    matmul (F := Ideal) dot_S1024x1024_S1024x1024_S1024x1024_1_1_0_0_n_n none x0 x1 (constant S1024x1024 .f32 0x00000000#32) (ix2 r k)
      = ∑ d : Fin 1024, x0 (ix2 r d) * x1 (ix2 k d) := by
  refine (Ideal.matmul_constant_zero_apply dot_S1024x1024_S1024x1024_S1024x1024_1_1_0_0_n_n none x0 x1 (ix2 r k)).trans ?_
  rw [← Equiv.sum_comp (contrEquiv1 dot_S1024x1024_S1024x1024_S1024x1024_1_1_0_0_n_n 1024 rfl rfl).symm]
  refine Finset.sum_congr rfl fun d _ => ?_
  have hd := contrEquiv1_symm_val dot_S1024x1024_S1024x1024_S1024x1024_1_1_0_0_n_n 1024 rfl rfl d
  have el : (dot_S1024x1024_S1024x1024_S1024x1024_1_1_0_0_n_n).lhsIdx (ix2 r k)
      ((contrEquiv1 dot_S1024x1024_S1024x1024_S1024x1024_1_1_0_0_n_n 1024 rfl rfl).symm d) = ix2 r d :=
    funext fun a => Fin.ext (by
      match a with
      | ⟨0, _⟩ => exact gram_lhs_row _ _
      | ⟨1, _⟩ => exact ((dot_S1024x1024_S1024x1024_S1024x1024_1_1_0_0_n_n).lhsIdx_val_of_single rfl _ _).trans hd)
  have er : (dot_S1024x1024_S1024x1024_S1024x1024_1_1_0_0_n_n).rhsIdx (ix2 r k)
      ((contrEquiv1 dot_S1024x1024_S1024x1024_S1024x1024_1_1_0_0_n_n 1024 rfl rfl).symm d) = ix2 k d :=
    funext fun a => Fin.ext (by
      match a with
      | ⟨0, _⟩ => exact gram_rhs_row _ _
      | ⟨1, _⟩ => exact ((dot_S1024x1024_S1024x1024_S1024x1024_1_1_0_0_n_n).rhsIdx_val_of_single rfl _ _).trans hd)
  rw [el, er]

/-- THE TILE at (r, k): the exponential of the inner product of row r of the first block and row k of the second. -/
theorem pay3_apply (x0 x1 : Vec Ideal S1024x1024 .bf16) (r k : Fin 1024) :
    k1_pay3 (F := Ideal) x0 x1 (ix2 r k) = Ideal.exp (∑ d : Fin 1024, x0 (ix2 r d) * x1 (ix2 k d)) := by
  unfold k1_pay3
  rw [shapeCast_self, shapeCast_self]
  exact congrArg Ideal.exp (gram_apply x0 x1 r k)

/-- THE LABEL MASK at (r, k): 1 exactly when row r of the first block and row k of the second carry one label. -/
theorem pay4_one_iff (x2 x3 : Vec Ideal S1024 .i32) (r k : Fin 1024) :
    k1_pay4 (F := Ideal) x2 x3 (ix2 r k) = 1#1 ↔ x2 (ix1 r) = x3 (ix1 k) := by
  unfold k1_pay4
  show IntOp.cmpi .eq (broadcastTo S1024x1024 _ broadcasts_S1024x1_S1024x1024 (ix2 r k))
    (broadcastTo S1024x1024 _ broadcasts_S1x1024_S1024x1024 (ix2 r k)) = 1#1 ↔ _
  rw [lanes_apply, column_apply, rows_apply, row_apply]
  exact cmpi_eq_one_iff _ _

/-! ## The masked row sums added to the running sums -/

/-- A running sum plus the row sums of a tile masked to zero outside a condition: at row r, the old sum plus the sum
    over the lanes k where the condition holds of the tile's entries. -/
theorem masked_rowsum (m : IVec S1024x1024 1) (e : FVec Ideal S1024x1024 .f32) (acc : Vec Ideal S1024 .f32)
    (P : Fin 1024 → Fin 1024 → Prop) [∀ r k, Decidable (P r k)] (E : Fin 1024 → Fin 1024 → EReal)
    (hm : ∀ r k, m (ix2 r k) = 1#1 ↔ P r k) (he : ∀ r k, e (ix2 r k) = E r k)
    (hφ : FKind.Formats .f32) (hacc : (0x00000000#32 : BitVec 32) = FKind.add.neutral .f32 hφ) (r : Fin 1024) :
    addf (F := Ideal) (shapeCast S1024 acc shapeCasts_S1024_S1024)
        (multiReduction (F := Ideal) .add [1] S1024
          (select m e (broadcast S1024x1024 (Scalar.ofBits (F := Ideal) .f32 0x00000000#32)))
          0x00000000#32 reduces_S1024x1024_S1024 hφ hacc) (ix1 r)
      = acc (ix1 r) + ∑ k : Fin 1024, if P r k then E r k else 0 := by
  rw [shapeCast_self]
  show acc (ix1 r) + multiReduction (F := Ideal) .add [1] S1024 _ 0x00000000#32 reduces_S1024x1024_S1024 hφ hacc (ix1 r) = _
  refine congrArg (acc (ix1 r) + ·) ?_
  refine (rowsum_apply _ hφ hacc r).trans (Finset.sum_congr rfl fun k _ => ?_)
  show (if m (ix2 r k) = 1#1 then e (ix2 r k) else Ideal.ofBits .f32 0x00000000#32) = _
  rw [if_congr (hm r k) (he r k) Ideal.ofBits_zero_f32]

/-- The zero vectors the reset stores: every entry is zero. -/
theorem pay1_apply (i : S1024.Idx) : k1_pay1 (F := Ideal) i = 0 := Ideal.ofBits_zero_f32
theorem pay2_apply (i : S1024.Idx) : k1_pay2 (F := Ideal) i = 0 := Ideal.ofBits_zero_f32

section Updates
variable (x0 x1 : Vec Ideal S1024x1024 .bf16) (x2 x3 : Vec Ideal S1024 .i32) (acc : Vec Ideal S1024 .f32)

/-- THE SAME-LABEL UPDATE OFF THE DIAGONAL: the running sum at row r plus the sum, over the rows k of the second
    block with r's label, of the tile's entries. -/
theorem pay7_apply (r : Fin 1024) :
    k1_pay7 (F := Ideal) x0 x1 x2 x3 acc (ix1 r)
      = acc (ix1 r) + ∑ k : Fin 1024,
          if x2 (ix1 r) = x3 (ix1 k) then Ideal.exp (∑ d : Fin 1024, x0 (ix2 r d) * x1 (ix2 k d)) else 0 := by
  unfold k1_pay7
  exact masked_rowsum (k1_pay4 x2 x3) (k1_pay3 x0 x1) acc (fun r k => x2 (ix1 r) = x3 (ix1 k)) _
    (pay4_one_iff x2 x3) (pay3_apply x0 x1) _ _ r

/-- The complemented label mask at (r, k): 1 exactly when the two rows' labels differ. -/
theorem notmask_one_iff (r k : Fin 1024) :
    xori (k1_pay4 (F := Ideal) x2 x3) (constantI S1024x1024 1 1#1) (ix2 r k) = 1#1 ↔ ¬ x2 (ix1 r) = x3 (ix1 k) := by
  show IntOp.xori (k1_pay4 (F := Ideal) x2 x3 (ix2 r k)) 1#1 = 1#1 ↔ _
  rw [xor_one_eq_one_iff, pay4_one_iff]

/-- THE DIFFERENT-LABEL UPDATE (off the diagonal): the running sum at row r plus the sum, over the rows k of the
    second block with another label, of the tile's entries. -/
theorem pay8_apply (r : Fin 1024) :
    k1_pay8 (F := Ideal) x0 x1 x2 x3 acc (ix1 r)
      = acc (ix1 r) + ∑ k : Fin 1024,
          if x2 (ix1 r) = x3 (ix1 k) then 0 else Ideal.exp (∑ d : Fin 1024, x0 (ix2 r d) * x1 (ix2 k d)) := by
  unfold k1_pay8
  refine (masked_rowsum _ (k1_pay3 x0 x1) acc (fun r k => ¬ x2 (ix1 r) = x3 (ix1 k)) _
    (notmask_one_iff x2 x3) (pay3_apply x0 x1) _ _ r).trans ?_
  refine congrArg (acc (ix1 r) + ·) (Finset.sum_congr rfl fun k _ => ?_)
  exact ite_not _ _ _

/-- THE DIFFERENT-LABEL UPDATE (on the diagonal): the same function of its operands. -/
theorem pay6_apply (r : Fin 1024) :
    k1_pay6 (F := Ideal) x0 x1 x2 x3 acc (ix1 r)
      = acc (ix1 r) + ∑ k : Fin 1024,
          if x2 (ix1 r) = x3 (ix1 k) then 0 else Ideal.exp (∑ d : Fin 1024, x0 (ix2 r d) * x1 (ix2 k d)) := by
  unfold k1_pay6
  refine (masked_rowsum _ (k1_pay3 x0 x1) acc (fun r k => ¬ x2 (ix1 r) = x3 (ix1 k)) _
    (notmask_one_iff x2 x3) (pay3_apply x0 x1) _ _ r).trans ?_
  refine congrArg (acc (ix1 r) + ·) (Finset.sum_congr rfl fun k _ => ?_)
  exact ite_not _ _ _

/-- The diagonal tile's mask at (r, k): 1 exactly when the labels agree and r ≠ k. -/
theorem diagmask_one_iff (r k : Fin 1024) :
    andi (k1_pay4 (F := Ideal) x2 x3)
        (cmpi .ne (iota .tc S1024x1024 32 [0] iota_S1024x1024_d0_w32) (iota .tc S1024x1024 32 [1] iota_S1024x1024_d1_w32))
        (ix2 r k) = 1#1
      ↔ x2 (ix1 r) = x3 (ix1 k) ∧ r ≠ k := by
  show IntOp.andi (k1_pay4 (F := Ideal) x2 x3 (ix2 r k))
    (IntOp.cmpi .ne (iota .tc S1024x1024 32 [0] iota_S1024x1024_d0_w32 (ix2 r k))
      (iota .tc S1024x1024 32 [1] iota_S1024x1024_d1_w32 (ix2 r k))) = 1#1 ↔ _
  rw [and_eq_one_iff, pay4_one_iff, iota_row_apply, iota_lane_apply, cmpi_ne_one_iff]
  exact and_congr_right fun _ => not_congr (ofNat_lane_eq_iff r k)

/-- THE SAME-LABEL UPDATE ON THE DIAGONAL: the running sum at row r plus the sum, over the OTHER rows k of the
    block with r's label, of the tile's entries. -/
theorem pay5_apply (r : Fin 1024) :
    k1_pay5 (F := Ideal) x0 x1 x2 x3 acc (ix1 r)
      = acc (ix1 r) + ∑ k : Fin 1024,
          if x2 (ix1 r) = x3 (ix1 k) ∧ r ≠ k then Ideal.exp (∑ d : Fin 1024, x0 (ix2 r d) * x1 (ix2 k d)) else 0 := by
  unfold k1_pay5
  exact masked_rowsum _ (k1_pay3 x0 x1) acc (fun r k => x2 (ix1 r) = x3 (ix1 k) ∧ r ≠ k) _
    (diagmask_one_iff x2 x3) (pay3_apply x0 x1) _ _ r

end Updates

end Cert.KernelIdeal.Val1

end
-- ==== Proof.Spec2.lean ====
/- The two row sums over an ALREADY normalized matrix: the form in which the second launch, which is handed the
   normalized matrix as an array, computes them. With the normalized matrix of `Spec` put in, they are `Spec`'s sums. -/
import proofs.«127318_j28595892256874_2_alg».proof.Proof.Spec

noncomputable section

namespace Cert.Bridge

open Idealize.ShloMosaic

variable (y : Fin 8192 → Fin 1024 → EReal) (lab : Fin 8192 → BitVec 32)

/-- The similarity of rows `p` and `q` of a matrix `y`: the exponential of their inner product. -/
def simOf (p q : Fin 8192) : EReal := Ideal.exp (∑ k : Fin 1024, y p k * y q k)

/-- Row `p`'s sum of similarities to the other rows of its own label. -/
def rowSameOf (p : Fin 8192) : EReal := ∑ q : Fin 8192, if lab p = lab q ∧ p ≠ q then simOf y p q else 0

/-- Row `p`'s sum of similarities to the rows of another label. -/
def rowDiffOf (p : Fin 8192) : EReal := ∑ q : Fin 8192, if lab p = lab q then 0 else simOf y p q

theorem sim_eq (z : Fin 8192 → Fin 1024 → EReal) (p q : Fin 8192) : sim z p q = simOf (zn z) p q := rfl
theorem rowSame_eq (z : Fin 8192 → Fin 1024 → EReal) (p : Fin 8192) : rowSame z lab p = rowSameOf (zn z) lab p := rfl
theorem rowDiff_eq (z : Fin 8192 → Fin 1024 → EReal) (p : Fin 8192) : rowDiff z lab p = rowDiffOf (zn z) lab p := rfl

end Cert.Bridge

end
-- ==== Proof.LibTileSum.lean ====
/- Regrouping a long sum into consecutive blocks, and a running total of block sums.

   Two facts about finite sums in a commutative additive monoid (no finiteness of the summands is
   used, so both hold for extended reals): a sum over `a * b` consecutive indices is the sum over the
   `a` blocks of the sums over each block's `b` indices; and adding block sums one after another,
   starting from zero, ends at the sum of all the blocks. -/
import Mathlib.Data.EReal.Basic
import Mathlib.Algebra.BigOperators.Fin
import Mathlib.Algebra.BigOperators.Group.Finset.Basic
import Mathlib.Logic.Equiv.Fin.Basic
import Mathlib.Tactic.Linarith
import Mathlib.Tactic.Ring

namespace Cert.Bridge

open scoped BigOperators

/-- Index `k` of block `j` lies below `a * b`. -/
theorem tile_lt {a b : ℕ} (j : Fin a) (k : Fin b) : j.val * b + k.val < a * b := by
  have hj : j.val + 1 ≤ a := j.isLt
  calc j.val * b + k.val < j.val * b + b := Nat.add_lt_add_left k.isLt _
    _ = (j.val + 1) * b := (Nat.succ_mul _ _).symm
    _ ≤ a * b := Nat.mul_le_mul_right _ hj

/-- A sum over `Fin (a * b)` regrouped into `a` blocks of `b` consecutive indices: index `q` is
    `j * b + k` for exactly one block `j` and one offset `k`. -/
theorem sum_tiles {M : Type*} [AddCommMonoid M] (a b : ℕ) (f : Fin (a * b) → M) :
    ∑ q : Fin (a * b), f q = ∑ j : Fin a, ∑ k : Fin b, f ⟨j.val * b + k.val, tile_lt j k⟩ := by
  rw [← Equiv.sum_comp (finProdFinEquiv (m := a) (n := b)) f, Fintype.sum_prod_type]
  refine Finset.sum_congr rfl fun j _ => Finset.sum_congr rfl fun k _ => ?_
  refine congrArg f (Fin.ext ?_)
  show k.val + b * j.val = j.val * b + k.val
  rw [Nat.mul_comm, Nat.add_comm]

/-- The regrouping at 8192 = 8 · 1024: eight blocks of 1024 consecutive indices. -/
theorem sum_tiles_8192 (f : Fin 8192 → EReal) :
    ∑ q : Fin 8192, f q
      = ∑ j : Fin 8, ∑ k : Fin 1024, f ⟨j.val * 1024 + k.val, by have := j.isLt; have := k.isLt; omega⟩ :=
  sum_tiles 8 1024 f

/-- The running total after `n` blocks: start at zero, then add the blocks' sums in order. -/
noncomputable def accUpTo (s : ℕ → EReal) : ℕ → EReal
  | 0 => 0
  | n + 1 => accUpTo s n + s n

@[simp] theorem accUpTo_zero (s : ℕ → EReal) : accUpTo s 0 = 0 := rfl
@[simp] theorem accUpTo_succ (s : ℕ → EReal) (n : ℕ) : accUpTo s (n + 1) = accUpTo s n + s n := rfl

/-- The running total after `n` blocks is the sum of the first `n` block sums. -/
theorem accUpTo_eq (s : ℕ → EReal) (n : ℕ) : accUpTo s n = ∑ j ∈ Finset.range n, s j := by
  induction n with
  | zero => rfl
  | succ n ih => rw [accUpTo_succ, ih, Finset.sum_range_succ]

/-- Eight blocks: the left fold `((((0 + s 0) + s 1) + …) + s 7)` is the sum of the eight block sums. -/
theorem fold_blocks (s : Fin 8 → EReal) :
    accUpTo (fun n => if h : n < 8 then s ⟨n, h⟩ else 0) 8 = ∑ j : Fin 8, s j := by
  rw [accUpTo_eq, Finset.sum_range]
  exact Finset.sum_congr rfl fun j _ => by rw [dif_pos j.isLt]

/-- The same fold written out: adding `s 0`, …, `s 7` to zero in that order gives their sum. -/
theorem fold_blocks_explicit (s : Fin 8 → EReal) :
    0 + s 0 + s 1 + s 2 + s 3 + s 4 + s 5 + s 6 + s 7 = ∑ j : Fin 8, s j := by
  simp only [Fin.sum_univ_eight, zero_add]

end Cert.Bridge
-- ==== Proof.KI.Val1.lean ====
/- The second launch's two output arrays: every row's same-label and different-label sums of similarities.

   The launch walks the 8×8 tiles of the 8192×8192 matrix of exponentials of inner products of rows of the
   normalized matrix, row block by row block and, within a row block, column block by column block. At tile
   (i, j) its body adds, to two running sums per row r of row block i, the sum over the 1024 rows k of block j
   of the similarity of rows 1024·i + r and 1024·j + k where the labels agree and the rows differ, and where the
   labels differ; the sums restart from zero at j = 0 and are written back to rows 1024·i … 1024·i + 1023 of
   the outputs after j = 7. Rows of different blocks are different rows, and within a block "another row" is
   "another offset", so each tile adds exactly its 1024 terms of the specification's sums; eight tiles added
   in order from zero are the whole sum over 8192 rows, regrouped into blocks of 1024. -/
import proofs.«127318_j28595892256874_2_alg».proof.Proof.KI.R1
import proofs.«127318_j28595892256874_2_alg».proof.Proof.KI.Pay1
import proofs.«127318_j28595892256874_2_alg».proof.Proof.Spec2
import proofs.«127318_j28595892256874_2_alg».proof.Proof.LibTileSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Val1

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen Cert.Bridge

section Pieces
variable {F : FTy → Type} [FloatOps F]

theorem origin1 : (![0] : Fin 1 → Nat) = fun _ => 0 := funext fun a => by fin_cases a; rfl

theorem origin2 : (![0, 0] : Fin 2 → Nat) = fun _ => 0 := funext fun a => by fin_cases a <;> rfl

/-! ## What each case of the body leaves in the two running sums, as the body's arithmetic of what it was handed -/

/-- First tile of a row block, on the diagonal: the sums restart from zero and take the diagonal updates. -/
theorem out1_A_4_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 x1 : Vec F S1024x1024 .bf16) (x2 x3 : Vec F S1024 .i32) :
    Fr.out1_A_4 c i arg2 harg2 arg3 harg3 arg4 harg4 arg5 harg5 arg6 harg6 arg7 harg7 hc1 hc2 hc3 x0 x1 x2 x3 = k1_pay5 x0 x1 x2 x3 (k1_pay1 (F := F)) := by
  unfold Fr.out1_A_4
  rw [View.read_writes_eq_canon _ _ _ (Fr.cover1_A_4 c i arg2 harg2 arg3 harg3 arg4 harg4 arg5 harg5 arg6 harg6 arg7 harg7 hc1 hc2 hc3 x0 x1 x2 x3)]
  unfold Fr.kernelRun1_A
  dsimp only
  try sl_unfold_words
  rw [View.canon_cons_unit_zero origin1, View.readCov_unit_zero (S := S1024) _ origin1]
  simp only [View.readAt_eq_ld, harg2.read_unread, harg3.read_unread, harg4.read_unread, harg5.read_unread,
    View.ld_unit_zero (S := S1024x1024) origin2, View.ld_unit_zero (S := S1024) origin1]

theorem out1_A_5_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : k1_cond2 i = 1#1) (hc3 : ¬k1_cond3 i = 1#1)
    (x0 x1 : Vec F S1024x1024 .bf16) (x2 x3 : Vec F S1024 .i32) :
    Fr.out1_A_5 c i arg2 harg2 arg3 harg3 arg4 harg4 arg5 harg5 arg6 harg6 arg7 harg7 hc1 hc2 hc3 x0 x1 x2 x3 = k1_pay6 x0 x1 x2 x3 (k1_pay2 (F := F)) := by
  unfold Fr.out1_A_5
  rw [View.read_writes_eq_canon _ _ _ (Fr.cover1_A_5 c i arg2 harg2 arg3 harg3 arg4 harg4 arg5 harg5 arg6 harg6 arg7 harg7 hc1 hc2 hc3 x0 x1 x2 x3)]
  unfold Fr.kernelRun1_A
  dsimp only
  try sl_unfold_words
  rw [View.canon_cons_unit_zero origin1, View.readCov_unit_zero (S := S1024) _ origin1]
  simp only [View.readAt_eq_ld, harg2.read_unread, harg3.read_unread, harg4.read_unread, harg5.read_unread,
    View.ld_unit_zero (S := S1024x1024) origin2, View.ld_unit_zero (S := S1024) origin1]

/-- First tile of a row block, off the diagonal: the sums restart from zero and take the off-diagonal updates. -/
theorem out1_B_4_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 x1 : Vec F S1024x1024 .bf16) (x2 x3 : Vec F S1024 .i32) :
    Fr.out1_B_4 c i arg2 harg2 arg3 harg3 arg4 harg4 arg5 harg5 arg6 harg6 arg7 harg7 hc1 hc2 hc3 x0 x1 x2 x3 = k1_pay7 x0 x1 x2 x3 (k1_pay1 (F := F)) := by
  unfold Fr.out1_B_4
  rw [View.read_writes_eq_canon _ _ _ (Fr.cover1_B_4 c i arg2 harg2 arg3 harg3 arg4 harg4 arg5 harg5 arg6 harg6 arg7 harg7 hc1 hc2 hc3 x0 x1 x2 x3)]
  unfold Fr.kernelRun1_B
  dsimp only
  try sl_unfold_words
  rw [View.canon_cons_unit_zero origin1, View.readCov_unit_zero (S := S1024) _ origin1]
  simp only [View.readAt_eq_ld, harg2.read_unread, harg3.read_unread, harg4.read_unread, harg5.read_unread,
    View.ld_unit_zero (S := S1024x1024) origin2, View.ld_unit_zero (S := S1024) origin1]

theorem out1_B_5_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : k1_cond1 i = 1#1) (hc2 : ¬k1_cond2 i = 1#1) (hc3 : k1_cond3 i = 1#1)
    (x0 x1 : Vec F S1024x1024 .bf16) (x2 x3 : Vec F S1024 .i32) :
    Fr.out1_B_5 c i arg2 harg2 arg3 harg3 arg4 harg4 arg5 harg5 arg6 harg6 arg7 harg7 hc1 hc2 hc3 x0 x1 x2 x3 = k1_pay8 x0 x1 x2 x3 (k1_pay2 (F := F)) := by
  unfold Fr.out1_B_5
  rw [View.read_writes_eq_canon _ _ _ (Fr.cover1_B_5 c i arg2 harg2 arg3 harg3 arg4 harg4 arg5 harg5 arg6 harg6 arg7 harg7 hc1 hc2 hc3 x0 x1 x2 x3)]
  unfold Fr.kernelRun1_B
  dsimp only
  try sl_unfold_words
  rw [View.canon_cons_unit_zero origin1, View.readCov_unit_zero (S := S1024) _ origin1]
  simp only [View.readAt_eq_ld, harg2.read_unread, harg3.read_unread, harg4.read_unread, harg5.read_unread,
    View.ld_unit_zero (S := S1024x1024) origin2, View.ld_unit_zero (S := S1024) origin1]

/-- A later tile on the diagonal: the diagonal updates of the sums the tile before left. -/
theorem out1_C_4_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 x1 : Vec F S1024x1024 .bf16) (x2 x3 : Vec F S1024 .i32) (xo4 xo5 : Vec F S1024 .f32) :
    Fr.out1_C_4 c i arg2 harg2 arg3 harg3 arg4 harg4 arg5 harg5 arg6 harg6 arg7 harg7 hc1 hc2 hc3 x0 x1 x2 x3 xo4 xo5 = k1_pay5 x0 x1 x2 x3 xo4 := by
  unfold Fr.out1_C_4
  rw [View.read_writes_eq_canon _ _ _ (Fr.cover1_C_4 c i arg2 harg2 arg3 harg3 arg4 harg4 arg5 harg5 arg6 harg6 arg7 harg7 hc1 hc2 hc3 x0 x1 x2 x3 xo4 xo5)]
  unfold Fr.kernelRun1_C
  dsimp only
  try sl_unfold_words
  rw [View.canon_unit_zero origin1]
  simp only [View.readAt_eq_ld, harg2.read_unread, harg3.read_unread, harg4.read_unread, harg5.read_unread, harg6.read_unread, harg7.read_unread,
    View.ld_unit_zero (S := S1024x1024) origin2, View.ld_unit_zero (S := S1024) origin1]

theorem out1_C_5_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : k1_cond2 i = 1#1) (hc3 : ¬k1_cond3 i = 1#1)
    (x0 x1 : Vec F S1024x1024 .bf16) (x2 x3 : Vec F S1024 .i32) (xo4 xo5 : Vec F S1024 .f32) :
    Fr.out1_C_5 c i arg2 harg2 arg3 harg3 arg4 harg4 arg5 harg5 arg6 harg6 arg7 harg7 hc1 hc2 hc3 x0 x1 x2 x3 xo4 xo5 = k1_pay6 x0 x1 x2 x3 xo5 := by
  unfold Fr.out1_C_5
  rw [View.read_writes_eq_canon _ _ _ (Fr.cover1_C_5 c i arg2 harg2 arg3 harg3 arg4 harg4 arg5 harg5 arg6 harg6 arg7 harg7 hc1 hc2 hc3 x0 x1 x2 x3 xo4 xo5)]
  unfold Fr.kernelRun1_C
  dsimp only
  try sl_unfold_words
  rw [View.canon_unit_zero origin1]
  simp only [View.readAt_eq_ld, harg2.read_unread, harg3.read_unread, harg4.read_unread, harg5.read_unread, harg6.read_unread, harg7.read_unread,
    View.ld_unit_zero (S := S1024x1024) origin2, View.ld_unit_zero (S := S1024) origin1]

/-- A later tile off the diagonal: the off-diagonal updates of the sums the tile before left. -/
theorem out1_D_4_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 x1 : Vec F S1024x1024 .bf16) (x2 x3 : Vec F S1024 .i32) (xo4 xo5 : Vec F S1024 .f32) :
    Fr.out1_D_4 c i arg2 harg2 arg3 harg3 arg4 harg4 arg5 harg5 arg6 harg6 arg7 harg7 hc1 hc2 hc3 x0 x1 x2 x3 xo4 xo5 = k1_pay7 x0 x1 x2 x3 xo4 := by
  unfold Fr.out1_D_4
  rw [View.read_writes_eq_canon _ _ _ (Fr.cover1_D_4 c i arg2 harg2 arg3 harg3 arg4 harg4 arg5 harg5 arg6 harg6 arg7 harg7 hc1 hc2 hc3 x0 x1 x2 x3 xo4 xo5)]
  unfold Fr.kernelRun1_D
  dsimp only
  try sl_unfold_words
  rw [View.canon_unit_zero origin1]
  simp only [View.readAt_eq_ld, harg2.read_unread, harg3.read_unread, harg4.read_unread, harg5.read_unread, harg6.read_unread, harg7.read_unread,
    View.ld_unit_zero (S := S1024x1024) origin2, View.ld_unit_zero (S := S1024) origin1]

theorem out1_D_5_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024 .i32) (harg4 : arg4.IsWhole) (arg5 : Memref sig .tc .vmem S1024 .i32) (harg5 : arg5.IsWhole) (arg6 : Memref sig .tc .vmem S1024 .f32) (harg6 : arg6.IsWhole) (arg7 : Memref sig .tc .vmem S1024 .f32) (harg7 : arg7.IsWhole) (hc1 : ¬k1_cond1 i = 1#1) (hc2 : ¬k1_cond2 i = 1#1) (hc3 : k1_cond3 i = 1#1)
    (x0 x1 : Vec F S1024x1024 .bf16) (x2 x3 : Vec F S1024 .i32) (xo4 xo5 : Vec F S1024 .f32) :
    Fr.out1_D_5 c i arg2 harg2 arg3 harg3 arg4 harg4 arg5 harg5 arg6 harg6 arg7 harg7 hc1 hc2 hc3 x0 x1 x2 x3 xo4 xo5 = k1_pay8 x0 x1 x2 x3 xo5 := by
  unfold Fr.out1_D_5
  rw [View.read_writes_eq_canon _ _ _ (Fr.cover1_D_5 c i arg2 harg2 arg3 harg3 arg4 harg4 arg5 harg5 arg6 harg6 arg7 harg7 hc1 hc2 hc3 x0 x1 x2 x3 xo4 xo5)]
  unfold Fr.kernelRun1_D
  dsimp only
  try sl_unfold_words
  rw [View.canon_unit_zero origin1]
  simp only [View.readAt_eq_ld, harg2.read_unread, harg3.read_unread, harg4.read_unread, harg5.read_unread, harg6.read_unread, harg7.read_unread,
    View.ld_unit_zero (S := S1024x1024) origin2, View.ld_unit_zero (S := S1024) origin1]

end Pieces

/-! ## The grid, the blocks and the rows they hold -/

/-- Row r of row block i of an array of 8192 rows. -/
abbrev blk8 (i : Fin 8) (r : Fin 1024) : Fin 8192 := ⟨i.val * 1024 + r.val, by have := i.isLt; have := r.isLt; omega⟩

theorem blk8_ne_of_ne {i j : Fin 8} (h : i ≠ j) (r k : Fin 1024) : blk8 i r ≠ blk8 j k := by
  intro e
  have e' : i.val * 1024 + r.val = j.val * 1024 + k.val := congrArg Fin.val e
  have := r.isLt; have := k.isLt
  exact h (Fin.ext (by omega))

theorem blk8_ne_iff (i : Fin 8) (r k : Fin 1024) : blk8 i r ≠ blk8 i k ↔ r ≠ k := by
  constructor
  · intro h e; exact h (by rw [e])
  · intro h e
    have e' : i.val * 1024 + r.val = i.val * 1024 + k.val := congrArg Fin.val e
    exact h (Fin.ext (by omega))

theorem point_lt (t : Fin cfg1.N) : t.val < 64 := Nat.lt_of_lt_of_eq t.isLt (show cfg1.N = 64 from N_1)

/-- The row block and the column block of grid point t. -/
abbrev ti (t : Fin cfg1.N) : Fin 8 := ⟨t.val / 8, by have := point_lt t; omega⟩
abbrev tj (t : Fin cfg1.N) : Fin 8 := ⟨t.val % 8, by omega⟩

/-- The windows' block indices at point t: the two matrix windows and the two label windows stand at the row block
    and at the column block; both outputs stand at the row block. -/
theorem block_index1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 1) = t.val / 8 ∧ win1_3.index t (0 : Fin 1) = t.val % 8
    ∧ win1_4.index t (0 : Fin 1) = t.val / 8 ∧ win1_5.index t (0 : Fin 1) = t.val / 8 :=
  (by decide +kernel : ∀ t : Fin grid1.N, _)

section Blocks
variable (V : (c : Dev nD) → (b : Ref sig .tc) → Buf (Elt Ideal) ((c : Thread nD τ).loc b))

/-- The first matrix window's block at point t, at (r, d): the matrix at row r of the row block. -/
theorem iblk1_0_apply (c : Dev nD) (t : Fin cfg1.N) (r d : Fin 1024) :
    (Fr.iblk1 (F := Ideal) V c 0 t : Vec Ideal S1024x1024 .bf16) (ix2 r d) = V c main_v0 (ix2 (blk8 (ti t) r) d) := by
  obtain ⟨e0, e1, -⟩ := block_index1 t
  unfold Fr.iblk1
  rw [View.read_apply]
  show V c main_v0 (((cfg1.win 0).blk t).view.emb (ix2 r d)) = _
  refine congrArg (V c main_v0) (funext fun a => Fin.ext ?_)
  match a with
  | ⟨0, _⟩ => show win1_0.index t (0 : Fin 2) * 1024 + 1 * r.val = t.val / 8 * 1024 + r.val; rw [e0]; omega
  | ⟨1, _⟩ => show win1_0.index t (1 : Fin 2) * 1024 + 1 * d.val = d.val; rw [e1]; omega

/-- The second matrix window's block at point t, at (k, d): the matrix at row k of the column block. -/
theorem iblk1_1_apply (c : Dev nD) (t : Fin cfg1.N) (k d : Fin 1024) :
    (Fr.iblk1 (F := Ideal) V c 1 t : Vec Ideal S1024x1024 .bf16) (ix2 k d) = V c main_v0 (ix2 (blk8 (tj t) k) d) := by
  obtain ⟨-, -, e2, e3, -⟩ := block_index1 t
  unfold Fr.iblk1
  rw [View.read_apply]
  show V c main_v0 (((cfg1.win 1).blk t).view.emb (ix2 k d)) = _
  refine congrArg (V c main_v0) (funext fun a => Fin.ext ?_)
  match a with
  | ⟨0, _⟩ => show win1_1.index t (0 : Fin 2) * 1024 + 1 * k.val = t.val % 8 * 1024 + k.val; rw [e2]; omega
  | ⟨1, _⟩ => show win1_1.index t (1 : Fin 2) * 1024 + 1 * d.val = d.val; rw [e3]; omega

/-- The first label window's block at point t, at r: the label of row r of the row block. -/
theorem iblk1_2_apply (c : Dev nD) (t : Fin cfg1.N) (r : Fin 1024) :
    (Fr.iblk1 (F := Ideal) V c 2 t : Vec Ideal S1024 .i32) (ix1 r) = V c main_arg3 (ix1 (blk8 (ti t) r)) := by
  obtain ⟨-, -, -, -, e4, -⟩ := block_index1 t
  unfold Fr.iblk1
  rw [View.read_apply]
  show V c main_arg3 (((cfg1.win 2).blk t).view.emb (ix1 r)) = _
  refine congrArg (V c main_arg3) (funext fun a => Fin.ext ?_)
  match a with
  | ⟨0, _⟩ => show win1_2.index t (0 : Fin 1) * 1024 + 1 * r.val = t.val / 8 * 1024 + r.val; rw [e4]; omega

/-- The second label window's block at point t, at k: the label of row k of the column block. -/
theorem iblk1_3_apply (c : Dev nD) (t : Fin cfg1.N) (k : Fin 1024) :
    (Fr.iblk1 (F := Ideal) V c 3 t : Vec Ideal S1024 .i32) (ix1 k) = V c main_arg3 (ix1 (blk8 (tj t) k)) := by
  obtain ⟨-, -, -, -, -, e5, -⟩ := block_index1 t
  unfold Fr.iblk1
  rw [View.read_apply]
  show V c main_arg3 (((cfg1.win 3).blk t).view.emb (ix1 k)) = _
  refine congrArg (V c main_arg3) (funext fun a => Fin.ext ?_)
  match a with
  | ⟨0, _⟩ => show win1_3.index t (0 : Fin 1) * 1024 + 1 * k.val = t.val % 8 * 1024 + k.val; rw [e5]; omega

end Blocks

/-! ## The tiles of the two row sums -/

section Tiles
variable (y : Fin 8192 → Fin 1024 → EReal) (lab : Fin 8192 → BitVec 32)

/-- Row q's contribution to row p's same-label sum, and to its different-label sum. -/
def sameTerm (p q : Fin 8192) : EReal := if lab p = lab q ∧ p ≠ q then simOf y p q else 0
def diffTerm (p q : Fin 8192) : EReal := if lab p = lab q then 0 else simOf y p q

/-- Tile (i, j)'s contribution to the two sums of row r of row block i: the terms of the 1024 rows of block j. -/
def tileSame (i j : Fin 8) (r : Fin 1024) : EReal := ∑ k : Fin 1024, sameTerm y lab (blk8 i r) (blk8 j k)
def tileDiff (i j : Fin 8) (r : Fin 1024) : EReal := ∑ k : Fin 1024, diffTerm y lab (blk8 i r) (blk8 j k)

/-- The eight tiles of a row block add up, row by row, to the whole row sums. -/
theorem sum_tileSame (i : Fin 8) (r : Fin 1024) : ∑ j : Fin 8, tileSame y lab i j r = rowSameOf y lab (blk8 i r) := by
  show _ = ∑ q : Fin 8192, sameTerm y lab (blk8 i r) q
  exact (sum_tiles_8192 _).symm
theorem sum_tileDiff (i : Fin 8) (r : Fin 1024) : ∑ j : Fin 8, tileDiff y lab i j r = rowDiffOf y lab (blk8 i r) := by
  show _ = ∑ q : Fin 8192, diffTerm y lab (blk8 i r) q
  exact (sum_tiles_8192 _).symm

/-- The tiles of row block i at row r, by column block, as a sequence to be added in order. -/
def sameBlocks (i : Fin 8) (r : Fin 1024) : ℕ → EReal := fun n => if h : n < 8 then tileSame y lab i ⟨n, h⟩ r else 0
def diffBlocks (i : Fin 8) (r : Fin 1024) : ℕ → EReal := fun n => if h : n < 8 then tileDiff y lab i ⟨n, h⟩ r else 0

theorem sameBlocks_at (i j : Fin 8) (r : Fin 1024) : sameBlocks y lab i r j.val = tileSame y lab i j r := dif_pos j.isLt
theorem diffBlocks_at (i j : Fin 8) (r : Fin 1024) : diffBlocks y lab i r j.val = tileDiff y lab i j r := dif_pos j.isLt

/-- All eight tiles added in order are the row sums. -/
theorem acc_sameBlocks (i : Fin 8) (r : Fin 1024) : accUpTo (sameBlocks y lab i r) 8 = rowSameOf y lab (blk8 i r) :=
  (fold_blocks (fun j => tileSame y lab i j r)).trans (sum_tileSame y lab i r)
theorem acc_diffBlocks (i : Fin 8) (r : Fin 1024) : accUpTo (diffBlocks y lab i r) 8 = rowDiffOf y lab (blk8 i r) :=
  (fold_blocks (fun j => tileDiff y lab i j r)).trans (sum_tileDiff y lab i r)

section Updates
variable (x0 x1 : Vec Ideal S1024x1024 .bf16) (x2 x3 : Vec Ideal S1024 .i32) (acc : Vec Ideal S1024 .f32) (i j : Fin 8)
variable (h0 : ∀ r d, x0 (ix2 r d) = y (blk8 i r) d) (h1 : ∀ k d, x1 (ix2 k d) = y (blk8 j k) d)
variable (h2 : ∀ r, x2 (ix1 r) = lab (blk8 i r)) (h3 : ∀ k, x3 (ix1 k) = lab (blk8 j k))
include h0 h1 h2 h3

/-- Off the diagonal the same-label update adds tile (i, j): rows of different blocks are different rows. -/
theorem upd_same_off (hij : i ≠ j) (r : Fin 1024) :
    k1_pay7 (F := Ideal) x0 x1 x2 x3 acc (ix1 r) = acc (ix1 r) + tileSame y lab i j r := by
  rw [pay7_apply]
  refine congrArg (acc (ix1 r) + ·) (Finset.sum_congr rfl fun k _ => ?_)
  rw [h2, h3]
  simp only [h0, h1]
  exact (if_congr (and_iff_left (blk8_ne_of_ne hij r k)) rfl rfl).symm

/-- The different-label update adds tile (i, j) of the different-label sum. -/
theorem upd_diff_off (r : Fin 1024) :
    k1_pay8 (F := Ideal) x0 x1 x2 x3 acc (ix1 r) = acc (ix1 r) + tileDiff y lab i j r := by
  rw [pay8_apply]
  refine congrArg (acc (ix1 r) + ·) (Finset.sum_congr rfl fun k _ => ?_)
  rw [h2, h3]
  simp only [h0, h1]
  rfl

theorem upd_diff_diag (r : Fin 1024) :
    k1_pay6 (F := Ideal) x0 x1 x2 x3 acc (ix1 r) = acc (ix1 r) + tileDiff y lab i j r := by
  rw [pay6_apply]
  refine congrArg (acc (ix1 r) + ·) (Finset.sum_congr rfl fun k _ => ?_)
  rw [h2, h3]
  simp only [h0, h1]
  rfl

/-- On the diagonal the same-label update adds tile (i, i): within one block, "another row" is "another offset". -/
theorem upd_same_diag (hij : i = j) (r : Fin 1024) :
    k1_pay5 (F := Ideal) x0 x1 x2 x3 acc (ix1 r) = acc (ix1 r) + tileSame y lab i j r := by
  subst hij
  rw [pay5_apply]
  refine congrArg (acc (ix1 r) + ·) (Finset.sum_congr rfl fun k _ => ?_)
  rw [h2, h3]
  simp only [h0, h1]
  exact (if_congr (and_congr_right fun _ => blk8_ne_iff i r k) rfl rfl).symm

end Updates
end Tiles

/-! ## The running sums after each grid point -/

section Points
variable (V : (c : Dev nD) → (b : Ref sig .tc) → Buf (Elt Ideal) ((c : Thread nD τ).loc b))

theorem outs_A (c : Dev nD) (t : Fin cfg1.N) (h1 : t.val % 8 = 0) (h2 : t.val / 8 = t.val % 8) :
    Fr.outsAt1 (F := Ideal) V c t.val t.isLt
      = (k1_pay5 (F := Ideal) (Fr.iblk1 (F := Ideal) V c 0 t) (Fr.iblk1 (F := Ideal) V c 1 t) (Fr.iblk1 (F := Ideal) V c 2 t) (Fr.iblk1 (F := Ideal) V c 3 t) (k1_pay1 (F := Ideal)),
         k1_pay6 (F := Ideal) (Fr.iblk1 (F := Ideal) V c 0 t) (Fr.iblk1 (F := Ideal) V c 1 t) (Fr.iblk1 (F := Ideal) V c 2 t) (Fr.iblk1 (F := Ideal) V c 3 t) (k1_pay2 (F := Ideal))) :=
  (Fr.outsAt1_A (F := Ideal) V c t h1 h2).trans (congrArg₂ Prod.mk
    (out1_A_4_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) ((Fr.hc1 t).mpr h1) ((Fr.hc2 t).mpr h2) (fun h => (Fr.hc3 t).mp h h2) (Fr.iblk1 (F := Ideal) V c 0 t) (Fr.iblk1 (F := Ideal) V c 1 t) (Fr.iblk1 (F := Ideal) V c 2 t) (Fr.iblk1 (F := Ideal) V c 3 t))
    (out1_A_5_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) ((Fr.hc1 t).mpr h1) ((Fr.hc2 t).mpr h2) (fun h => (Fr.hc3 t).mp h h2) (Fr.iblk1 (F := Ideal) V c 0 t) (Fr.iblk1 (F := Ideal) V c 1 t) (Fr.iblk1 (F := Ideal) V c 2 t) (Fr.iblk1 (F := Ideal) V c 3 t)))

theorem outs_B (c : Dev nD) (t : Fin cfg1.N) (h1 : t.val % 8 = 0) (h2 : ¬t.val / 8 = t.val % 8) :
    Fr.outsAt1 (F := Ideal) V c t.val t.isLt
      = (k1_pay7 (F := Ideal) (Fr.iblk1 (F := Ideal) V c 0 t) (Fr.iblk1 (F := Ideal) V c 1 t) (Fr.iblk1 (F := Ideal) V c 2 t) (Fr.iblk1 (F := Ideal) V c 3 t) (k1_pay1 (F := Ideal)),
         k1_pay8 (F := Ideal) (Fr.iblk1 (F := Ideal) V c 0 t) (Fr.iblk1 (F := Ideal) V c 1 t) (Fr.iblk1 (F := Ideal) V c 2 t) (Fr.iblk1 (F := Ideal) V c 3 t) (k1_pay2 (F := Ideal))) :=
  (Fr.outsAt1_B (F := Ideal) V c t h1 h2).trans (congrArg₂ Prod.mk
    (out1_B_4_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) ((Fr.hc1 t).mpr h1) (fun h => h2 ((Fr.hc2 t).mp h)) ((Fr.hc3 t).mpr h2) (Fr.iblk1 (F := Ideal) V c 0 t) (Fr.iblk1 (F := Ideal) V c 1 t) (Fr.iblk1 (F := Ideal) V c 2 t) (Fr.iblk1 (F := Ideal) V c 3 t))
    (out1_B_5_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) ((Fr.hc1 t).mpr h1) (fun h => h2 ((Fr.hc2 t).mp h)) ((Fr.hc3 t).mpr h2) (Fr.iblk1 (F := Ideal) V c 0 t) (Fr.iblk1 (F := Ideal) V c 1 t) (Fr.iblk1 (F := Ideal) V c 2 t) (Fr.iblk1 (F := Ideal) V c 3 t)))

theorem outs_C (c : Dev nD) (t : Fin cfg1.N) (h1 : ¬t.val % 8 = 0) (h2 : t.val / 8 = t.val % 8) :
    Fr.outsAt1 (F := Ideal) V c t.val t.isLt
      = (k1_pay5 (F := Ideal) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1,
         k1_pay6 (F := Ideal) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).2) :=
  (Fr.outsAt1_C (F := Ideal) V c t h1 h2).trans (congrArg₂ Prod.mk
    (out1_C_4_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) (fun h => h1 ((Fr.hc1 t).mp h)) ((Fr.hc2 t).mpr h2) (fun h => (Fr.hc3 t).mp h h2) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1 (Fr.outsAt1 (F := Ideal) V c (t.val - 1) (Nat.lt_of_le_of_lt (Nat.sub_le _ _) t.isLt)).2)
    (out1_C_5_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) (fun h => h1 ((Fr.hc1 t).mp h)) ((Fr.hc2 t).mpr h2) (fun h => (Fr.hc3 t).mp h h2) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1 (Fr.outsAt1 (F := Ideal) V c (t.val - 1) (Nat.lt_of_le_of_lt (Nat.sub_le _ _) t.isLt)).2))

theorem outs_D (c : Dev nD) (t : Fin cfg1.N) (h1 : ¬t.val % 8 = 0) (h2 : ¬t.val / 8 = t.val % 8) :
    Fr.outsAt1 (F := Ideal) V c t.val t.isLt
      = (k1_pay7 (F := Ideal) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1,
         k1_pay8 (F := Ideal) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).2) :=
  (Fr.outsAt1_D (F := Ideal) V c t h1 h2).trans (congrArg₂ Prod.mk
    (out1_D_4_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) (fun h => h1 ((Fr.hc1 t).mp h)) (fun h => h2 ((Fr.hc2 t).mp h)) ((Fr.hc3 t).mpr h2) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1 (Fr.outsAt1 (F := Ideal) V c (t.val - 1) (Nat.lt_of_le_of_lt (Nat.sub_le _ _) t.isLt)).2)
    (out1_D_5_eq (F := Ideal) c (grid1.coords t) (Fr.ms1_0 t) (Fr.hs1_0 t) (Fr.ms1_1 t) (Fr.hs1_1 t) (Fr.ms1_2 t) (Fr.hs1_2 t) (Fr.ms1_3 t) (Fr.hs1_3 t) (Fr.ms1_4 t) (Fr.hs1_4 t) (Fr.ms1_5 t) (Fr.hs1_5 t) (fun h => h1 ((Fr.hc1 t).mp h)) (fun h => h2 ((Fr.hc2 t).mp h)) ((Fr.hc3 t).mpr h2) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1 (Fr.outsAt1 (F := Ideal) V c (t.val - 1) (Nat.lt_of_le_of_lt (Nat.sub_le _ _) t.isLt)).2))

end Points

/-! ## The invariant of the accumulation -/

section Invariant
variable (V : (c : Dev nD) → (b : Ref sig .tc) → Buf (Elt Ideal) ((c : Thread nD τ).loc b))

/-- The normalized matrix and the labels as the launch finds them, by coordinates. -/
abbrev yOf (c : Dev nD) : Fin 8192 → Fin 1024 → EReal := fun p k => V c main_v0 (ix2 p k)
abbrev labOf (c : Dev nD) : Fin 8192 → BitVec 32 := fun p => V c main_arg3 (ix1 p)

/-- ONE POINT: the running sums after point t are tile (t / 8, t % 8)'s contributions added to zero at the first tile
    of a row block, and to what the point before left otherwise. -/
theorem step (c : Dev nD) (t : Fin cfg1.N) (r : Fin 1024) :
    (Fr.outsAt1 (F := Ideal) V c t.val t.isLt).1 (ix1 r)
        = (if t.val % 8 = 0 then 0 else (Fr.outsAt1 (F := Ideal) V c (t.val - 1) (Nat.lt_of_le_of_lt (Nat.sub_le _ _) t.isLt)).1 (ix1 r)) + tileSame (yOf V c) (labOf V c) (ti t) (tj t) r
    ∧ (Fr.outsAt1 (F := Ideal) V c t.val t.isLt).2 (ix1 r)
        = (if t.val % 8 = 0 then 0 else (Fr.outsAt1 (F := Ideal) V c (t.val - 1) (Nat.lt_of_le_of_lt (Nat.sub_le _ _) t.isLt)).2 (ix1 r)) + tileDiff (yOf V c) (labOf V c) (ti t) (tj t) r := by
  by_cases h1 : t.val % 8 = 0 <;> by_cases h2 : t.val / 8 = t.val % 8
  · rw [outs_A V c t h1 h2, if_pos h1, if_pos h1]
    exact ⟨(upd_same_diag (yOf V c) (labOf V c) (Fr.iblk1 (F := Ideal) V c 0 t) (Fr.iblk1 (F := Ideal) V c 1 t) (Fr.iblk1 (F := Ideal) V c 2 t) (Fr.iblk1 (F := Ideal) V c 3 t) (k1_pay1 (F := Ideal)) (ti t) (tj t) (iblk1_0_apply V c t) (iblk1_1_apply V c t) (iblk1_2_apply V c t) (iblk1_3_apply V c t) (Fin.ext h2) r).trans (by rw [pay1_apply]),
      (upd_diff_diag (yOf V c) (labOf V c) (Fr.iblk1 (F := Ideal) V c 0 t) (Fr.iblk1 (F := Ideal) V c 1 t) (Fr.iblk1 (F := Ideal) V c 2 t) (Fr.iblk1 (F := Ideal) V c 3 t) (k1_pay2 (F := Ideal)) (ti t) (tj t) (iblk1_0_apply V c t) (iblk1_1_apply V c t) (iblk1_2_apply V c t) (iblk1_3_apply V c t) r).trans (by rw [pay2_apply])⟩
  · rw [outs_B V c t h1 h2, if_pos h1, if_pos h1]
    exact ⟨(upd_same_off (yOf V c) (labOf V c) (Fr.iblk1 (F := Ideal) V c 0 t) (Fr.iblk1 (F := Ideal) V c 1 t) (Fr.iblk1 (F := Ideal) V c 2 t) (Fr.iblk1 (F := Ideal) V c 3 t) (k1_pay1 (F := Ideal)) (ti t) (tj t) (iblk1_0_apply V c t) (iblk1_1_apply V c t) (iblk1_2_apply V c t) (iblk1_3_apply V c t) (fun e => h2 (congrArg Fin.val e)) r).trans (by rw [pay1_apply]),
      (upd_diff_off (yOf V c) (labOf V c) (Fr.iblk1 (F := Ideal) V c 0 t) (Fr.iblk1 (F := Ideal) V c 1 t) (Fr.iblk1 (F := Ideal) V c 2 t) (Fr.iblk1 (F := Ideal) V c 3 t) (k1_pay2 (F := Ideal)) (ti t) (tj t) (iblk1_0_apply V c t) (iblk1_1_apply V c t) (iblk1_2_apply V c t) (iblk1_3_apply V c t) r).trans (by rw [pay2_apply])⟩
  · rw [outs_C V c t h1 h2, if_neg h1, if_neg h1]
    exact ⟨upd_same_diag (yOf V c) (labOf V c) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1 (ti t) (tj t) (iblk1_0_apply V c t) (iblk1_1_apply V c t) (iblk1_2_apply V c t) (iblk1_3_apply V c t) (Fin.ext h2) r,
      upd_diff_diag (yOf V c) (labOf V c) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).2 (ti t) (tj t) (iblk1_0_apply V c t) (iblk1_1_apply V c t) (iblk1_2_apply V c t) (iblk1_3_apply V c t) r⟩
  · rw [outs_D V c t h1 h2, if_neg h1, if_neg h1]
    exact ⟨upd_same_off (yOf V c) (labOf V c) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).1 (ti t) (tj t) (iblk1_0_apply V c t) (iblk1_1_apply V c t) (iblk1_2_apply V c t) (iblk1_3_apply V c t) (fun e => h2 (congrArg Fin.val e)) r,
      upd_diff_off (yOf V c) (labOf V c) (Fr.iblk1 (F := Ideal) V c 0 t) (Fr.iblk1 (F := Ideal) V c 1 t) (Fr.iblk1 (F := Ideal) V c 2 t) (Fr.iblk1 (F := Ideal) V c 3 t) (Fr.outsAt1 (F := Ideal) V c (t.val - 1) (Nat.lt_of_le_of_lt (Nat.sub_le _ _) t.isLt)).2 (ti t) (tj t) (iblk1_0_apply V c t) (iblk1_1_apply V c t) (iblk1_2_apply V c t) (iblk1_3_apply V c t) r⟩

/-- THE INVARIANT: after point n the running sums of row r hold the first n % 8 + 1 tiles of row block n / 8, added
    in order from zero. -/
theorem acc_inv (c : Dev nD) (r : Fin 1024) : ∀ (n : ℕ) (hn : n < cfg1.N),
    (Fr.outsAt1 (F := Ideal) V c n hn).1 (ix1 r) = accUpTo (sameBlocks (yOf V c) (labOf V c) (ti ⟨n, hn⟩) r) (n % 8 + 1)
    ∧ (Fr.outsAt1 (F := Ideal) V c n hn).2 (ix1 r) = accUpTo (diffBlocks (yOf V c) (labOf V c) (ti ⟨n, hn⟩) r) (n % 8 + 1) := by
  intro n
  induction n with
  | zero =>
    intro hn
    obtain ⟨s1, s2⟩ := step V c ⟨0, hn⟩ r
    rw [if_pos (Nat.zero_mod 8)] at s1 s2
    refine ⟨s1.trans ?_, s2.trans ?_⟩
    · rw [← sameBlocks_at (yOf V c) (labOf V c) (ti ⟨0, hn⟩) (tj ⟨0, hn⟩) r]; rfl
    · rw [← diffBlocks_at (yOf V c) (labOf V c) (ti ⟨0, hn⟩) (tj ⟨0, hn⟩) r]; rfl
  | succ m ih =>
    intro hn
    obtain ⟨s1, s2⟩ := step V c ⟨m + 1, hn⟩ r
    obtain ⟨p1, p2⟩ := ih (Nat.lt_of_succ_lt hn)
    rw [← sameBlocks_at (yOf V c) (labOf V c) (ti ⟨m + 1, hn⟩) (tj ⟨m + 1, hn⟩) r] at s1
    rw [← diffBlocks_at (yOf V c) (labOf V c) (ti ⟨m + 1, hn⟩) (tj ⟨m + 1, hn⟩) r] at s2
    refine ⟨s1.trans ?_, s2.trans ?_⟩
    · show _ = accUpTo _ ((m + 1) % 8) + sameBlocks (yOf V c) (labOf V c) (ti ⟨m + 1, hn⟩) r ((m + 1) % 8)
      refine congrArg (· + _) ?_
      by_cases h1 : (m + 1) % 8 = 0
      · rw [if_pos h1, h1]; rfl
      · rw [if_neg h1]
        have e1 : ti (⟨m, Nat.lt_of_succ_lt hn⟩ : Fin cfg1.N) = ti ⟨m + 1, hn⟩ := Fin.ext (by show m / 8 = (m + 1) / 8; omega)
        have e2 : m % 8 + 1 = (m + 1) % 8 := by omega
        rw [← e1, ← e2]
        exact p1
    · show _ = accUpTo _ ((m + 1) % 8) + diffBlocks (yOf V c) (labOf V c) (ti ⟨m + 1, hn⟩) r ((m + 1) % 8)
      refine congrArg (· + _) ?_
      by_cases h1 : (m + 1) % 8 = 0
      · rw [if_pos h1, h1]; rfl
      · rw [if_neg h1]
        have e1 : ti (⟨m, Nat.lt_of_succ_lt hn⟩ : Fin cfg1.N) = ti ⟨m + 1, hn⟩ := Fin.ext (by show m / 8 = (m + 1) / 8; omega)
        have e2 : m % 8 + 1 = (m + 1) % 8 := by omega
        rw [← e1, ← e2]
        exact p2

end Invariant

/-! ## From the last tiles' blocks to the two output arrays -/

section Arrays
variable (V : (c : Dev nD) → (b : Ref sig .tc) → Buf (Elt Ideal) ((c : Thread nD τ).loc b))

/-- Entry r of output window 4's block at point t is entry 1024·(t / 8) + r of its array. -/
theorem oblk4_emb (t : Fin cfg1.N) (r : Fin 1024) :
    ((cfg1.win 4).blk t).view.emb (ix1 r) = ix1 (blk8 (ti t) r) := by
  have e := (block_index1 t).2.2.2.2.2.2.1
  refine funext fun a => Fin.ext ?_
  match a with
  | ⟨0, _⟩ => show win1_4.index t (0 : Fin 1) * 1024 + 1 * r.val = t.val / 8 * 1024 + r.val; rw [e]; omega

/-- An index of output array 4 is in point t's block iff it is in the block's range of rows. -/
theorem mem_blk4 (t : Fin cfg1.N) (i : S8192.Idx) :
    i ∈ ((cfg1.win 4).blk t).view.set ↔ ∀ a : Fin 1, win1_4.index t a * S1024.size a ≤ (i a).val
      ∧ (i a).val < win1_4.index t a * S1024.size a + S1024.size a := by
  show i ∈ ((View.whole main_v1_0).slice (win1_4.rect t)).set ↔ _
  rw [View.set_slice_whole, Rect.mem_set_unit]
  exact Iff.rfl

/-- Every row is in the block written back at the last tile of its row block. -/
theorem cover4 (i : S8192.Idx) :
    ∃ t : Fin cfg1.N, (cfg1.win 4).flush t = true ∧ i ∈ ((cfg1.win 4).blk t).view.set := by
  have hi0 : (i 0).val < 8192 := (i 0).isLt
  let t : Fin cfg1.N := ⟨(i 0).val / 1024 * 8 + 7, by rw [show cfg1.N = 64 from N_1]; omega⟩
  have ht : t.val = (i 0).val / 1024 * 8 + 7 := rfl
  have e := (block_index1 t).2.2.2.2.2.2.1
  refine ⟨t, (flush1_4 t).mpr (by rw [ht]; omega), ?_⟩
  rw [mem_blk4]
  intro a
  match a with
  | ⟨0, _⟩ => show win1_4.index t (0 : Fin 1) * 1024 ≤ (i 0).val ∧ (i 0).val < win1_4.index t (0 : Fin 1) * 1024 + 1024; rw [e, ht]; omega

/-- The same-label row sums as one array. -/
def sameArr (y : Fin 8192 → Fin 1024 → EReal) (lab : Fin 8192 → BitVec 32) : S8192.Idx → EReal :=
  fun i => rowSameOf y lab ⟨(i 0).val, (i 0).isLt⟩

/-- What a last tile writes back is its row block of the same-label row sums: all eight tiles have been added. -/
theorem flushed4_eq (c : Dev nD) (t : Fin cfg1.N) (hf : (cfg1.win 4).flush t = true) :
    (Fr.dat1 (F := Ideal) V c).flushed 4 t = ((cfg1.win 4).blk t).view.read (Elt Ideal) (sameArr (yOf V c) (labOf V c)) := by
  have h7 : t.val % 8 = 7 := (flush1_4 t).mp hf
  show (cfg1.win 4).cut (grid1.coords t) ((Fr.dat1 (F := Ideal) V c).after 4 t) = _
  rw [Fr.after1_4]
  funext j
  obtain ⟨r, rfl⟩ : ∃ r : Fin 1024, j = ix1 r := ⟨j 0, eq_ix1 j⟩
  show (Fr.outsAt1 (F := Ideal) V c t.val t.isLt).1 (ix1 r) = sameArr (yOf V c) (labOf V c) (((cfg1.win 4).blk t).view.emb (ix1 r))
  rw [(acc_inv V c r t.val t.isLt).1, h7, oblk4_emb]
  exact acc_sameBlocks (yOf V c) (labOf V c) (ti t) r

/-- OUTPUT ARRAY 4 after the launch: the same-label row sums of the normalized matrix and labels as found. -/
theorem final1_same_arr (c : Dev nD) : (Fr.dat1 (F := Ideal) V c).arrAt 4 cfg1.N = sameArr (yOf V c) (labOf V c) :=
  (Fr.dat1 (F := Ideal) V c).arrAt_eq_of_cover 4 (sameArr (yOf V c) (labOf V c)) (flushed4_eq V c) cover4

theorem final1_same (c : Dev nD) (p : Fin 8192) :
    (Fr.dat1 (F := Ideal) V c).arrAt 4 cfg1.N (ix1 p)
      = rowSameOf (fun p k => V c main_v0 (ix2 p k)) (fun p => V c main_arg3 (ix1 p)) p := by
  rw [final1_same_arr]
  rfl

/-- Entry r of output window 5's block at point t is entry 1024·(t / 8) + r of its array. -/
theorem oblk5_emb (t : Fin cfg1.N) (r : Fin 1024) :
    ((cfg1.win 5).blk t).view.emb (ix1 r) = ix1 (blk8 (ti t) r) := by
  have e := (block_index1 t).2.2.2.2.2.2.2
  refine funext fun a => Fin.ext ?_
  match a with
  | ⟨0, _⟩ => show win1_5.index t (0 : Fin 1) * 1024 + 1 * r.val = t.val / 8 * 1024 + r.val; rw [e]; omega

/-- An index of output array 5 is in point t's block iff it is in the block's range of rows. -/
theorem mem_blk5 (t : Fin cfg1.N) (i : S8192.Idx) :
    i ∈ ((cfg1.win 5).blk t).view.set ↔ ∀ a : Fin 1, win1_5.index t a * S1024.size a ≤ (i a).val
      ∧ (i a).val < win1_5.index t a * S1024.size a + S1024.size a := by
  show i ∈ ((View.whole main_v1_1).slice (win1_5.rect t)).set ↔ _
  rw [View.set_slice_whole, Rect.mem_set_unit]
  exact Iff.rfl

/-- Every row is in the block written back at the last tile of its row block. -/
theorem cover5 (i : S8192.Idx) :
    ∃ t : Fin cfg1.N, (cfg1.win 5).flush t = true ∧ i ∈ ((cfg1.win 5).blk t).view.set := by
  have hi0 : (i 0).val < 8192 := (i 0).isLt
  let t : Fin cfg1.N := ⟨(i 0).val / 1024 * 8 + 7, by rw [show cfg1.N = 64 from N_1]; omega⟩
  have ht : t.val = (i 0).val / 1024 * 8 + 7 := rfl
  have e := (block_index1 t).2.2.2.2.2.2.2
  refine ⟨t, (flush1_5 t).mpr (by rw [ht]; omega), ?_⟩
  rw [mem_blk5]
  intro a
  match a with
  | ⟨0, _⟩ => show win1_5.index t (0 : Fin 1) * 1024 ≤ (i 0).val ∧ (i 0).val < win1_5.index t (0 : Fin 1) * 1024 + 1024; rw [e, ht]; omega

/-- The diff-label row sums as one array. -/
def diffArr (y : Fin 8192 → Fin 1024 → EReal) (lab : Fin 8192 → BitVec 32) : S8192.Idx → EReal :=
  fun i => rowDiffOf y lab ⟨(i 0).val, (i 0).isLt⟩

/-- What a last tile writes back is its row block of the diff-label row sums: all eight tiles have been added. -/
theorem flushed5_eq (c : Dev nD) (t : Fin cfg1.N) (hf : (cfg1.win 5).flush t = true) :
    (Fr.dat1 (F := Ideal) V c).flushed 5 t = ((cfg1.win 5).blk t).view.read (Elt Ideal) (diffArr (yOf V c) (labOf V c)) := by
  have h7 : t.val % 8 = 7 := (flush1_5 t).mp hf
  show (cfg1.win 5).cut (grid1.coords t) ((Fr.dat1 (F := Ideal) V c).after 5 t) = _
  rw [Fr.after1_5]
  funext j
  obtain ⟨r, rfl⟩ : ∃ r : Fin 1024, j = ix1 r := ⟨j 0, eq_ix1 j⟩
  show (Fr.outsAt1 (F := Ideal) V c t.val t.isLt).2 (ix1 r) = diffArr (yOf V c) (labOf V c) (((cfg1.win 5).blk t).view.emb (ix1 r))
  rw [(acc_inv V c r t.val t.isLt).2, h7, oblk5_emb]
  exact acc_diffBlocks (yOf V c) (labOf V c) (ti t) r

/-- OUTPUT ARRAY 5 after the launch: the diff-label row sums of the normalized matrix and labels as found. -/
theorem final1_diff_arr (c : Dev nD) : (Fr.dat1 (F := Ideal) V c).arrAt 5 cfg1.N = diffArr (yOf V c) (labOf V c) :=
  (Fr.dat1 (F := Ideal) V c).arrAt_eq_of_cover 5 (diffArr (yOf V c) (labOf V c)) (flushed5_eq V c) cover5

theorem final1_diff (c : Dev nD) (p : Fin 8192) :
    (Fr.dat1 (F := Ideal) V c).arrAt 5 cfg1.N (ix1 p)
      = rowDiffOf (fun p k => V c main_v0 (ix2 p k)) (fun p => V c main_arg3 (ix1 p)) p := by
  rw [final1_diff_arr]
  rfl

end Arrays

end Cert.KernelIdeal.Val1

end
-- ==== Proof.RefRows.lean ====
/- The reference program's two row-sum stages are the specification's row sums.

   The reference divides each row of the matrix by its floored norm, multiplies the normalized matrix by
   its transpose, exponentiates, masks the result twice (same label and off the diagonal; different
   label) with zero elsewhere, and sums each masked matrix along its rows. Read at an index, every stage is
   a function of a few elements of the stage before; chained, row p of the first sum is the sum over q of
   the similarity of rows p and q where q is another row of p's label, and row p of the second the sum
   over the rows q of another label. Both sums start from the zero word, which adds nothing. -/
import proofs.«127318_j28595892256874_2_alg».proof.Proof.Spec
import proofs.«127318_j28595892256874_2_alg».proof.Proof.RefReadP
import Idealize.ShloMosaic.Lib.ValueIdx
import Idealize.ShloMosaic.PureOps.Ideal.Laws

noncomputable section

namespace Cert.Bridge

open Idealize.ShloMosaic Idealize.ShloMosaic.ValueIdx Cert.ReferenceIdeal Cert.ReferenceIdeal.ReadP

/-! ## One-bit condition words -/

/-- An equality comparison's word is 1 exactly when the operands are equal. -/
theorem cmpi_eq_one_iff {w : Nat} (a b : BitVec w) : IntOp.cmpi .eq a b = 1#1 ↔ a = b := by
  show BitVec.ofBool (a == b) = 1#1 ↔ a = b
  by_cases h : a = b
  · have hb : (a == b) = true := by simpa using h
    rw [hb]; exact ⟨fun _ => h, fun _ => rfl⟩
  · have hb : (a == b) = false := by simpa using h
    rw [hb]; exact ⟨fun h1 => absurd h1 (by decide), fun h2 => absurd h2 h⟩

/-- On one bit, "c and not d" is 1 exactly when c is 1 and d is not. -/
theorem and_not_eq_one_iff (c d : BitVec 1) : IntOp.andi c (~~~d) = 1#1 ↔ c = 1#1 ∧ ¬ d = 1#1 := by
  revert c d; decide

/-- On one bit, "not c" is 1 exactly when c is not. -/
theorem not_eq_one_iff (c : BitVec 1) : ~~~c = 1#1 ↔ ¬ c = 1#1 := by
  revert c; decide

/-- Two coordinates below 8192 are equal exactly when their 32-bit words are. -/
theorem ofNat_coord_eq_iff (p q : Fin 8192) : BitVec.ofNat 32 p.val = BitVec.ofNat 32 q.val ↔ p = q := by
  constructor
  · intro h
    have h' := congrArg BitVec.toNat h
    simp only [BitVec.toNat_ofNat] at h'
    have hp := p.isLt; have hq := q.isLt
    exact Fin.ext (by omega)
  · rintro rfl; rfl

/-! ## The indices the stages read, by coordinates -/

theorem idx_sq_row (p : Fin 8192) (k : Fin 1024) :
    idx_main_call0_v1 (idx_main_call0_v2 (ix2 p (0 : Fin 1))) k = ix2 p k := by
  funext a; match a with | ⟨0, _⟩ => rfl | ⟨1, _⟩ => rfl

theorem idx_den (p : Fin 8192) (k : Fin 1024) : idx_main_v3 (ix2 p k) = ix2 p (0 : Fin 1) := by
  funext a; match a with | ⟨0, _⟩ => rfl | ⟨1, _⟩ => rfl

theorem idx_transpose (k : Fin 1024) (q : Fin 8192) : idx_main_v5 (ix2 k q) = ix2 q k := by
  funext a; match a with | ⟨0, _⟩ => rfl | ⟨1, _⟩ => rfl

theorem idx_dot_left (p q : Fin 8192) (k : Fin 1024) : lidx_main_v6 (ix2 p q) k = ix2 p k := by
  funext a; match a with | ⟨0, _⟩ => rfl | ⟨1, _⟩ => rfl

theorem idx_dot_right (p q : Fin 8192) (k : Fin 1024) : ridx_main_v6 (ix2 p q) k = ix2 k q := by
  funext a; match a with | ⟨0, _⟩ => rfl | ⟨1, _⟩ => rfl

theorem idx_lab_row (p q : Fin 8192) : idx_main_v8 (idx_main_v10 (ix2 p q)) = ix1 p := by
  funext a; match a with | ⟨0, _⟩ => rfl

theorem idx_lab_col (p q : Fin 8192) : idx_main_v9 (idx_main_v11 (ix2 p q)) = ix1 q := by
  funext a; match a with | ⟨0, _⟩ => rfl

theorem idx_row_same (p q : Fin 8192) : idx_main_v21 (ix1 p) q = ix2 p q := by
  funext a; match a with | ⟨0, _⟩ => rfl | ⟨1, _⟩ => rfl

theorem idx_row_diff (p q : Fin 8192) : idx_main_v24 (ix1 p) q = ix2 p q := by
  funext a; match a with | ⟨0, _⟩ => rfl | ⟨1, _⟩ => rfl

/-! ## The float stages: norm, normalized matrix, Gram matrix, its exponential -/

section Stages
variable (x1 : (⟨S8192x1024, .f32⟩ : BufTy).Contents (Elt Ideal)) (x3 : (⟨S8192, .i32⟩ : BufTy).Contents (Elt Ideal))
variable (z : Fin 8192 → Fin 1024 → EReal) (lab : Fin 8192 → BitVec 32)

/-- The floored norm of row p: the square root of the row's sum of squares (a sum started at the zero
    word), against the floor constant. -/
theorem ref_den (hz : ∀ p k, x1 (ix2 p k) = z p k) (p : Fin 8192) :
    val_main_v2 (F := Ideal) x1 (ix2 p (0 : Fin 1)) = den z p := by
  rw [val_main_v2_apply, val_main_v0_apply, val_main_call0_v2_apply, val_main_call0_v1_apply,
    val_main_v1_apply, val_main_cst_apply, val_main_call0_cst_apply]
  show max (Ideal.sqrt (Ideal.ofBits .f32 0x00000000#32 + _)) (Ideal.ofBits .f32 0x322BCC77#32) = _
  rw [Ideal.ofBits_zero_f32, zero_add]
  unfold den eps
  refine congrArg (fun s => max (Ideal.sqrt s) _) (Finset.sum_congr rfl fun k _ => ?_)
  rw [idx_sq_row, val_main_call0_v0_apply, hz]
  rfl

/-- The normalized matrix at (p, k). -/
theorem ref_zn (hz : ∀ p k, x1 (ix2 p k) = z p k) (p : Fin 8192) (k : Fin 1024) :
    val_main_v4 (F := Ideal) x1 (ix2 p k) = zn z p k := by
  rw [val_main_v4_apply, val_main_v3_apply, idx_den, ref_den x1 z hz, hz]
  rfl

/-- The transposed normalized matrix at (k, q) is the normalized matrix at (q, k). -/
theorem ref_znT (hz : ∀ p k, x1 (ix2 p k) = z p k) (k : Fin 1024) (q : Fin 8192) :
    val_main_v5 (F := Ideal) x1 (ix2 k q) = zn z q k := by
  rw [val_main_v5_apply, idx_transpose, ref_zn x1 z hz]

/-- The exponential of the Gram matrix at (p, q) is the similarity of rows p and q. -/
theorem ref_sim (hz : ∀ p k, x1 (ix2 p k) = z p k) (p q : Fin 8192) :
    val_main_v7 (F := Ideal) x1 (ix2 p q) = sim z p q := by
  rw [val_main_v7_apply, val_main_v6_apply]
  show Ideal.exp _ = _
  unfold sim
  refine congrArg Ideal.exp (Finset.sum_congr rfl fun k _ => ?_)
  rw [idx_dot_left, idx_dot_right, ref_zn x1 z hz, ref_znT x1 z hz]

/-! ## The masks -/

/-- The label comparison's word at (p, q) is 1 exactly when the two rows carry the same label. -/
theorem ref_sameLabel (hl : ∀ p, x3 (ix1 p) = lab p) (p q : Fin 8192) :
    val_main_v12 (F := Ideal) x3 (ix2 p q) = 1#1 ↔ lab p = lab q := by
  rw [val_main_v12_apply, val_main_v10_apply, val_main_v8_apply, val_main_v11_apply, val_main_v9_apply,
    idx_lab_row, idx_lab_col, hl, hl]
  exact cmpi_eq_one_iff _ _

/-- The diagonal comparison's word at (p, q) is 1 exactly when p = q. -/
theorem ref_diag (p q : Fin 8192) : val_main_v17 (F := Ideal) (ix2 p q) = 1#1 ↔ p = q := by
  rw [val_main_v17_apply, val_main_v16_apply, val_main_v15_apply, val_main_c_apply, val_main_v13_apply,
    val_main_v14_apply]
  show IntOp.cmpi .eq (BitVec.ofNat 32 p.val + 0#32) (BitVec.ofNat 32 q.val) = 1#1 ↔ _
  rw [BitVec.add_zero, cmpi_eq_one_iff]
  exact ofNat_coord_eq_iff p q

/-- The same-label off-diagonal mask at (p, q). -/
theorem ref_maskSame (hl : ∀ p, x3 (ix1 p) = lab p) (p q : Fin 8192) :
    val_main_v19 (F := Ideal) x3 (ix2 p q) = 1#1 ↔ lab p = lab q ∧ p ≠ q := by
  rw [val_main_v19_apply, val_main_v18_apply, and_not_eq_one_iff, ref_sameLabel x3 lab hl, ref_diag]

/-- The different-label mask at (p, q). -/
theorem ref_maskDiff (hl : ∀ p, x3 (ix1 p) = lab p) (p q : Fin 8192) :
    val_main_v22 (F := Ideal) x3 (ix2 p q) = 1#1 ↔ ¬ lab p = lab q := by
  rw [val_main_v22_apply, not_eq_one_iff, ref_sameLabel x3 lab hl]

/-- The zero the masked-out entries take. -/
theorem ref_zero1 (i : S8192x8192.Idx) : val_main_call1_v1 (F := Ideal) i = 0 := by
  rw [val_main_call1_v1_apply, val_main_call1_v0_apply, val_main_cst_0_apply]
  exact Ideal.ofBits_zero_f32

theorem ref_zero2 (i : S8192x8192.Idx) : val_main_call2_v1 (F := Ideal) i = 0 := by
  rw [val_main_call2_v1_apply, val_main_call2_v0_apply, val_main_cst_2_apply]
  exact Ideal.ofBits_zero_f32

/-! ## The two row sums -/

theorem ref_rowSame_of (hz : ∀ p k, x1 (ix2 p k) = z p k) (hl : ∀ p, x3 (ix1 p) = lab p) (p : Fin 8192) :
    val_main_v21 (F := Ideal) x1 x3 (ix1 p) = rowSame z lab p := by
  rw [val_main_v21_apply, val_main_cst_1_apply]
  show Ideal.ofBits .f32 0x00000000#32 + _ = _
  rw [Ideal.ofBits_zero_f32, zero_add]
  unfold rowSame
  refine Finset.sum_congr rfl fun q _ => ?_
  rw [idx_row_same, val_main_v20_apply, ref_sim x1 z hz, ref_zero1]
  show (if val_main_v19 (F := Ideal) x3 (ix2 p q) = 1#1 then _ else _) = _
  exact if_congr (ref_maskSame x3 lab hl p q) rfl rfl

theorem ref_rowDiff_of (hz : ∀ p k, x1 (ix2 p k) = z p k) (hl : ∀ p, x3 (ix1 p) = lab p) (p : Fin 8192) :
    val_main_v24 (F := Ideal) x1 x3 (ix1 p) = rowDiff z lab p := by
  rw [val_main_v24_apply, val_main_cst_3_apply]
  show Ideal.ofBits .f32 0x00000000#32 + _ = _
  rw [Ideal.ofBits_zero_f32, zero_add]
  unfold rowDiff
  refine Finset.sum_congr rfl fun q _ => ?_
  rw [idx_row_diff, val_main_v23_apply, ref_sim x1 z hz, ref_zero2]
  show (if val_main_v22 (F := Ideal) x3 (ix2 p q) = 1#1 then _ else _) = _
  rw [if_congr (ref_maskDiff x3 lab hl p q) rfl rfl, ite_not]

end Stages

/-- The reference's first row-sum stage is the specification's same-label row sum of its inputs. -/
theorem ref_rowSame (x1 : (⟨S8192x1024, .f32⟩ : BufTy).Contents (Elt Ideal))
    (x3 : (⟨S8192, .i32⟩ : BufTy).Contents (Elt Ideal)) (p : Fin 8192) :
    ReadP.val_main_v21 (F := Ideal) x1 x3 (ix1 p)
      = rowSame (fun p k => x1 (ix2 p k)) (fun p => x3 (ix1 p)) p :=
  ref_rowSame_of x1 x3 _ _ (fun _ _ => rfl) (fun _ => rfl) p

/-- The reference's second row-sum stage is the specification's different-label row sum of its inputs. -/
theorem ref_rowDiff (x1 : (⟨S8192x1024, .f32⟩ : BufTy).Contents (Elt Ideal))
    (x3 : (⟨S8192, .i32⟩ : BufTy).Contents (Elt Ideal)) (p : Fin 8192) :
    ReadP.val_main_v24 (F := Ideal) x1 x3 (ix1 p)
      = rowDiff (fun p k => x1 (ix2 p k)) (fun p => x3 (ix1 p)) p :=
  ref_rowDiff_of x1 x3 _ _ (fun _ _ => rfl) (fun _ => rfl) p

end Cert.Bridge

end
-- ==== Proof.RefTail.lean ====
/- The reference's last stretch as one function of the labels and the two vectors of per-row sums. -/
import proofs.«127318_j28595892256874_2_alg».proof.Proof.RefReadP

noncomputable section

namespace Cert.Bridge

open Idealize.ShloMosaic Cert.ReferenceIdeal Cert.ReferenceIdeal.Gen

/-- The shared epilogue: the per-row sums are summed per label (rows of a label outside the 200 kept are dropped by the
    scatter-add itself), a label counts as present when at least one row carries it, an absent label contributes 0 and a present one
    the logarithm of the ratio of its two sums; the contributions are summed and divided by 128. -/
def tailR {F : FTy → Type} [FloatOps F] (lab : (⟨S8192, .i32⟩ : BufTy).Contents (Elt F)) (rs rd : (⟨S8192, .f32⟩ : BufTy).Contents (Elt F)) :
    (⟨S_, .f32⟩ : BufTy).Contents (Elt F) :=
  let zero200 : (⟨S200, .f32⟩ : BufTy).Contents (Elt F) := broadcastInDim S200 ![] bcast_S_S200 (constant (F := F) S_ .f32 0x00000000#32)
  let one200 : (⟨S200, .f32⟩ : BufTy).Contents (Elt F) := broadcastInDim S200 ![] bcast_S_S200 (constant (F := F) S_ .f32 0x3F800000#32)
  let idx : (⟨S8192x1, .i32⟩ : BufTy).Contents (Elt F) := broadcastInDim S8192x1 ![0] bcast_S8192_S8192x1_0 lab
  let segS : (⟨S200, .f32⟩ : BufTy).Contents (Elt F) := Host.scatterAdd (F := F) scatter_S200_S8192x1_S8192_n_0_0_1 zero200 idx rs
  let segD : (⟨S200, .f32⟩ : BufTy).Contents (Elt F) := Host.scatterAdd (F := F) scatter_S200_S8192x1_S8192_n_0_0_1 zero200 idx rd
  let cnt : (⟨S200, .f32⟩ : BufTy).Contents (Elt F) := Host.scatterAdd (F := F) scatter_S200_S8192x1_S8192_n_0_0_1 zero200 idx
    (broadcastInDim S8192 ![] bcast_S_S8192 (constant (F := F) S_ .f32 0x3F800000#32))
  let present : (⟨S200, .i1⟩ : BufTy).Contents (Elt F) := cmpf (F := F) .ogt cnt zero200
  let ratio : (⟨S200, .f32⟩ : BufTy).Contents (Elt F) := Host.divf (F := F) (select present segS one200) (select present segD one200)
  let per : (⟨S200, .f32⟩ : BufTy).Contents (Elt F) := select present (Host.log (F := F) ratio) zero200
  Host.divf (F := F) (Host.reduceAdd (F := F) per (constant (F := F) S_ .f32 0x00000000#32) reducesTo_S200_S_d0 h_S_)
    (constant (F := F) S_ .f32 0x43000000#32)

/-- The reference's result is the epilogue of its two row-sum stages. -/
theorem ref_tail {F : FTy → Type} [FloatOps F] (x1 : (⟨S8192x1024, .f32⟩ : BufTy).Contents (Elt F)) (x3 : (⟨S8192, .i32⟩ : BufTy).Contents (Elt F)) :
    ReadP.val_main_v43 (F := F) x1 x3 = tailR x3 (ReadP.val_main_v21 (F := F) x1 x3) (ReadP.val_main_v24 (F := F) x1 x3) := rfl

end Cert.Bridge

end
-- ==== Proof.Bridge.lean ====
/- The two programs compute one number: the idealized kernel program's result and the reference's result are the same epilogue
   of the same two vectors of per-row sums.

   The first launch leaves the normalized matrix; the second launch, handed it and the labels, leaves for every row the two sums of
   the specification; the reference's two row-sum stages are the same sums; both programs end with the same epilogue. -/
import proofs.«127318_j28595892256874_2_alg».proof.Proof.KI.Tail
import proofs.«127318_j28595892256874_2_alg».proof.Proof.KI.Val0
import proofs.«127318_j28595892256874_2_alg».proof.Proof.KI.Val1
import proofs.«127318_j28595892256874_2_alg».proof.Proof.RefRows
import proofs.«127318_j28595892256874_2_alg».proof.Proof.RefTail

set_option maxRecDepth 16384

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The embedding matrix and the labels as launched, by coordinates. -/
abbrev zAt (c : Dev nD) : Fin 8192 → Fin 1024 → EReal := fun p k => m ((c : Thread nD τ).loc main_arg1) (ix2 p k)
abbrev labAt (c : Dev nD) : Fin 8192 → BitVec 32 := fun p => m ((c : Thread nD τ).loc main_arg3) (ix1 p)

/-- The labels reach the second launch as launched. -/
theorem V1_labels (c : Dev nD) : Fr.V1 m ρ c main_arg3 = m ((c : Thread nD τ).loc main_arg3) :=
  (Fr.W1_of_ne m ρ c main_arg3 (by decide)).trans rfl

/-- The first launch leaves the normalized matrix. -/
theorem V1_normed (c : Dev nD) (p : Fin 8192) (k : Fin 1024) : Fr.V1 m ρ c main_v0 (ix2 p k) = zn (zAt m c) p k :=
  (congrFun (Fr.W1_arr m ρ c 1) (ix2 p k)).trans (Cert.KernelIdeal.Val.final0 (Fr.V0 m ρ) c p k)

/-- The second launch leaves, row by row, the specification's sum over the other rows of the row's label, -/
theorem V2_same (c : Dev nD) (p : Fin 8192) : Fr.V2 m ρ c main_v1_0 (ix1 p) = rowSame (zAt m c) (labAt m c) p := by
  rw [Fr.W2_v1_0 m ρ c, Cert.KernelIdeal.Val1.final1_same (Fr.V1 m ρ) c p, rowSame_eq]
  refine congrArg₂ (fun y l => rowSameOf y l p) (funext fun p => funext fun k => V1_normed m ρ c p k) (funext fun p => ?_)
  rw [V1_labels m ρ c]

/-- and the sum over the rows of another label. -/
theorem V2_diff (c : Dev nD) (p : Fin 8192) : Fr.V2 m ρ c main_v1_1 (ix1 p) = rowDiff (zAt m c) (labAt m c) p := by
  rw [Fr.W2_v1_1 m ρ c, Cert.KernelIdeal.Val1.final1_diff (Fr.V1 m ρ) c p, rowDiff_eq]
  refine congrArg₂ (fun y l => rowDiffOf y l p) (funext fun p => funext fun k => V1_normed m ρ c p k) (funext fun p => ?_)
  rw [V1_labels m ρ c]

/-- The labels reach the epilogue as launched. -/
theorem V2_labels (c : Dev nD) : Fr.V2 m ρ c main_arg3 = m ((c : Thread nD τ).loc main_arg3) :=
  (Fr.W2_of_ne m ρ c main_arg3 (by decide) (by decide)).trans (V1_labels m ρ c)

/-- Both programs end with one epilogue. -/
theorem tail_same : @tailR Ideal _ = @Cert.KernelIdeal.Val.tailK Ideal _ := rfl

end Cert.Bridge

end
-- ==== Proof.lean ====
/- Two launches and an epilogue against a whole-array reference, equal over the extended reals.

   The kernel program divides every row of an 8192 × 1024 matrix by its floored Euclidean norm (first launch), forms the exponential
   of the Gram matrix of the normalized rows one 1024 × 1024 tile at a time and accumulates, for every row, the sum over the other rows
   of its label and the sum over the rows of another label, tile by tile along the row (second launch), and ends with a per-label
   epilogue on the host. The reference computes the same sums over whole arrays. At the extended reals a change of float format is the
   identity and a sum may be regrouped into tiles freely, so both programs compute the epilogue of the same two vectors of row sums;
   no finiteness of the inputs is used.

   The three frames: each program terminates without a fault and leaves its argument arrays unchanged — for the two kernel programs
   by running both launches' bodies symbolically at every grid point (the modules under K/ and KI/, one text at two float instances),
   for the reference by its run. The idealization rewrote no operation, so there is nothing to preserve. -/
import proofs.«127318_j28595892256874_2_alg».proof.Defs
import proofs.«127318_j28595892256874_2_alg».proof.Proof.Gen.Kernel
import proofs.«127318_j28595892256874_2_alg».proof.Proof.Gen.KernelIdeal
import proofs.«127318_j28595892256874_2_alg».proof.Proof.Gen.ReferenceIdeal
import proofs.«127318_j28595892256874_2_alg».proof.Proof.Gen.Pre_finite_inputs
import proofs.«127318_j28595892256874_2_alg».proof.Proof.K.Frame
import proofs.«127318_j28595892256874_2_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The common result: the epilogue of the specification's two row sums of the launched matrix and labels. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v20) :=
  Cert.KernelIdeal.Val.tailK (m ((c.tc : Thread Cert.KernelIdeal.nD Cert.KernelIdeal.τ).loc Cert.KernelIdeal.main_arg3))
    (fun i => Cert.Bridge.rowSame (Cert.Bridge.zAt m c) (Cert.Bridge.labAt m c) ⟨(i 0).val, (i 0).isLt⟩)
    (fun i => Cert.Bridge.rowDiff (Cert.Bridge.zAt m c) (Cert.Bridge.labAt m c) ⟨(i 0).val, (i 0).isLt⟩)

/-- An index of a vector of 8192 entries is its one coordinate. -/
theorem idx1 (i : Cert.KernelIdeal.S8192.Idx) : i = ix1 (⟨(i 0).val, (i 0).isLt⟩ : Fin 8192) :=
  funext fun a => Fin.ext (by match a with | ⟨0, _⟩ => rfl)

/-- The idealized kernel program's result. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Fr.W9 m ρ c Cert.KernelIdeal.main_v20 = result m c := by
  rw [Cert.KernelIdeal.Val.result_eq m ρ c]
  unfold result
  refine congr (congr (congrArg _ (Cert.Bridge.V2_labels m ρ c)) (funext fun i => ?_)) (funext fun i => ?_)
  · rw [idx1 i]; exact Cert.Bridge.V2_same m ρ c _
  · rw [idx1 i]; exact Cert.Bridge.V2_diff m ρ c _

/-- The reference's result, from a memory agreeing with the kernel program's on the arguments. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.ValueP.res_main_v43 (F := Ideal) m' c = result m c := by
  rw [Cert.ReferenceIdeal.ReadP.val_main_v43_eq, Cert.Bridge.ref_tail, Cert.Bridge.tail_same, h1, h3]
  unfold result
  refine congr (congrArg _ (funext fun i => ?_)) (funext fun i => ?_)
  · rw [idx1 i]; exact Cert.Bridge.ref_rowSame _ _ _
  · rw [idx1 i]; exact Cert.Bridge.ref_rowDiff _ _ _

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => (θ_run Cert.ReferenceIdeal.defs _ _).mono (fun _ h c => (h c).2) (Cert.ReferenceIdeal.ValueP.run (F := Ideal) m ρ),
  trivial,
  fun m ρ m' ρ' _ hagree => ⟨fun c => result m c,
    (θ_run Cert.KernelIdeal.defs _ _).mono (fun _ h c => ⟨(h c).1.trans (kernel_result m ρ c), (h c).2⟩) (Cert.KernelIdeal.Fr.run_result (F := Ideal) m ρ),
    (θ_run Cert.ReferenceIdeal.defs _ _).mono (fun _ h c => ⟨(h c).1.trans (reference_result m m' c (hagree c).2.1 (hagree c).2.2.2), (h c).2⟩)
      (Cert.ReferenceIdeal.ValueP.run (F := Ideal) m' ρ')⟩⟩

end Cert.Proof

end
